-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S512x1 : Shape := ⟨2, ![512, 1]⟩
abbrev S512 : Shape := ⟨1, ![512]⟩

abbrev nBuf : Space → Nat
  | .hbm => 25
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S8192x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S4x2048x1024, .f32⟩
  | .hbm, ⟨22, _⟩ => ⟨S4x2048x1024, .f32⟩
  | .hbm, ⟨23, _⟩ => ⟨S4x2048x1024, .bf16⟩
  | .hbm, ⟨24, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .bf16⟩
  | .local _ .vmem, ⟨19, _⟩ => ⟨S1x1024x1024, .bf16⟩
  | .local _ .vmem, ⟨20, _⟩ => ⟨S1x512x1024, .f32⟩
  | .local _ .vmem, ⟨21, _⟩ => ⟨S1x512x1024, .f32⟩
  | .local _ .vmem, ⟨22, _⟩ => ⟨S512x1, .f32⟩
  | .local _ .vmem, ⟨23, _⟩ => ⟨S512x1, .f32⟩
  | .local _ .vmem, ⟨24, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v41 : BitVec 1 := Scalar.cmpi .eq arg2 c1_i32
  let v42 : BitVec 32 := Scalar.extui v41
  let c0_i32_26 : BitVec 32 := 0#32
  let v43 : BitVec 1 := Scalar.cmpi .ne v42 c0_i32_26
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .f32 = 32 ∨ (Rect.block (s := S4x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .f32 = 32 ∨ (Rect.block (s := S4x2048x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v12) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_cst : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x1024 : S_.BroadcastsInDim S4x2048x1024 (![] : Fin 0 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsBodyProj.lean ====
/-
  The projection kernel's body as a triple: from its seven input blocks held at read contents and its three output
  buffers held at anything, one run of the body leaves the inputs as they were and each output buffer holding
  relu(x·W + b) of the blocks — the one store into it read back whole.
-/
import proofs.«123338_j20864951124606_2_alg».proof.Proof.Gen.Kernel.Launch
import proofs.«123338_j20864951124606_2_alg».proof.Proof.Gen.Kernel.Skeleton
import proofs.«123338_j20864951124606_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-! ## What the body leaves in each output buffer -/

/-- The first output (the queries): the one store, of relu(x·Wq + bq) of the blocks. -/
def outQ (x : Vec F S512x1024 .bf16) (w : Vec F S1024x1024 .bf16) (b : Vec F S1x1024 .f32) : Vec F S512x1024 .f32 :=
  View.canon [⟨rX, k0_pay2 (View.ld x rX) (View.ld w rW) (View.ld b rB)⟩]
/-- The second output (the keys). -/
def outK (x : Vec F S512x1024 .bf16) (w : Vec F S1024x1024 .bf16) (b : Vec F S1x1024 .f32) : Vec F S512x1024 .f32 :=
  View.canon [⟨rX, k0_pay3 (View.ld x rX) (View.ld w rW) (View.ld b rB)⟩]
/-- The third output (the values), narrowed. -/
def outV (x : Vec F S512x1024 .bf16) (w : Vec F S1024x1024 .bf16) (b : Vec F S1x1024 .f32) : Vec F S512x1024 .bf16 :=
  View.canon [⟨rX, k0_pay4 (View.ld x rX) (View.ld w rW) (View.ld b rB)⟩]

/-- One whole-buffer store covers the buffer. -/
theorem coverX {φ : EltTy} (p0 : Vec F S512x1024 φ) (y : S512x1024.Idx) :
    ∃ pc ∈ ([⟨rX, p0⟩] : List (View.Piece (Elt F) S512x1024 φ)), y ∈ pc.1.set :=
  View.cover_of_tiled [⟨rX, p0⟩] S512x1024.size (by rfl) y

set_option maxHeartbeats 4000000 in
/-- The body's triple. -/
theorem sound_qkv (c : Dev nD) (E : Set ℕ) (i : grid0.Coords)
    (arg1 : Memref sig .tc .vmem S512x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .bf16) (harg10 : arg10.IsWhole)
    (x0 : Vec F S512x1024 .bf16) (x1 x2 x3 : Vec F S1024x1024 .bf16) (x4 x5 x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (outQ x0 x1 x4) ∗ owns (c : Thread nD τ) arg9 fullShare (outK x0 x2 x5)
            ∗ owns (c : Thread nD τ) arg10 fullShare (outV x0 x3 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverX _)
  isplitl [H8]
  · iexists _; isplitr
    swap; · iexact H8
    ipureintro
    exact View.read_writes_eq_canon _ _ _ (coverX _)
  iexists _; isplitr
  swap; · iexact H9
  ipureintro
  exact View.read_writes_eq_canon _ _ _ (coverX _)

end Cert.Kernel.Hand

end
-- ==== Proof.BitsHalfProj.lean ====
/-
  The projection region's half of the run, at any contents `V` the region is entered with: each window's block at
  a grid point read off its array, the proof data (every input buffer at its block, every output buffer at
  relu(x·W + b) of the blocks), and the body obligation at a generic point.
-/
import proofs.«123338_j20864951124606_2_alg».proof.Proof.BitsBodyProj

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The region's proof data on core `c`: the arrays as the region finds them; after the body at point `t` each input's
    buffer at its block and each output's at the projection of the blocks; the class invariant (the scoped rest and
    the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outQ (iblk0 V c 0 t) (iblk0 V c 1 t) (iblk0 V c 4 t)
    | ⟨8, _⟩ => outK (iblk0 V c 0 t) (iblk0 V c 2 t) (iblk0 V c 5 t)
    | ⟨9, _⟩ => outV (iblk0 V c 0 t) (iblk0 V c 3 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outQ (iblk0 V c 0 t) (iblk0 V c 1 t) (iblk0 V c 4 t) := by dsimp only [dat0]
theorem after0_8 (c : Dev nD) (t : Fin cfg0.N) : (dat0 V c).after 8 t = outK (iblk0 V c 0 t) (iblk0 V c 2 t) (iblk0 V c 5 t) := by dsimp only [dat0]
theorem after0_9 (c : Dev nD) (t : Fin cfg0.N) : (dat0 V c).after 9 t = outV (iblk0 V c 0 t) (iblk0 V c 3 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_qkv c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsBodyAttnFirst.lean ====
/-
  The attention kernel's body, run once per control case. The grid's last axis has two positions: at the first the
  running maximum, denominator and numerator are reset (to -inf, 0, 0) and then updated with the first block of keys;
  at the second they are updated with the second block and the quotient numerator / denominator is stored to the
  output block. Each run is a triple whose witness is the list of pieces each buffer ends with.
-/
import proofs.«123338_j20864951124606_2_alg».proof.Proof.Gen.Kernel.Launch
import proofs.«123338_j20864951124606_2_alg».proof.Proof.Gen.Kernel.Skeleton
import proofs.«123338_j20864951124606_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, as the body computes them from the grid point -/

/-- "This is the first block of keys": the last grid coordinate is 0. -/
abbrev condFirst (i : grid1.Coords) : Prop := (Scalar.cmpi .ne (Scalar.extui (Scalar.cmpi .eq (BitVec.ofNat 32 (i 2).val) 0#32)) 0#32) = 1#1
/-- "This is the last block of keys": the last grid coordinate is 1. -/
abbrev condLast (i : grid1.Coords) : Prop := k1_cond2 i = 1#1

/-- The first-block condition holds at the even points, -/
theorem hcondFirst : ∀ t : Fin cfg1.N, condFirst (grid1.coords t) ↔ t.val % 2 = 0 :=
  (by decide +kernel : ∀ t : Fin grid1.N, condFirst (grid1.coords t) ↔ t.val % 2 = 0)
/-- the last-block condition at the odd ones. -/
theorem hcondLast : ∀ t : Fin cfg1.N, condLast (grid1.coords t) ↔ t.val % 2 = 1 :=
  (by decide +kernel : ∀ t : Fin grid1.N, condLast (grid1.coords t) ↔ t.val % 2 = 1)

set_option maxHeartbeats 4000000 in
/-- FIRST BLOCK (reset, then one update; nothing stored to the output block, which is handed back as found): the pieces
    the three scratch buffers end with, and the triple. -/
noncomputable def runFirst (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i)
    (x0 : Vec F S1x512x1024 .f32) (x1 : Vec F S1x1024x1024 .f32) (x2 : Vec F S1x1024x1024 .bf16) :
    Σ' (LS7 : List (View.Piece (Elt F) S512x1 .f32)) (LS8 : List (View.Piece (Elt F) S512x1 .f32)), { LS9 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.Kernel.Hand

end
-- ==== Proof.BitsBodyAttnLast.lean ====
/-
  The attention kernel's body at the LAST block of keys: no reset; the running maximum, denominator and numerator
  found in the scratch buffers are updated with the block, and the quotient is stored to the output block.
-/
import proofs.«123338_j20864951124606_2_alg».proof.Proof.BitsBodyAttnFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- LAST BLOCK: the pieces the three scratch buffers and the output block end with, and the triple; the scratch
    buffers are found at the contents the point before left (`xs7`, `xs8`, `xs9`). -/
noncomputable def runLast (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i)
    (x0 : Vec F S1x512x1024 .f32) (x1 : Vec F S1x1024x1024 .f32) (x2 : Vec F S1x1024x1024 .bf16)
    (xs7 xs8 : Vec F S512x1 .f32) (xs9 : Vec F S512x1024 .f32) :
    Σ' (L6 : List (View.Piece (Elt F) S1x512x1024 .f32)) (LS7 : List (View.Piece (Elt F) S512x1 .f32)) (LS8 : List (View.Piece (Elt F) S512x1 .f32)), { LS9 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.Kernel.Hand

end
-- ==== Proof.BitsAttnPieces.lean ====
/-
  What each control case of the attention body leaves in the buffers it stores into: the pieces the run found, read
  back over arbitrary earlier contents, and the fact that the pieces cover each buffer (so the earlier contents do
  not matter).
-/
import proofs.«123338_j20864951124606_2_alg».proof.Proof.BitsBodyAttnLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers the contents are stated through -/

/-- One staging buffer of the output window (the choice does not matter: the pieces cover it). -/
abbrev VO : View sig .tc .vmem S1x512x1024 .f32 := (Memref.whole cc1_stg3_0 : Memref sig .tc .vmem S1x512x1024 .f32).view
/-- The three scratch buffers the kernel carries from one block of keys to the next: running maximum, denominator,
    numerator. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev VM : View sig .tc .vmem S512x1 .f32 := scM.view
abbrev VL : View sig .tc .vmem S512x1 .f32 := scL.view
abbrev VA : View sig .tc .vmem S512x1024 .f32 := scA.view

/-! ## The first block of keys -/

/-- The running maximum after the first block. -/
def firstM (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) : Vec F S512x1 .f32 :=
  VM.read (Elt F) (VM.writes (Elt F) VM.junk (runFirst c i arg3 harg3 arg4 harg4 arg5 harg5 arg6 harg6 arg7 harg7 arg8 harg8 arg9 harg9 hc1 hc2 x0 x1 x2).1)

/-- The denominator after the first block. -/
def firstL (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) : Vec F S512x1 .f32 :=
  VL.read (Elt F) (VL.writes (Elt F) VL.junk (runFirst c i arg3 harg3 arg4 harg4 arg5 harg5 arg6 harg6 arg7 harg7 arg8 harg8 arg9 harg9 hc1 hc2 x0 x1 x2).2.1)

/-- The numerator after the first block. -/
def firstA (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) : Vec F S512x1024 .f32 :=
  VA.read (Elt F) (VA.writes (Elt F) VA.junk (runFirst c i arg3 harg3 arg4 harg4 arg5 harg5 arg6 harg6 arg7 harg7 arg8 harg8 arg9 harg9 hc1 hc2 x0 x1 x2).2.2.1)

/-- The first block's stores cover the maximum's buffer. -/
theorem coverFirstM (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) (y : S512x1.Idx) :
    ∃ pc ∈ (runFirst c i arg3 harg3 arg4 harg4 arg5 harg5 arg6 harg6 arg7 harg7 arg8 harg8 arg9 harg9 hc1 hc2 x0 x1 x2).1, y ∈ pc.1.set :=
  View.cover_of_tiledL (runFirst c i arg3 harg3 arg4 harg4 arg5 harg5 arg6 harg6 arg7 harg7 arg8 harg8 arg9 harg9 hc1 hc2 x0 x1 x2).1 S512x1.size (by sl_kernel_rfl) y

/-- They cover the denominator's buffer. -/
theorem coverFirstL (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) (y : S512x1.Idx) :
    ∃ pc ∈ (runFirst c i arg3 harg3 arg4 harg4 arg5 harg5 arg6 harg6 arg7 harg7 arg8 harg8 arg9 harg9 hc1 hc2 x0 x1 x2).2.1, y ∈ pc.1.set :=
  View.cover_of_tiledL (runFirst c i arg3 harg3 arg4 harg4 arg5 harg5 arg6 harg6 arg7 harg7 arg8 harg8 arg9 harg9 hc1 hc2 x0 x1 x2).2.1 S512x1.size (by sl_kernel_rfl) y

/-- They cover the numerator's buffer. -/
theorem coverFirstA (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) (y : S512x1024.Idx) :
    ∃ pc ∈ (runFirst c i arg3 harg3 arg4 harg4 arg5 harg5 arg6 harg6 arg7 harg7 arg8 harg8 arg9 harg9 hc1 hc2 x0 x1 x2).2.2.1, y ∈ pc.1.set :=
  View.cover_of_tiledL (runFirst c i arg3 harg3 arg4 harg4 arg5 harg5 arg6 harg6 arg7 harg7 arg8 harg8 arg9 harg9 hc1 hc2 x0 x1 x2).2.2.1 S512x1024.size (by sl_kernel_rfl) y

/-! ## The last block of keys -/

/-- The output block: numerator over denominator. -/
def lastO (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) : Vec F S1x512x1024 .f32 :=
  VO.read (Elt F) (VO.writes (Elt F) VO.junk (runLast c i arg3 harg3 arg4 harg4 arg5 harg5 arg6 harg6 arg7 harg7 arg8 harg8 arg9 harg9 hc1 hc2 x0 x1 x2 xs7 xs8 xs9).1)

/-- The running maximum after the last block. -/
def lastM (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) : Vec F S512x1 .f32 :=
  VM.read (Elt F) (VM.writes (Elt F) VM.junk (runLast c i arg3 harg3 arg4 harg4 arg5 harg5 arg6 harg6 arg7 harg7 arg8 harg8 arg9 harg9 hc1 hc2 x0 x1 x2 xs7 xs8 xs9).2.1)

/-- The denominator after the last block. -/
def lastL (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) : Vec F S512x1 .f32 :=
  VL.read (Elt F) (VL.writes (Elt F) VL.junk (runLast c i arg3 harg3 arg4 harg4 arg5 harg5 arg6 harg6 arg7 harg7 arg8 harg8 arg9 harg9 hc1 hc2 x0 x1 x2 xs7 xs8 xs9).2.2.1)

/-- The numerator after the last block. -/
def lastA (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) : Vec F S512x1024 .f32 :=
  VA.read (Elt F) (VA.writes (Elt F) VA.junk (runLast c i arg3 harg3 arg4 harg4 arg5 harg5 arg6 harg6 arg7 harg7 arg8 harg8 arg9 harg9 hc1 hc2 x0 x1 x2 xs7 xs8 xs9).2.2.2.1)

/-- The last block's store covers the output block. -/
theorem coverLastO (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) (y : S1x512x1024.Idx) :
    ∃ pc ∈ (runLast c i arg3 harg3 arg4 harg4 arg5 harg5 arg6 harg6 arg7 harg7 arg8 harg8 arg9 harg9 hc1 hc2 x0 x1 x2 xs7 xs8 xs9).1, y ∈ pc.1.set :=
  View.cover_of_tiledL (runLast c i arg3 harg3 arg4 harg4 arg5 harg5 arg6 harg6 arg7 harg7 arg8 harg8 arg9 harg9 hc1 hc2 x0 x1 x2 xs7 xs8 xs9).1 S1x512x1024.size (by sl_kernel_rfl) y

/-- Its stores cover the maximum's buffer. -/
theorem coverLastM (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) (y : S512x1.Idx) :
    ∃ pc ∈ (runLast c i arg3 harg3 arg4 harg4 arg5 harg5 arg6 harg6 arg7 harg7 arg8 harg8 arg9 harg9 hc1 hc2 x0 x1 x2 xs7 xs8 xs9).2.1, y ∈ pc.1.set :=
  View.cover_of_tiledL (runLast c i arg3 harg3 arg4 harg4 arg5 harg5 arg6 harg6 arg7 harg7 arg8 harg8 arg9 harg9 hc1 hc2 x0 x1 x2 xs7 xs8 xs9).2.1 S512x1.size (by sl_kernel_rfl) y

/-- They cover the denominator's buffer. -/
theorem coverLastL (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) (y : S512x1.Idx) :
    ∃ pc ∈ (runLast c i arg3 harg3 arg4 harg4 arg5 harg5 arg6 harg6 arg7 harg7 arg8 harg8 arg9 harg9 hc1 hc2 x0 x1 x2 xs7 xs8 xs9).2.2.1, y ∈ pc.1.set :=
  View.cover_of_tiledL (runLast c i arg3 harg3 arg4 harg4 arg5 harg5 arg6 harg6 arg7 harg7 arg8 harg8 arg9 harg9 hc1 hc2 x0 x1 x2 xs7 xs8 xs9).2.2.1 S512x1.size (by sl_kernel_rfl) y

/-- They cover the numerator's buffer. -/
theorem coverLastA (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) (y : S512x1024.Idx) :
    ∃ pc ∈ (runLast c i arg3 harg3 arg4 harg4 arg5 harg5 arg6 harg6 arg7 harg7 arg8 harg8 arg9 harg9 hc1 hc2 x0 x1 x2 xs7 xs8 xs9).2.2.2.1, y ∈ pc.1.set :=
  View.cover_of_tiledL (runLast c i arg3 harg3 arg4 harg4 arg5 harg5 arg6 harg6 arg7 harg7 arg8 harg8 arg9 harg9 hc1 hc2 x0 x1 x2 xs7 xs8 xs9).2.2.2.1 S512x1024.size (by sl_kernel_rfl) y

end Cert.Kernel.Hand

end
-- ==== Proof.BitsHalfAttn.lean ====
/-
  The attention region's half of the run, at any contents `V` the region is entered with: the blocks, what the three
  carried scratch buffers and the output block hold after each grid point (by recursion on the point: a first-block
  point resets and updates, a last-block point updates what the point before left and stores the quotient), the
  region's invariant carrying those scratch contents from point to point, the proof data, and the body obligation.
-/
import proofs.«123338_j20864951124606_2_alg».proof.Proof.BitsAttnPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At a first-block point nothing is stored to the output block: the window is idle there, -/
theorem idleAt1_3_first : ∀ t : Fin cfg1.N, condFirst (grid1.coords t) → ¬condLast (grid1.coords t) → cfg1.idle 3 (grid1.coords t) = true := by decide +kernel
/-- and the block is not written back there. -/
theorem noFlush1_3_first : ∀ t : Fin cfg1.N, condFirst (grid1.coords t) → ¬condLast (grid1.coords t) → (cfg1.win 3).flush t = false := by decide +kernel
/-- At a last-block point the output block is stored. -/
theorem liveAt1_3_last : ∀ t : Fin cfg1.N, ¬condFirst (grid1.coords t) → condLast (grid1.coords t) → cfg1.idle 3 (grid1.coords t) = false := by decide +kernel

/-! ## The buffers the body is called with -/

abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)

/-- A scoped buffer the region neither stages through nor names, whole at some contents. -/
abbrev oth (c : Dev nD) (b : Ref sig .tc) : sProp 𝕄 := iprop(∃ f : Buf (Elt F) ((c : Thread nD τ).loc b), ((c : Thread nD τ).loc b) ↦{fullShare} f)

/-- The class invariant with the scratch buffers as memrefs owned at some contents. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-! ## What the output block and the carried scratch buffers hold after each point -/

/-- The output block where nothing was stored to it: a placeholder nothing consults (the window is idle there). -/
def idleO : Vec F S1x512x1024 .f32 := VO.read (Elt F) (VO.writes (Elt F) VO.junk [])

/-- After point `n`: the output block, the running maximum, the denominator, the numerator. -/
def outsAt1 (c : Dev nD) : (n : ℕ) → n < cfg1.N → Vec F S1x512x1024 .f32 × Vec F S512x1 .f32 × Vec F S512x1 .f32 × Vec F S512x1024 .f32
  | 0, hn => (idleO, firstM c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩),
      firstL c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩),
      firstA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩))
  | n + 1, hn =>
    if h0 : (n + 1) % 2 = 0 then
      (idleO, firstM c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcondFirst ⟨n + 1, hn⟩).mpr h0) (fun h => (fun h => by (try dsimp only at h); omega) ((hcondLast ⟨n + 1, hn⟩).mp h)) (iblk1 V c 0 ⟨n + 1, hn⟩) (iblk1 V c 1 ⟨n + 1, hn⟩) (iblk1 V c 2 ⟨n + 1, hn⟩),
      firstL c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcondFirst ⟨n + 1, hn⟩).mpr h0) (fun h => (fun h => by (try dsimp only at h); omega) ((hcondLast ⟨n + 1, hn⟩).mp h)) (iblk1 V c 0 ⟨n + 1, hn⟩) (iblk1 V c 1 ⟨n + 1, hn⟩) (iblk1 V c 2 ⟨n + 1, hn⟩),
      firstA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcondFirst ⟨n + 1, hn⟩).mpr h0) (fun h => (fun h => by (try dsimp only at h); omega) ((hcondLast ⟨n + 1, hn⟩).mp h)) (iblk1 V c 0 ⟨n + 1, hn⟩) (iblk1 V c 1 ⟨n + 1, hn⟩) (iblk1 V c 2 ⟨n + 1, hn⟩))
    else
      (lastO c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      lastM c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      lastL c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      lastA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- At a first-block point: reset and one update, whatever the point before left. -/
theorem outsAt1_first (c : Dev nD) (t : Fin cfg1.N) (h0 : t.val % 2 = 0) :
    outsAt1 V c t.val t.isLt = (idleO, firstM c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcondFirst t).mpr h0) (fun h => (fun h => by (try dsimp only at h); omega) ((hcondLast t).mp h)) (iblk1 V c 0 t) (iblk1 V c 1 t) (iblk1 V c 2 t),
      firstL c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcondFirst t).mpr h0) (fun h => (fun h => by (try dsimp only at h); omega) ((hcondLast t).mp h)) (iblk1 V c 0 t) (iblk1 V c 1 t) (iblk1 V c 2 t),
      firstA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcondFirst t).mpr h0) (fun h => (fun h => by (try dsimp only at h); omega) ((hcondLast t).mp h)) (iblk1 V c 0 t) (iblk1 V c 1 t) (iblk1 V c 2 t)) := by
  obtain ⟨n, hn⟩ := t
  cases n with
  | zero => exact rfl
  | succ n => exact (dif_pos h0).trans rfl

/-- At a last-block point: one update of what the point before left, and the quotient. -/
theorem outsAt1_last (c : Dev nD) (t : Fin cfg1.N) (h0 : ¬t.val % 2 = 0) :
    outsAt1 V c t.val t.isLt = (lastO c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcondFirst t).mp h)) ((hcondLast t).mpr (by (try dsimp only at h0 ⊢); omega)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      lastM c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcondFirst t).mp h)) ((hcondLast t).mpr (by (try dsimp only at h0 ⊢); omega)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      lastL c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcondFirst t).mp h)) ((hcondLast t).mpr (by (try dsimp only at h0 ⊢); omega)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      lastA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcondFirst t).mp h)) ((hcondLast t).mpr (by (try dsimp only at h0 ⊢); omega)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region's invariant before position `n`: before the first point the class's (every scratch buffer at anything);
    afterwards the three carried scratch buffers at what the point before left, the other scoped buffers at anything,
    the generator register at some state. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM fullShare ((outsAt1 V c n hn).2.1) ∗ owns (c : Thread nD τ) scL fullShare ((outsAt1 V c n hn).2.2.1) ∗ owns (c : Thread nD τ) scA fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM fullShare ((outsAt1 V c n hn).2.1) ∗ owns (c : Thread nD τ) scL fullShare ((outsAt1 V c n hn).2.2.1) ∗ owns (c : Thread nD τ) scA fullShare ((outsAt1 V c n hn).2.2.2)) ∗ (∃ r, prngReg c r)) := rfl

theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM fullShare ((outsAt1 V c (n - 1) (by omega)).2.1) ∗ owns (c : Thread nD τ) scL fullShare ((outsAt1 V c (n - 1) (by omega)).2.2.1) ∗ owns (c : Thread nD τ) scA fullShare ((outsAt1 V c (n - 1) (by omega)).2.2.2)) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant carrying the scratch buffers;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's parity says which case it is; the
    invariant hands the body the carried scratch buffers at what the point before left (at anything before the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hF : condFirst (grid1.coords t) := (hcondFirst t).mpr h0
    have hL : ¬condLast (grid1.coords t) := fun h => (fun h => by omega) ((hcondLast t).mp h)
    rw [Dat.leavesExact_idle (dat1 V c) 3 t (idleAt1_3_first t hF hL) (noFlush1_3_first t hF hL)]
    rw [outsAt1_first V c t h0]
    unfold firstM firstL firstA; (try dsimp only)
    by_cases hz : t.val = 0
    · rw [PhiS_castSucc V c t, PhiS_zero V c _ _ hz, PhiA1_eq]
      iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩⟩
      iapply ((runFirst c (grid1.coords t) _ _ _ _ _ _ _ _ _ _ _ _ _ _ hF hL (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HO0 HO1 HO2 HO3 HO4 HO5 HO6 HO7 HO8 HO9 HO10 HO11 HO12 HO13 HS0 HS1 HS2 Hg]
      · isplitl [HO0 HO1 HO2 HO3 HO4 HO5 HO6 HO7 HO8 HO9 HO10 HO11 HO12 HO13 HS0 HS1 HS2]
        · isplitl [HO0]; · iexact HO0
          isplitl [HO1]; · iexact HO1
          isplitl [HO2]; · iexact HO2
          isplitl [HO3]; · iexact HO3
          isplitl [HO4]; · iexact HO4
          isplitl [HO5]; · iexact HO5
          isplitl [HO6]; · iexact HO6
          isplitl [HO7]; · iexact HO7
          isplitl [HO8]; · iexact HO8
          isplitl [HO9]; · iexact HO9
          isplitl [HO10]; · iexact HO10
          isplitl [HO11]; · iexact HO11
          isplitl [HO12]; · iexact HO12
          isplitl [HO13]; · iexact HO13
          isplitl [HS0]
          · unfold owns; iexists _; isplitr
            swap; · iexact HS0
            ipureintro; exact View.read_writes_of_cover _ _ _ _ _ (coverFirstM c _ _ _ _ _ _ _ _ _ _ _ _ _ _ _ _ _ _ _ _)
          isplitl [HS1]
          · unfold owns; iexists _; isplitr
            swap; · iexact HS1
            ipureintro; exact View.read_writes_of_cover _ _ _ _ _ (coverFirstL c _ _ _ _ _ _ _ _ _ _ _ _ _ _ _ _ _ _ _ _)
          unfold owns; iexists _; isplitr
          swap; · iexact HS2
          ipureintro; exact View.read_writes_of_cover _ _ _ _ _ (coverFirstA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩⟩
      iapply ((runFirst c (grid1.coords t) _ _ _ _ _ _ _ _ _ _ _ _ _ _ hF hL (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HO0 HO1 HO2 HO3 HO4 HO5 HO6 HO7 HO8 HO9 HO10 HO11 HO12 HO13 HS0 HS1 HS2 Hg]
      · isplitl [HO0 HO1 HO2 HO3 HO4 HO5 HO6 HO7 HO8 HO9 HO10 HO11 HO12 HO13 HS0 HS1 HS2]
        · isplitl [HO0]; · iexact HO0
          isplitl [HO1]; · iexact HO1
          isplitl [HO2]; · iexact HO2
          isplitl [HO3]; · iexact HO3
          isplitl [HO4]; · iexact HO4
          isplitl [HO5]; · iexact HO5
          isplitl [HO6]; · iexact HO6
          isplitl [HO7]; · iexact HO7
          isplitl [HO8]; · iexact HO8
          isplitl [HO9]; · iexact HO9
          isplitl [HO10]; · iexact HO10
          isplitl [HO11]; · iexact HO11
          isplitl [HO12]; · iexact HO12
          isplitl [HO13]; · iexact HO13
          isplitl [HS0]
          · unfold owns; iexists _; isplitr
            swap; · iexact HS0
            ipureintro; exact View.read_writes_of_cover _ _ _ _ _ (coverFirstM c _ _ _ _ _ _ _ _ _ _ _ _ _ _ _ _ _ _ _ _)
          isplitl [HS1]
          · unfold owns; iexists _; isplitr
            swap; · iexact HS1
            ipureintro; exact View.read_writes_of_cover _ _ _ _ _ (coverFirstL c _ _ _ _ _ _ _ _ _ _ _ _ _ _ _ _ _ _ _ _)
          unfold owns; iexists _; isplitr
          swap; · iexact HS2
          ipureintro; exact View.read_writes_of_cover _ _ _ _ _ (coverFirstA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hF : ¬condFirst (grid1.coords t) := fun h => h0 ((hcondFirst t).mp h)
    have hL : condLast (grid1.coords t) := (hcondLast t).mpr (by omega)
    rw [show (dat1 V c).leavesExact 3 t = owns (c : Thread nD τ) (ms1_3 t) fullShare ((dat1 V c).after 3 t) from by
      unfold Dat.leavesExact; rw [liveAt1_3_last t hF hL], after1_3]
    rw [outsAt1_last V c t h0]
    unfold lastO lastM lastL lastA; (try dsimp only)
    have hz : t.val ≠ 0 := by omega
    rw [PhiS_castSucc V c t, PhiS_pos V c _ _ hz]
    iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩⟩
    iapply ((runLast c (grid1.coords t) _ _ _ _ _ _ _ _ _ _ _ _ _ _ hF hL (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HO0 HO1 HO2 HO3 HO4 HO5 HO6 HO7 HO8 HO9 HO10 HO11 HO12 HO13 HS0 HS1 HS2 Hg]
    · isplitl [HO0 HO1 HO2 HO3 HO4 HO5 HO6 HO7 HO8 HO9 HO10 HO11 HO12 HO13 HS0 HS1 HS2]
      · isplitl [HO0]; · iexact HO0
        isplitl [HO1]; · iexact HO1
        isplitl [HO2]; · iexact HO2
        isplitl [HO3]; · iexact HO3
        isplitl [HO4]; · iexact HO4
        isplitl [HO5]; · iexact HO5
        isplitl [HO6]; · iexact HO6
        isplitl [HO7]; · iexact HO7
        isplitl [HO8]; · iexact HO8
        isplitl [HO9]; · iexact HO9
        isplitl [HO10]; · iexact HO10
        isplitl [HO11]; · iexact HO11
        isplitl [HO12]; · iexact HO12
        isplitl [HO13]; · iexact HO13
        isplitl [HS0]
        · unfold owns; iexists _; isplitr
          swap; · iexact HS0
          ipureintro; exact View.read_writes_of_cover _ _ _ _ _ (coverLastM c _ _ _ _ _ _ _ _ _ _ _ _ _ _ _ _ _ _ _ _ _ _ _)
        isplitl [HS1]
        · unfold owns; iexists _; isplitr
          swap; · iexact HS1
          ipureintro; exact View.read_writes_of_cover _ _ _ _ _ (coverLastL c _ _ _ _ _ _ _ _ _ _ _ _ _ _ _ _ _ _ _ _ _ _ _)
        unfold owns; iexists _; isplitr
        swap; · iexact HS2
        ipureintro; exact View.read_writes_of_cover _ _ _ _ _ (coverLastA c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLastO c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HO0, HO1, HO2, HO3, HO4, HO5, HO6, HO7, HO8, HO9, HO10, HO11, HO12, HO13, HS0, HS1, HS2⟩, Hg⟩
  isplitl [HO0 HO1 HO2 HO3 HO4 HO5 HO6 HO7 HO8 HO9 HO10 HO11 HO12 HO13 HS0 HS1 HS2]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.BitsRunAll.lean ====
/-
  The whole run: @main as five segments — the host operations before the first kernel region, the projection region,
  three reshapes, the attention region — over one thread state, "every unscoped buffer at the contents the segments
  before left". Every weakly fair execution terminates, faulting nowhere, and each unscoped buffer then holds the last
  boundary's contents: a region's arrays at what its pipeline leaves, everything else as entered.
-/
import proofs.«123338_j20864951124606_2_alg».proof.Proof.BitsHalfProj
import proofs.«123338_j20864951124606_2_alg».proof.Proof.BitsHalfAttn
import proofs.«123338_j20864951124606_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the host operations before the first region (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the three reshapes (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host operations as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with it only when unification may unfold plain definitions
-- in a metavariable's type
set_option backward.isDefEq.respectTransparency.types false in
/-- REGION 0 over the thread state: entered from every unscoped buffer at `W1`, left at `W2`. Its arrays are split
    out of the unscoped buffers and put back at the exit contents; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain definitions
-- in a metavariable's type
set_option backward.isDefEq.respectTransparency.types false in
/-- REGION 1 over the thread state: entered from every unscoped buffer at `W3`, left at `W4`. Its arrays are split
    out of the unscoped buffers and put back at the exit contents; the generator register goes into the region's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

/-- A buffer no host operation writes and no region's window stages reaches the end as launched. -/
theorem W4_kept (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m c (Proc.devRef .tc r) = m ((c : Thread nD τ).loc r) :=
  (W4_of_ne m c r h4).trans <| (StableHlo.after_of_writes_sub hostOps1 _ hostOps1_writes h3).trans <|
    (W2_of_ne m c r h2).trans <| (StableHlo.after_of_writes_sub hostOps0 _ hostOps0_writes h1).trans rfl

/-- The result buffer ends at what the second region's pipeline leaves in its output array. -/
theorem W4_result (c : Dev nD) : W4 m c (Proc.devRef .tc main_v15) = (dat1 (V3 m) c).arrAt 3 cfg1.N :=
  W4_arr m c 3

/-- THE RUN, read at the result and the arguments: the result buffer at the second region's final output array, every
    argument as launched. -/
theorem run_read : θ_run defs (onTc (τ := τ) (main (F := F))) ⟨m, fun _ => 0, ρ⟩ (fun r => ∀ c : Dev nD,
      r.2.mem ((c.tc : Thread nD τ).loc main_v15) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v15 (by decide))).trans (W4_result m c),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide))⟩)
    (run_all m ρ)

/-- THE FRAME: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_read m ρ)

end Cert.Kernel.Hand

end
-- ==== Proof.BodyProj.lean ====
/-
  The projection kernel's body as a triple: from its seven input blocks held at read contents and its three output
  buffers held at anything, one run of the body leaves the inputs as they were and each output buffer holding
  relu(x·W + b) of the blocks — the one store into it read back whole.
-/
import proofs.«123338_j20864951124606_2_alg».proof.Proof.Gen.KernelIdeal.Launch
import proofs.«123338_j20864951124606_2_alg».proof.Proof.Gen.KernelIdeal.Skeleton
import proofs.«123338_j20864951124606_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-! ## What the body leaves in each output buffer -/

/-- The first output (the queries): the one store, of relu(x·Wq + bq) of the blocks. -/
def outQ (x : Vec F S512x1024 .bf16) (w : Vec F S1024x1024 .bf16) (b : Vec F S1x1024 .f32) : Vec F S512x1024 .f32 :=
  View.canon [⟨rX, k0_pay2 (View.ld x rX) (View.ld w rW) (View.ld b rB)⟩]
/-- The second output (the keys). -/
def outK (x : Vec F S512x1024 .bf16) (w : Vec F S1024x1024 .bf16) (b : Vec F S1x1024 .f32) : Vec F S512x1024 .f32 :=
  View.canon [⟨rX, k0_pay3 (View.ld x rX) (View.ld w rW) (View.ld b rB)⟩]
/-- The third output (the values), narrowed. -/
def outV (x : Vec F S512x1024 .bf16) (w : Vec F S1024x1024 .bf16) (b : Vec F S1x1024 .f32) : Vec F S512x1024 .bf16 :=
  View.canon [⟨rX, k0_pay4 (View.ld x rX) (View.ld w rW) (View.ld b rB)⟩]

/-- One whole-buffer store covers the buffer. -/
theorem coverX {φ : EltTy} (p0 : Vec F S512x1024 φ) (y : S512x1024.Idx) :
    ∃ pc ∈ ([⟨rX, p0⟩] : List (View.Piece (Elt F) S512x1024 φ)), y ∈ pc.1.set :=
  View.cover_of_tiled [⟨rX, p0⟩] S512x1024.size (by rfl) y

set_option maxHeartbeats 4000000 in
/-- The body's triple. -/
theorem sound_qkv (c : Dev nD) (E : Set ℕ) (i : grid0.Coords)
    (arg1 : Memref sig .tc .vmem S512x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .bf16) (harg10 : arg10.IsWhole)
    (x0 : Vec F S512x1024 .bf16) (x1 x2 x3 : Vec F S1024x1024 .bf16) (x4 x5 x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (outQ x0 x1 x4) ∗ owns (c : Thread nD τ) arg9 fullShare (outK x0 x2 x5)
            ∗ owns (c : Thread nD τ) arg10 fullShare (outV x0 x3 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverX _)
  isplitl [H8]
  · iexists _; isplitr
    swap; · iexact H8
    ipureintro
    exact View.read_writes_eq_canon _ _ _ (coverX _)
  iexists _; isplitr
  swap; · iexact H9
  ipureintro
  exact View.read_writes_eq_canon _ _ _ (coverX _)

end Cert.KernelIdeal.Hand

end
-- ==== Proof.HalfProj.lean ====
/-
  The projection region's half of the run, at any contents `V` the region is entered with: each window's block at
  a grid point read off its array, the proof data (every input buffer at its block, every output buffer at
  relu(x·W + b) of the blocks), and the body obligation at a generic point.
-/
import proofs.«123338_j20864951124606_2_alg».proof.Proof.BodyProj

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The region's proof data on core `c`: the arrays as the region finds them; after the body at point `t` each input's
    buffer at its block and each output's at the projection of the blocks; the class invariant (the scoped rest and
    the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outQ (iblk0 V c 0 t) (iblk0 V c 1 t) (iblk0 V c 4 t)
    | ⟨8, _⟩ => outK (iblk0 V c 0 t) (iblk0 V c 2 t) (iblk0 V c 5 t)
    | ⟨9, _⟩ => outV (iblk0 V c 0 t) (iblk0 V c 3 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outQ (iblk0 V c 0 t) (iblk0 V c 1 t) (iblk0 V c 4 t) := by dsimp only [dat0]
theorem after0_8 (c : Dev nD) (t : Fin cfg0.N) : (dat0 V c).after 8 t = outK (iblk0 V c 0 t) (iblk0 V c 2 t) (iblk0 V c 5 t) := by dsimp only [dat0]
theorem after0_9 (c : Dev nD) (t : Fin cfg0.N) : (dat0 V c).after 9 t = outV (iblk0 V c 0 t) (iblk0 V c 3 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_qkv c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.BodyAttnFirst.lean ====
/-
  The attention kernel's body, run once per control case. The grid's last axis has two positions: at the first the
  running maximum, denominator and numerator are reset (to -inf, 0, 0) and then updated with the first block of keys;
  at the second they are updated with the second block and the quotient numerator / denominator is stored to the
  output block. Each run is a triple whose witness is the list of pieces each buffer ends with.
-/
import proofs.«123338_j20864951124606_2_alg».proof.Proof.Gen.KernelIdeal.Launch
import proofs.«123338_j20864951124606_2_alg».proof.Proof.Gen.KernelIdeal.Skeleton
import proofs.«123338_j20864951124606_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, as the body computes them from the grid point -/

/-- "This is the first block of keys": the last grid coordinate is 0. -/
abbrev condFirst (i : grid1.Coords) : Prop := (Scalar.cmpi .ne (Scalar.extui (Scalar.cmpi .eq (BitVec.ofNat 32 (i 2).val) 0#32)) 0#32) = 1#1
/-- "This is the last block of keys": the last grid coordinate is 1. -/
abbrev condLast (i : grid1.Coords) : Prop := k1_cond2 i = 1#1

/-- The first-block condition holds at the even points, -/
theorem hcondFirst : ∀ t : Fin cfg1.N, condFirst (grid1.coords t) ↔ t.val % 2 = 0 :=
  (by decide +kernel : ∀ t : Fin grid1.N, condFirst (grid1.coords t) ↔ t.val % 2 = 0)
/-- the last-block condition at the odd ones. -/
theorem hcondLast : ∀ t : Fin cfg1.N, condLast (grid1.coords t) ↔ t.val % 2 = 1 :=
  (by decide +kernel : ∀ t : Fin grid1.N, condLast (grid1.coords t) ↔ t.val % 2 = 1)

set_option maxHeartbeats 4000000 in
/-- FIRST BLOCK (reset, then one update; nothing stored to the output block, which is handed back as found): the pieces
    the three scratch buffers end with, and the triple. -/
noncomputable def runFirst (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i)
    (x0 : Vec F S1x512x1024 .f32) (x1 : Vec F S1x1024x1024 .f32) (x2 : Vec F S1x1024x1024 .bf16) :
    Σ' (LS7 : List (View.Piece (Elt F) S512x1 .f32)) (LS8 : List (View.Piece (Elt F) S512x1 .f32)), { LS9 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.KernelIdeal.Hand

end
-- ==== Proof.BodyAttnLast.lean ====
/-
  The attention kernel's body at the LAST block of keys: no reset; the running maximum, denominator and numerator
  found in the scratch buffers are updated with the block, and the quotient is stored to the output block.
-/
import proofs.«123338_j20864951124606_2_alg».proof.Proof.BodyAttnFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- LAST BLOCK: the pieces the three scratch buffers and the output block end with, and the triple; the scratch
    buffers are found at the contents the point before left (`xs7`, `xs8`, `xs9`). -/
noncomputable def runLast (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i)
    (x0 : Vec F S1x512x1024 .f32) (x1 : Vec F S1x1024x1024 .f32) (x2 : Vec F S1x1024x1024 .bf16)
    (xs7 xs8 : Vec F S512x1 .f32) (xs9 : Vec F S512x1024 .f32) :
    Σ' (L6 : List (View.Piece (Elt F) S1x512x1024 .f32)) (LS7 : List (View.Piece (Elt F) S512x1 .f32)) (LS8 : List (View.Piece (Elt F) S512x1 .f32)), { LS9 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.KernelIdeal.Hand

end
-- ==== Proof.AttnPieces.lean ====
/-
  What each control case of the attention body leaves in the buffers it stores into: the pieces the run found, read
  back over arbitrary earlier contents, and the fact that the pieces cover each buffer (so the earlier contents do
  not matter).
-/
import proofs.«123338_j20864951124606_2_alg».proof.Proof.BodyAttnLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers the contents are stated through -/

/-- One staging buffer of the output window (the choice does not matter: the pieces cover it). -/
abbrev VO : View sig .tc .vmem S1x512x1024 .f32 := (Memref.whole cc1_stg3_0 : Memref sig .tc .vmem S1x512x1024 .f32).view
/-- The three scratch buffers the kernel carries from one block of keys to the next: running maximum, denominator,
    numerator. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev VM : View sig .tc .vmem S512x1 .f32 := scM.view
abbrev VL : View sig .tc .vmem S512x1 .f32 := scL.view
abbrev VA : View sig .tc .vmem S512x1024 .f32 := scA.view

/-! ## The first block of keys -/

/-- The running maximum after the first block. -/
def firstM (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) : Vec F S512x1 .f32 :=
  VM.read (Elt F) (VM.writes (Elt F) VM.junk (runFirst c i arg3 harg3 arg4 harg4 arg5 harg5 arg6 harg6 arg7 harg7 arg8 harg8 arg9 harg9 hc1 hc2 x0 x1 x2).1)

/-- The denominator after the first block. -/
def firstL (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) : Vec F S512x1 .f32 :=
  VL.read (Elt F) (VL.writes (Elt F) VL.junk (runFirst c i arg3 harg3 arg4 harg4 arg5 harg5 arg6 harg6 arg7 harg7 arg8 harg8 arg9 harg9 hc1 hc2 x0 x1 x2).2.1)

/-- The numerator after the first block. -/
def firstA (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) : Vec F S512x1024 .f32 :=
  VA.read (Elt F) (VA.writes (Elt F) VA.junk (runFirst c i arg3 harg3 arg4 harg4 arg5 harg5 arg6 harg6 arg7 harg7 arg8 harg8 arg9 harg9 hc1 hc2 x0 x1 x2).2.2.1)

/-- The first block's stores cover the maximum's buffer. -/
theorem coverFirstM (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) (y : S512x1.Idx) :
    ∃ pc ∈ (runFirst c i arg3 harg3 arg4 harg4 arg5 harg5 arg6 harg6 arg7 harg7 arg8 harg8 arg9 harg9 hc1 hc2 x0 x1 x2).1, y ∈ pc.1.set :=
  View.cover_of_tiledL (runFirst c i arg3 harg3 arg4 harg4 arg5 harg5 arg6 harg6 arg7 harg7 arg8 harg8 arg9 harg9 hc1 hc2 x0 x1 x2).1 S512x1.size (by sl_kernel_rfl) y

/-- They cover the denominator's buffer. -/
theorem coverFirstL (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) (y : S512x1.Idx) :
    ∃ pc ∈ (runFirst c i arg3 harg3 arg4 harg4 arg5 harg5 arg6 harg6 arg7 harg7 arg8 harg8 arg9 harg9 hc1 hc2 x0 x1 x2).2.1, y ∈ pc.1.set :=
  View.cover_of_tiledL (runFirst c i arg3 harg3 arg4 harg4 arg5 harg5 arg6 harg6 arg7 harg7 arg8 harg8 arg9 harg9 hc1 hc2 x0 x1 x2).2.1 S512x1.size (by sl_kernel_rfl) y

/-- They cover the numerator's buffer. -/
theorem coverFirstA (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) (y : S512x1024.Idx) :
    ∃ pc ∈ (runFirst c i arg3 harg3 arg4 harg4 arg5 harg5 arg6 harg6 arg7 harg7 arg8 harg8 arg9 harg9 hc1 hc2 x0 x1 x2).2.2.1, y ∈ pc.1.set :=
  View.cover_of_tiledL (runFirst c i arg3 harg3 arg4 harg4 arg5 harg5 arg6 harg6 arg7 harg7 arg8 harg8 arg9 harg9 hc1 hc2 x0 x1 x2).2.2.1 S512x1024.size (by sl_kernel_rfl) y

/-! ## The last block of keys -/

/-- The output block: numerator over denominator. -/
def lastO (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) : Vec F S1x512x1024 .f32 :=
  VO.read (Elt F) (VO.writes (Elt F) VO.junk (runLast c i arg3 harg3 arg4 harg4 arg5 harg5 arg6 harg6 arg7 harg7 arg8 harg8 arg9 harg9 hc1 hc2 x0 x1 x2 xs7 xs8 xs9).1)

/-- The running maximum after the last block. -/
def lastM (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) : Vec F S512x1 .f32 :=
  VM.read (Elt F) (VM.writes (Elt F) VM.junk (runLast c i arg3 harg3 arg4 harg4 arg5 harg5 arg6 harg6 arg7 harg7 arg8 harg8 arg9 harg9 hc1 hc2 x0 x1 x2 xs7 xs8 xs9).2.1)

/-- The denominator after the last block. -/
def lastL (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) : Vec F S512x1 .f32 :=
  VL.read (Elt F) (VL.writes (Elt F) VL.junk (runLast c i arg3 harg3 arg4 harg4 arg5 harg5 arg6 harg6 arg7 harg7 arg8 harg8 arg9 harg9 hc1 hc2 x0 x1 x2 xs7 xs8 xs9).2.2.1)

/-- The numerator after the last block. -/
def lastA (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) : Vec F S512x1024 .f32 :=
  VA.read (Elt F) (VA.writes (Elt F) VA.junk (runLast c i arg3 harg3 arg4 harg4 arg5 harg5 arg6 harg6 arg7 harg7 arg8 harg8 arg9 harg9 hc1 hc2 x0 x1 x2 xs7 xs8 xs9).2.2.2.1)

/-- The last block's store covers the output block. -/
theorem coverLastO (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) (y : S1x512x1024.Idx) :
    ∃ pc ∈ (runLast c i arg3 harg3 arg4 harg4 arg5 harg5 arg6 harg6 arg7 harg7 arg8 harg8 arg9 harg9 hc1 hc2 x0 x1 x2 xs7 xs8 xs9).1, y ∈ pc.1.set :=
  View.cover_of_tiledL (runLast c i arg3 harg3 arg4 harg4 arg5 harg5 arg6 harg6 arg7 harg7 arg8 harg8 arg9 harg9 hc1 hc2 x0 x1 x2 xs7 xs8 xs9).1 S1x512x1024.size (by sl_kernel_rfl) y

/-- Its stores cover the maximum's buffer. -/
theorem coverLastM (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) (y : S512x1.Idx) :
    ∃ pc ∈ (runLast c i arg3 harg3 arg4 harg4 arg5 harg5 arg6 harg6 arg7 harg7 arg8 harg8 arg9 harg9 hc1 hc2 x0 x1 x2 xs7 xs8 xs9).2.1, y ∈ pc.1.set :=
  View.cover_of_tiledL (runLast c i arg3 harg3 arg4 harg4 arg5 harg5 arg6 harg6 arg7 harg7 arg8 harg8 arg9 harg9 hc1 hc2 x0 x1 x2 xs7 xs8 xs9).2.1 S512x1.size (by sl_kernel_rfl) y

/-- They cover the denominator's buffer. -/
theorem coverLastL (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) (y : S512x1.Idx) :
    ∃ pc ∈ (runLast c i arg3 harg3 arg4 harg4 arg5 harg5 arg6 harg6 arg7 harg7 arg8 harg8 arg9 harg9 hc1 hc2 x0 x1 x2 xs7 xs8 xs9).2.2.1, y ∈ pc.1.set :=
  View.cover_of_tiledL (runLast c i arg3 harg3 arg4 harg4 arg5 harg5 arg6 harg6 arg7 harg7 arg8 harg8 arg9 harg9 hc1 hc2 x0 x1 x2 xs7 xs8 xs9).2.2.1 S512x1.size (by sl_kernel_rfl) y

/-- They cover the numerator's buffer. -/
theorem coverLastA (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) (y : S512x1024.Idx) :
    ∃ pc ∈ (runLast c i arg3 harg3 arg4 harg4 arg5 harg5 arg6 harg6 arg7 harg7 arg8 harg8 arg9 harg9 hc1 hc2 x0 x1 x2 xs7 xs8 xs9).2.2.2.1, y ∈ pc.1.set :=
  View.cover_of_tiledL (runLast c i arg3 harg3 arg4 harg4 arg5 harg5 arg6 harg6 arg7 harg7 arg8 harg8 arg9 harg9 hc1 hc2 x0 x1 x2 xs7 xs8 xs9).2.2.2.1 S512x1024.size (by sl_kernel_rfl) y

end Cert.KernelIdeal.Hand

end
-- ==== Proof.HalfAttn.lean ====
/-
  The attention region's half of the run, at any contents `V` the region is entered with: the blocks, what the three
  carried scratch buffers and the output block hold after each grid point (by recursion on the point: a first-block
  point resets and updates, a last-block point updates what the point before left and stores the quotient), the
  region's invariant carrying those scratch contents from point to point, the proof data, and the body obligation.
-/
import proofs.«123338_j20864951124606_2_alg».proof.Proof.AttnPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At a first-block point nothing is stored to the output block: the window is idle there, -/
theorem idleAt1_3_first : ∀ t : Fin cfg1.N, condFirst (grid1.coords t) → ¬condLast (grid1.coords t) → cfg1.idle 3 (grid1.coords t) = true := by decide +kernel
/-- and the block is not written back there. -/
theorem noFlush1_3_first : ∀ t : Fin cfg1.N, condFirst (grid1.coords t) → ¬condLast (grid1.coords t) → (cfg1.win 3).flush t = false := by decide +kernel
/-- At a last-block point the output block is stored. -/
theorem liveAt1_3_last : ∀ t : Fin cfg1.N, ¬condFirst (grid1.coords t) → condLast (grid1.coords t) → cfg1.idle 3 (grid1.coords t) = false := by decide +kernel

/-! ## The buffers the body is called with -/

abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)

/-- A scoped buffer the region neither stages through nor names, whole at some contents. -/
abbrev oth (c : Dev nD) (b : Ref sig .tc) : sProp 𝕄 := iprop(∃ f : Buf (Elt F) ((c : Thread nD τ).loc b), ((c : Thread nD τ).loc b) ↦{fullShare} f)

/-- The class invariant with the scratch buffers as memrefs owned at some contents. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-! ## What the output block and the carried scratch buffers hold after each point -/

/-- The output block where nothing was stored to it: a placeholder nothing consults (the window is idle there). -/
def idleO : Vec F S1x512x1024 .f32 := VO.read (Elt F) (VO.writes (Elt F) VO.junk [])

/-- After point `n`: the output block, the running maximum, the denominator, the numerator. -/
def outsAt1 (c : Dev nD) : (n : ℕ) → n < cfg1.N → Vec F S1x512x1024 .f32 × Vec F S512x1 .f32 × Vec F S512x1 .f32 × Vec F S512x1024 .f32
  | 0, hn => (idleO, firstM c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩),
      firstL c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩),
      firstA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩))
  | n + 1, hn =>
    if h0 : (n + 1) % 2 = 0 then
      (idleO, firstM c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcondFirst ⟨n + 1, hn⟩).mpr h0) (fun h => (fun h => by (try dsimp only at h); omega) ((hcondLast ⟨n + 1, hn⟩).mp h)) (iblk1 V c 0 ⟨n + 1, hn⟩) (iblk1 V c 1 ⟨n + 1, hn⟩) (iblk1 V c 2 ⟨n + 1, hn⟩),
      firstL c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcondFirst ⟨n + 1, hn⟩).mpr h0) (fun h => (fun h => by (try dsimp only at h); omega) ((hcondLast ⟨n + 1, hn⟩).mp h)) (iblk1 V c 0 ⟨n + 1, hn⟩) (iblk1 V c 1 ⟨n + 1, hn⟩) (iblk1 V c 2 ⟨n + 1, hn⟩),
      firstA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) ((hcondFirst ⟨n + 1, hn⟩).mpr h0) (fun h => (fun h => by (try dsimp only at h); omega) ((hcondLast ⟨n + 1, hn⟩).mp h)) (iblk1 V c 0 ⟨n + 1, hn⟩) (iblk1 V c 1 ⟨n + 1, hn⟩) (iblk1 V c 2 ⟨n + 1, hn⟩))
    else
      (lastO c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      lastM c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      lastL c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2,
      lastA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr (by (try dsimp only at h0 ⊢); omega)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- At a first-block point: reset and one update, whatever the point before left. -/
theorem outsAt1_first (c : Dev nD) (t : Fin cfg1.N) (h0 : t.val % 2 = 0) :
    outsAt1 V c t.val t.isLt = (idleO, firstM c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcondFirst t).mpr h0) (fun h => (fun h => by (try dsimp only at h); omega) ((hcondLast t).mp h)) (iblk1 V c 0 t) (iblk1 V c 1 t) (iblk1 V c 2 t),
      firstL c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcondFirst t).mpr h0) (fun h => (fun h => by (try dsimp only at h); omega) ((hcondLast t).mp h)) (iblk1 V c 0 t) (iblk1 V c 1 t) (iblk1 V c 2 t),
      firstA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcondFirst t).mpr h0) (fun h => (fun h => by (try dsimp only at h); omega) ((hcondLast t).mp h)) (iblk1 V c 0 t) (iblk1 V c 1 t) (iblk1 V c 2 t)) := by
  obtain ⟨n, hn⟩ := t
  cases n with
  | zero => exact rfl
  | succ n => exact (dif_pos h0).trans rfl

/-- At a last-block point: one update of what the point before left, and the quotient. -/
theorem outsAt1_last (c : Dev nD) (t : Fin cfg1.N) (h0 : ¬t.val % 2 = 0) :
    outsAt1 V c t.val t.isLt = (lastO c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcondFirst t).mp h)) ((hcondLast t).mpr (by (try dsimp only at h0 ⊢); omega)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      lastM c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcondFirst t).mp h)) ((hcondLast t).mpr (by (try dsimp only at h0 ⊢); omega)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      lastL c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcondFirst t).mp h)) ((hcondLast t).mpr (by (try dsimp only at h0 ⊢); omega)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      lastA c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcondFirst t).mp h)) ((hcondLast t).mpr (by (try dsimp only at h0 ⊢); omega)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region's invariant before position `n`: before the first point the class's (every scratch buffer at anything);
    afterwards the three carried scratch buffers at what the point before left, the other scoped buffers at anything,
    the generator register at some state. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM fullShare ((outsAt1 V c n hn).2.1) ∗ owns (c : Thread nD τ) scL fullShare ((outsAt1 V c n hn).2.2.1) ∗ owns (c : Thread nD τ) scA fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM fullShare ((outsAt1 V c n hn).2.1) ∗ owns (c : Thread nD τ) scL fullShare ((outsAt1 V c n hn).2.2.1) ∗ owns (c : Thread nD τ) scA fullShare ((outsAt1 V c n hn).2.2.2)) ∗ (∃ r, prngReg c r)) := rfl

theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg2_0 ∗ oth c cc0_stg3_0 ∗ oth c cc0_stg4_0 ∗ oth c cc0_stg5_0 ∗ oth c cc0_stg6_0 ∗ oth c cc0_stg7_0 ∗ oth c cc0_stg7_1 ∗ oth c cc0_stg8_0 ∗ oth c cc0_stg8_1 ∗ oth c cc0_stg9_0 ∗ oth c cc0_stg9_1 ∗ owns (c : Thread nD τ) scM fullShare ((outsAt1 V c (n - 1) (by omega)).2.1) ∗ owns (c : Thread nD τ) scL fullShare ((outsAt1 V c (n - 1) (by omega)).2.2.1) ∗ owns (c : Thread nD τ) scA fullShare ((outsAt1 V c (n - 1) (by omega)).2.2.2)) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant carrying the scratch buffers;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's parity says which case it is; the
    invariant hands the body the carried scratch buffers at what the point before left (at anything before the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hF : condFirst (grid1.coords t) := (hcondFirst t).mpr h0
    have hL : ¬condLast (grid1.coords t) := fun h => (fun h => by omega) ((hcondLast t).mp h)
    rw [Dat.leavesExact_idle (dat1 V c) 3 t (idleAt1_3_first t hF hL) (noFlush1_3_first t hF hL)]
    rw [outsAt1_first V c t h0]
    unfold firstM firstL firstA; (try dsimp only)
    by_cases hz : t.val = 0
    · rw [PhiS_castSucc V c t, PhiS_zero V c _ _ hz, PhiA1_eq]
      iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩⟩
      iapply ((runFirst c (grid1.coords t) _ _ _ _ _ _ _ _ _ _ _ _ _ _ hF hL (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HO0 HO1 HO2 HO3 HO4 HO5 HO6 HO7 HO8 HO9 HO10 HO11 HO12 HO13 HS0 HS1 HS2 Hg]
      · isplitl [HO0 HO1 HO2 HO3 HO4 HO5 HO6 HO7 HO8 HO9 HO10 HO11 HO12 HO13 HS0 HS1 HS2]
        · isplitl [HO0]; · iexact HO0
          isplitl [HO1]; · iexact HO1
          isplitl [HO2]; · iexact HO2
          isplitl [HO3]; · iexact HO3
          isplitl [HO4]; · iexact HO4
          isplitl [HO5]; · iexact HO5
          isplitl [HO6]; · iexact HO6
          isplitl [HO7]; · iexact HO7
          isplitl [HO8]; · iexact HO8
          isplitl [HO9]; · iexact HO9
          isplitl [HO10]; · iexact HO10
          isplitl [HO11]; · iexact HO11
          isplitl [HO12]; · iexact HO12
          isplitl [HO13]; · iexact HO13
          isplitl [HS0]
          · unfold owns; iexists _; isplitr
            swap; · iexact HS0
            ipureintro; exact View.read_writes_of_cover _ _ _ _ _ (coverFirstM c _ _ _ _ _ _ _ _ _ _ _ _ _ _ _ _ _ _ _ _)
          isplitl [HS1]
          · unfold owns; iexists _; isplitr
            swap; · iexact HS1
            ipureintro; exact View.read_writes_of_cover _ _ _ _ _ (coverFirstL c _ _ _ _ _ _ _ _ _ _ _ _ _ _ _ _ _ _ _ _)
          unfold owns; iexists _; isplitr
          swap; · iexact HS2
          ipureintro; exact View.read_writes_of_cover _ _ _ _ _ (coverFirstA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩⟩
      iapply ((runFirst c (grid1.coords t) _ _ _ _ _ _ _ _ _ _ _ _ _ _ hF hL (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HO0 HO1 HO2 HO3 HO4 HO5 HO6 HO7 HO8 HO9 HO10 HO11 HO12 HO13 HS0 HS1 HS2 Hg]
      · isplitl [HO0 HO1 HO2 HO3 HO4 HO5 HO6 HO7 HO8 HO9 HO10 HO11 HO12 HO13 HS0 HS1 HS2]
        · isplitl [HO0]; · iexact HO0
          isplitl [HO1]; · iexact HO1
          isplitl [HO2]; · iexact HO2
          isplitl [HO3]; · iexact HO3
          isplitl [HO4]; · iexact HO4
          isplitl [HO5]; · iexact HO5
          isplitl [HO6]; · iexact HO6
          isplitl [HO7]; · iexact HO7
          isplitl [HO8]; · iexact HO8
          isplitl [HO9]; · iexact HO9
          isplitl [HO10]; · iexact HO10
          isplitl [HO11]; · iexact HO11
          isplitl [HO12]; · iexact HO12
          isplitl [HO13]; · iexact HO13
          isplitl [HS0]
          · unfold owns; iexists _; isplitr
            swap; · iexact HS0
            ipureintro; exact View.read_writes_of_cover _ _ _ _ _ (coverFirstM c _ _ _ _ _ _ _ _ _ _ _ _ _ _ _ _ _ _ _ _)
          isplitl [HS1]
          · unfold owns; iexists _; isplitr
            swap; · iexact HS1
            ipureintro; exact View.read_writes_of_cover _ _ _ _ _ (coverFirstL c _ _ _ _ _ _ _ _ _ _ _ _ _ _ _ _ _ _ _ _)
          unfold owns; iexists _; isplitr
          swap; · iexact HS2
          ipureintro; exact View.read_writes_of_cover _ _ _ _ _ (coverFirstA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hF : ¬condFirst (grid1.coords t) := fun h => h0 ((hcondFirst t).mp h)
    have hL : condLast (grid1.coords t) := (hcondLast t).mpr (by omega)
    rw [show (dat1 V c).leavesExact 3 t = owns (c : Thread nD τ) (ms1_3 t) fullShare ((dat1 V c).after 3 t) from by
      unfold Dat.leavesExact; rw [liveAt1_3_last t hF hL], after1_3]
    rw [outsAt1_last V c t h0]
    unfold lastO lastM lastL lastA; (try dsimp only)
    have hz : t.val ≠ 0 := by omega
    rw [PhiS_castSucc V c t, PhiS_pos V c _ _ hz]
    iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩⟩
    iapply ((runLast c (grid1.coords t) _ _ _ _ _ _ _ _ _ _ _ _ _ _ hF hL (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HO0 HO1 HO2 HO3 HO4 HO5 HO6 HO7 HO8 HO9 HO10 HO11 HO12 HO13 HS0 HS1 HS2 Hg]
    · isplitl [HO0 HO1 HO2 HO3 HO4 HO5 HO6 HO7 HO8 HO9 HO10 HO11 HO12 HO13 HS0 HS1 HS2]
      · isplitl [HO0]; · iexact HO0
        isplitl [HO1]; · iexact HO1
        isplitl [HO2]; · iexact HO2
        isplitl [HO3]; · iexact HO3
        isplitl [HO4]; · iexact HO4
        isplitl [HO5]; · iexact HO5
        isplitl [HO6]; · iexact HO6
        isplitl [HO7]; · iexact HO7
        isplitl [HO8]; · iexact HO8
        isplitl [HO9]; · iexact HO9
        isplitl [HO10]; · iexact HO10
        isplitl [HO11]; · iexact HO11
        isplitl [HO12]; · iexact HO12
        isplitl [HO13]; · iexact HO13
        isplitl [HS0]
        · unfold owns; iexists _; isplitr
          swap; · iexact HS0
          ipureintro; exact View.read_writes_of_cover _ _ _ _ _ (coverLastM c _ _ _ _ _ _ _ _ _ _ _ _ _ _ _ _ _ _ _ _ _ _ _)
        isplitl [HS1]
        · unfold owns; iexists _; isplitr
          swap; · iexact HS1
          ipureintro; exact View.read_writes_of_cover _ _ _ _ _ (coverLastL c _ _ _ _ _ _ _ _ _ _ _ _ _ _ _ _ _ _ _ _ _ _ _)
        unfold owns; iexists _; isplitr
        swap; · iexact HS2
        ipureintro; exact View.read_writes_of_cover _ _ _ _ _ (coverLastA c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLastO c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HO0, HO1, HO2, HO3, HO4, HO5, HO6, HO7, HO8, HO9, HO10, HO11, HO12, HO13, HS0, HS1, HS2⟩, Hg⟩
  isplitl [HO0 HO1 HO2 HO3 HO4 HO5 HO6 HO7 HO8 HO9 HO10 HO11 HO12 HO13 HS0 HS1 HS2]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.RunAll.lean ====
/-
  The whole run: @main as five segments — the host operations before the first kernel region, the projection region,
  three reshapes, the attention region — over one thread state, "every unscoped buffer at the contents the segments
  before left". Every weakly fair execution terminates, faulting nowhere, and each unscoped buffer then holds the last
  boundary's contents: a region's arrays at what its pipeline leaves, everything else as entered.
-/
import proofs.«123338_j20864951124606_2_alg».proof.Proof.HalfProj
import proofs.«123338_j20864951124606_2_alg».proof.Proof.HalfAttn
import proofs.«123338_j20864951124606_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the host operations before the first region (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the three reshapes (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host operations as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with it only when unification may unfold plain definitions
-- in a metavariable's type
set_option backward.isDefEq.respectTransparency.types false in
/-- REGION 0 over the thread state: entered from every unscoped buffer at `W1`, left at `W2`. Its arrays are split
    out of the unscoped buffers and put back at the exit contents; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain definitions
-- in a metavariable's type
set_option backward.isDefEq.respectTransparency.types false in
/-- REGION 1 over the thread state: entered from every unscoped buffer at `W3`, left at `W4`. Its arrays are split
    out of the unscoped buffers and put back at the exit contents; the generator register goes into the region's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

/-- A buffer no host operation writes and no region's window stages reaches the end as launched. -/
theorem W4_kept (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m c (Proc.devRef .tc r) = m ((c : Thread nD τ).loc r) :=
  (W4_of_ne m c r h4).trans <| (StableHlo.after_of_writes_sub hostOps1 _ hostOps1_writes h3).trans <|
    (W2_of_ne m c r h2).trans <| (StableHlo.after_of_writes_sub hostOps0 _ hostOps0_writes h1).trans rfl

/-- The result buffer ends at what the second region's pipeline leaves in its output array. -/
theorem W4_result (c : Dev nD) : W4 m c (Proc.devRef .tc main_v15) = (dat1 (V3 m) c).arrAt 3 cfg1.N :=
  W4_arr m c 3

/-- THE RUN, read at the result and the arguments: the result buffer at the second region's final output array, every
    argument as launched. -/
theorem run_read : θ_run defs (onTc (τ := τ) (main (F := F))) ⟨m, fun _ => 0, ρ⟩ (fun r => ∀ c : Dev nD,
      r.2.mem ((c.tc : Thread nD τ).loc main_v15) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v15 (by decide))).trans (W4_result m c),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide))⟩)
    (run_all m ρ)

/-- THE FRAME: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_read m ρ)

end Cert.KernelIdeal.Hand

end
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.HostIn.lean ====
/-
  The host operations around the two kernel regions, read at an index on the extended reals: before the first region
  x is flattened to [8192, 1024] and each weight matrix transposed (the narrowing to bf16 is the identity here), each
  bias becomes a one-row matrix; between the regions q, k, v are unflattened to [4, 2048, 1024].
-/
import proofs.«123338_j20864951124606_2_alg».proof.Proof.Gen.KernelIdeal.Launch
import proofs.«123338_j20864951124606_2_alg».proof.Proof.LibLayoutB
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (W : Valuation τ sig (Elt Ideal))

/-! ## Before the first region -/

theorem host_x : (StableHlo.after hostOps0 W (Proc.devRef .tc main_v1) : (⟨S8192x1024, .bf16⟩ : BufTy).Contents (Elt Ideal))
    = ((truncf (F := Ideal) .bf16 (shapeCast S8192x1024 (W (Proc.devRef .tc main_arg0) : (⟨S4x2048x1024, .f32⟩ : BufTy).Contents (Elt Ideal)) shapeCasts_S4x2048x1024_S8192x1024) bitsLt_bf16_f32) : (⟨S8192x1024, .bf16⟩ : BufTy).Contents (Elt Ideal)) := by
  dsimp only [hostOps0]; after_results <;> try rfl

theorem host_wq : (StableHlo.after hostOps0 W (Proc.devRef .tc main_v3) : (⟨S1024x1024, .bf16⟩ : BufTy).Contents (Elt Ideal))
    = ((truncf (F := Ideal) .bf16 (transpose S1024x1024 [1, 0] (W (Proc.devRef .tc main_arg1) : (⟨S1024x1024, .f32⟩ : BufTy).Contents (Elt Ideal)) transposes_S1024x1024_S1024x1024_1_0) bitsLt_bf16_f32) : (⟨S1024x1024, .bf16⟩ : BufTy).Contents (Elt Ideal)) := by
  dsimp only [hostOps0]; after_results <;> try rfl

theorem host_wk : (StableHlo.after hostOps0 W (Proc.devRef .tc main_v5) : (⟨S1024x1024, .bf16⟩ : BufTy).Contents (Elt Ideal))
    = ((truncf (F := Ideal) .bf16 (transpose S1024x1024 [1, 0] (W (Proc.devRef .tc main_arg3) : (⟨S1024x1024, .f32⟩ : BufTy).Contents (Elt Ideal)) transposes_S1024x1024_S1024x1024_1_0) bitsLt_bf16_f32) : (⟨S1024x1024, .bf16⟩ : BufTy).Contents (Elt Ideal)) := by
  dsimp only [hostOps0]; after_results <;> try rfl

theorem host_wv : (StableHlo.after hostOps0 W (Proc.devRef .tc main_v7) : (⟨S1024x1024, .bf16⟩ : BufTy).Contents (Elt Ideal))
    = ((truncf (F := Ideal) .bf16 (transpose S1024x1024 [1, 0] (W (Proc.devRef .tc main_arg5) : (⟨S1024x1024, .f32⟩ : BufTy).Contents (Elt Ideal)) transposes_S1024x1024_S1024x1024_1_0) bitsLt_bf16_f32) : (⟨S1024x1024, .bf16⟩ : BufTy).Contents (Elt Ideal)) := by
  dsimp only [hostOps0]; after_results <;> try rfl

theorem host_bq : (StableHlo.after hostOps0 W (Proc.devRef .tc main_v8) : (⟨S1x1024, .f32⟩ : BufTy).Contents (Elt Ideal))
    = (shapeCast S1x1024 (W (Proc.devRef .tc main_arg2) : (⟨S1024, .f32⟩ : BufTy).Contents (Elt Ideal)) shapeCasts_S1024_S1x1024 : (⟨S1x1024, .f32⟩ : BufTy).Contents (Elt Ideal)) := by
  dsimp only [hostOps0]; after_results <;> try rfl

theorem host_bk : (StableHlo.after hostOps0 W (Proc.devRef .tc main_v9) : (⟨S1x1024, .f32⟩ : BufTy).Contents (Elt Ideal))
    = (shapeCast S1x1024 (W (Proc.devRef .tc main_arg4) : (⟨S1024, .f32⟩ : BufTy).Contents (Elt Ideal)) shapeCasts_S1024_S1x1024 : (⟨S1x1024, .f32⟩ : BufTy).Contents (Elt Ideal)) := by
  dsimp only [hostOps0]; after_results <;> try rfl

theorem host_bv : (StableHlo.after hostOps0 W (Proc.devRef .tc main_v10) : (⟨S1x1024, .f32⟩ : BufTy).Contents (Elt Ideal))
    = (shapeCast S1x1024 (W (Proc.devRef .tc main_arg6) : (⟨S1024, .f32⟩ : BufTy).Contents (Elt Ideal)) shapeCasts_S1024_S1x1024 : (⟨S1x1024, .f32⟩ : BufTy).Contents (Elt Ideal)) := by
  dsimp only [hostOps0]; after_results <;> try rfl

/-- Row n = bb·2048 + s of the flattened x is row (bb, s) of x. -/
theorem host_x_apply (bb : Fin 4) (s : Fin 2048) (k : Fin 1024) (n : Fin 8192) (hn : n.val = bb.val * 2048 + s.val) :
    (StableHlo.after hostOps0 W (Proc.devRef .tc main_v1) : (⟨S8192x1024, .bf16⟩ : BufTy).Contents (Elt Ideal)) (ix2 n k)
      = (W (Proc.devRef .tc main_arg0) : (⟨S4x2048x1024, .f32⟩ : BufTy).Contents (Elt Ideal)) (ix3 bb s k) := by
  rw [host_x]
  exact (truncf_apply (φ := .f32) (ψ := .bf16) _ bitsLt_bf16_f32 _).trans (Cert.LibLayoutB.shapeCast_abc_mc_apply _ _ bb s k n hn)

/-- The transposed weights at (k, o) are the weights at (o, k). -/
theorem host_wq_apply (k o : Fin 1024) :
    (StableHlo.after hostOps0 W (Proc.devRef .tc main_v3) : (⟨S1024x1024, .bf16⟩ : BufTy).Contents (Elt Ideal)) (ix2 k o)
      = (W (Proc.devRef .tc main_arg1) : (⟨S1024x1024, .f32⟩ : BufTy).Contents (Elt Ideal)) (ix2 o k) := by
  rw [host_wq]
  exact (truncf_apply (φ := .f32) (ψ := .bf16) _ bitsLt_bf16_f32 _).trans (transpose_apply _ _ _ (ix2 k o) (ix2 o k) fun b => match b with | ⟨0, _⟩ => rfl | ⟨1, _⟩ => rfl)

/-- The transposed weights at (k, o) are the weights at (o, k). -/
theorem host_wk_apply (k o : Fin 1024) :
    (StableHlo.after hostOps0 W (Proc.devRef .tc main_v5) : (⟨S1024x1024, .bf16⟩ : BufTy).Contents (Elt Ideal)) (ix2 k o)
      = (W (Proc.devRef .tc main_arg3) : (⟨S1024x1024, .f32⟩ : BufTy).Contents (Elt Ideal)) (ix2 o k) := by
  rw [host_wk]
  exact (truncf_apply (φ := .f32) (ψ := .bf16) _ bitsLt_bf16_f32 _).trans (transpose_apply _ _ _ (ix2 k o) (ix2 o k) fun b => match b with | ⟨0, _⟩ => rfl | ⟨1, _⟩ => rfl)

/-- The transposed weights at (k, o) are the weights at (o, k). -/
theorem host_wv_apply (k o : Fin 1024) :
    (StableHlo.after hostOps0 W (Proc.devRef .tc main_v7) : (⟨S1024x1024, .bf16⟩ : BufTy).Contents (Elt Ideal)) (ix2 k o)
      = (W (Proc.devRef .tc main_arg5) : (⟨S1024x1024, .f32⟩ : BufTy).Contents (Elt Ideal)) (ix2 o k) := by
  rw [host_wv]
  exact (truncf_apply (φ := .f32) (ψ := .bf16) _ bitsLt_bf16_f32 _).trans (transpose_apply _ _ _ (ix2 k o) (ix2 o k) fun b => match b with | ⟨0, _⟩ => rfl | ⟨1, _⟩ => rfl)

/-- The one-row bias at (0, o) is the bias at o. -/
theorem host_bq_apply (o : Fin 1024) :
    (StableHlo.after hostOps0 W (Proc.devRef .tc main_v8) : (⟨S1x1024, .f32⟩ : BufTy).Contents (Elt Ideal)) (ix2 (0 : Fin 1) o)
      = (W (Proc.devRef .tc main_arg2) : (⟨S1024, .f32⟩ : BufTy).Contents (Elt Ideal)) (ix1 o) := by
  rw [host_bq]
  exact shapeCast_apply _ _ (ix2 (0 : Fin 1) o) (ix1 o) (by
    rw [Shape.rowMajor_val_one, Shape.rowMajor_val_two]
    show o.val = (0 : Fin 1).val * 1024 + o.val
    simp)

/-- The one-row bias at (0, o) is the bias at o. -/
theorem host_bk_apply (o : Fin 1024) :
    (StableHlo.after hostOps0 W (Proc.devRef .tc main_v9) : (⟨S1x1024, .f32⟩ : BufTy).Contents (Elt Ideal)) (ix2 (0 : Fin 1) o)
      = (W (Proc.devRef .tc main_arg4) : (⟨S1024, .f32⟩ : BufTy).Contents (Elt Ideal)) (ix1 o) := by
  rw [host_bk]
  exact shapeCast_apply _ _ (ix2 (0 : Fin 1) o) (ix1 o) (by
    rw [Shape.rowMajor_val_one, Shape.rowMajor_val_two]
    show o.val = (0 : Fin 1).val * 1024 + o.val
    simp)

/-- The one-row bias at (0, o) is the bias at o. -/
theorem host_bv_apply (o : Fin 1024) :
    (StableHlo.after hostOps0 W (Proc.devRef .tc main_v10) : (⟨S1x1024, .f32⟩ : BufTy).Contents (Elt Ideal)) (ix2 (0 : Fin 1) o)
      = (W (Proc.devRef .tc main_arg6) : (⟨S1024, .f32⟩ : BufTy).Contents (Elt Ideal)) (ix1 o) := by
  rw [host_bv]
  exact shapeCast_apply _ _ (ix2 (0 : Fin 1) o) (ix1 o) (by
    rw [Shape.rowMajor_val_one, Shape.rowMajor_val_two]
    show o.val = (0 : Fin 1).val * 1024 + o.val
    simp)

/-! ## Between the regions -/

theorem host_q : (StableHlo.after hostOps1 W (Proc.devRef .tc main_v12) : (⟨S4x2048x1024, .f32⟩ : BufTy).Contents (Elt Ideal))
    = (shapeCast S4x2048x1024 (W (Proc.devRef .tc main_v11_0) : (⟨S8192x1024, .f32⟩ : BufTy).Contents (Elt Ideal)) shapeCasts_S8192x1024_S4x2048x1024 : (⟨S4x2048x1024, .f32⟩ : BufTy).Contents (Elt Ideal)) := by
  dsimp only [hostOps1]; after_results <;> try rfl

/-- Row (bb, s) of the unflattened array is row bb·2048 + s of the flat one. -/
theorem host_q_apply (bb : Fin 4) (s : Fin 2048) (o : Fin 1024) (n : Fin 8192) (hn : n.val = bb.val * 2048 + s.val) :
    (StableHlo.after hostOps1 W (Proc.devRef .tc main_v12) : (⟨S4x2048x1024, .f32⟩ : BufTy).Contents (Elt Ideal)) (ix3 bb s o)
      = (W (Proc.devRef .tc main_v11_0) : (⟨S8192x1024, .f32⟩ : BufTy).Contents (Elt Ideal)) (ix2 n o) := by
  rw [host_q]
  exact Cert.LibLayoutB.shapeCast_mc_abc_apply _ _ bb s o n hn

theorem host_k : (StableHlo.after hostOps1 W (Proc.devRef .tc main_v13) : (⟨S4x2048x1024, .f32⟩ : BufTy).Contents (Elt Ideal))
    = (shapeCast S4x2048x1024 (W (Proc.devRef .tc main_v11_1) : (⟨S8192x1024, .f32⟩ : BufTy).Contents (Elt Ideal)) shapeCasts_S8192x1024_S4x2048x1024 : (⟨S4x2048x1024, .f32⟩ : BufTy).Contents (Elt Ideal)) := by
  dsimp only [hostOps1]; after_results <;> try rfl

/-- Row (bb, s) of the unflattened array is row bb·2048 + s of the flat one. -/
theorem host_k_apply (bb : Fin 4) (s : Fin 2048) (o : Fin 1024) (n : Fin 8192) (hn : n.val = bb.val * 2048 + s.val) :
    (StableHlo.after hostOps1 W (Proc.devRef .tc main_v13) : (⟨S4x2048x1024, .f32⟩ : BufTy).Contents (Elt Ideal)) (ix3 bb s o)
      = (W (Proc.devRef .tc main_v11_1) : (⟨S8192x1024, .f32⟩ : BufTy).Contents (Elt Ideal)) (ix2 n o) := by
  rw [host_k]
  exact Cert.LibLayoutB.shapeCast_mc_abc_apply _ _ bb s o n hn

theorem host_v : (StableHlo.after hostOps1 W (Proc.devRef .tc main_v14) : (⟨S4x2048x1024, .bf16⟩ : BufTy).Contents (Elt Ideal))
    = (shapeCast S4x2048x1024 (W (Proc.devRef .tc main_v11_2) : (⟨S8192x1024, .bf16⟩ : BufTy).Contents (Elt Ideal)) shapeCasts_S8192x1024_S4x2048x1024 : (⟨S4x2048x1024, .bf16⟩ : BufTy).Contents (Elt Ideal)) := by
  dsimp only [hostOps1]; after_results <;> try rfl

/-- Row (bb, s) of the unflattened array is row bb·2048 + s of the flat one. -/
theorem host_v_apply (bb : Fin 4) (s : Fin 2048) (o : Fin 1024) (n : Fin 8192) (hn : n.val = bb.val * 2048 + s.val) :
    (StableHlo.after hostOps1 W (Proc.devRef .tc main_v14) : (⟨S4x2048x1024, .bf16⟩ : BufTy).Contents (Elt Ideal)) (ix3 bb s o)
      = (W (Proc.devRef .tc main_v11_2) : (⟨S8192x1024, .bf16⟩ : BufTy).Contents (Elt Ideal)) (ix2 n o) := by
  rw [host_v]
  exact Cert.LibLayoutB.shapeCast_mc_abc_apply _ _ bb s o n hn

end Cert.KernelIdeal.Hand

end
-- ==== Proof.LibOnlineSoftmax.lean ====
/-
  The online-softmax recursion computes the softmax-weighted sum.

  A row of N = n * b real scores σ 0, …, σ (N - 1) with real values β 0, …, β (N - 1) is read in n blocks
  of length b.  The recursion keeps a running maximum M (from -∞), a running denominator L and a running
  numerator A (both from 0); at each block the new maximum M' is the old one joined with the block's
  maximum, and L and A are rescaled by exp (M - M') before the block's terms exp (s - M') and
  exp (s - M') * β are added.  This file proves, for every n > 0 and b > 0 (generic in both extents),
  that after n blocks the quotient A / L equals the ordinary softmax-weighted sum

      ∑ t, (exp (σ t - mx) / ∑ t', exp (σ t' - mx)) * β t,       mx = the maximum of all N scores,

  all operations being the exact ones on the extended reals (exp (-∞) = 0, so the first rescale factor
  is 0 and multiplies the initial 0).  The argument: after j ≥ 1 blocks the state is
  (μ, ∑_{t < j b} exp (σ t - μ), ∑_{t < j b} exp (σ t - μ) * β t) for a real μ (exp (μ - μ') * exp (σ - μ)
  = exp (σ - μ')), and a softmax-weighted sum does not depend on the real shift μ that is subtracted.
-/
import Idealize.ShloMosaic.PureOps.Ideal

noncomputable section

namespace Cert.LibOnlineSoftmax

open Idealize.ShloMosaic

variable {b : ℕ}

/-- The new running maximum: the old one joined with the block's maximum (folded from -∞). -/
def stepM (M : EReal) (s : Fin b → EReal) : EReal :=
  max M ((Finset.univ : Finset (Fin b)).fold max ⊥ s)

/-- The new running denominator: the old one rescaled, plus the block's exponentials. -/
def stepL (M L : EReal) (s : Fin b → EReal) : EReal :=
  Ideal.exp (M - stepM M s) * L + ∑ k : Fin b, Ideal.exp (s k - stepM M s)

/-- The new running numerator: the old one rescaled, plus the block's weighted values. -/
def stepA (M A : EReal) (s β : Fin b → EReal) : EReal :=
  Ideal.exp (M - stepM M s) * A + ∑ k : Fin b, Ideal.exp (s k - stepM M s) * β k

/-- The state (M, L, A) after j blocks; block j has scores s j and values β j. -/
def state (s β : ℕ → Fin b → EReal) : ℕ → EReal × EReal × EReal
  | 0 => (⊥, 0, 0)
  | j + 1 => (stepM (state s β j).1 (s j), stepL (state s β j).1 (state s β j).2.1 (s j),
      stepA (state s β j).1 (state s β j).2.2 (s j) (β j))

theorem state_zero (s β : ℕ → Fin b → EReal) : state s β 0 = (⊥, 0, 0) := rfl

theorem state_succ (s β : ℕ → Fin b → EReal) (j : ℕ) :
    state s β (j + 1) = (stepM (state s β j).1 (s j), stepL (state s β j).1 (state s β j).2.1 (s j),
      stepA (state s β j).1 (state s β j).2.2 (s j) (β j)) := rfl

/-! ### Coercions -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coerced maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- exp of a difference of two reals. -/
theorem exp_coe_sub_coe (x y : ℝ) :
    Ideal.exp ((x : EReal) - (y : EReal)) = ((Real.exp (x - y) : ℝ) : EReal) := by
  rw [← EReal.coe_sub, Ideal.exp_coe]

/-- Division of two reals by a nonzero denominator is the real division. -/
theorem div_coe_coe (x y : ℝ) (hy : y ≠ 0) :
    Ideal.div (x : EReal) (y : EReal) = ((x / y : ℝ) : EReal) := by
  rw [Ideal.div_coe hy, ← EReal.coe_mul, mul_one_div]

/-! ### The running maximum stays real -/

/-- A real joined with the maximum (from -∞) of finitely many reals is a real. -/
theorem max_fold_coe {ι : Type*} (s : Finset ι) (f : ι → ℝ) :
    ∀ r0 : ℝ, ∃ r : ℝ, max (r0 : EReal) (s.fold max ⊥ (fun k => (f k : EReal))) = (r : EReal) := by
  classical
  induction s using Finset.induction_on with
  | empty => intro r0; exact ⟨r0, by rw [Finset.fold_empty, max_eq_left bot_le]⟩
  | insert a s ha ih =>
    intro r0
    obtain ⟨r, hr⟩ := ih (max r0 (f a))
    exact ⟨r, by rw [Finset.fold_insert ha, ← max_assoc, max_coe, hr]⟩

theorem stepM_coe (μ : ℝ) (f : Fin b → ℝ) :
    ∃ r : ℝ, stepM (μ : EReal) (fun k => (f k : EReal)) = (r : EReal) :=
  max_fold_coe Finset.univ f μ

theorem stepM_bot (hb : 0 < b) (f : Fin b → ℝ) :
    ∃ r : ℝ, stepM ⊥ (fun k => (f k : EReal)) = (r : EReal) := by
  classical
  obtain ⟨r, hr⟩ := max_fold_coe ((Finset.univ : Finset (Fin b)).erase ⟨0, hb⟩) f (f ⟨0, hb⟩)
  refine ⟨r, ?_⟩
  rw [stepM, max_eq_right bot_le, ← Finset.insert_erase (Finset.mem_univ (⟨0, hb⟩ : Fin b)),
    Finset.fold_insert (Finset.notMem_erase _ _), hr]

/-! ### One block, on reals -/

/-- The block's exponentials, all real. -/
theorem block_exp (μ' : ℝ) (f : Fin b → ℝ) :
    ∑ k : Fin b, Ideal.exp ((f k : EReal) - (μ' : EReal))
      = ((∑ k : Fin b, Real.exp (f k - μ') : ℝ) : EReal) := by
  rw [coe_sum]
  exact Finset.sum_congr rfl (fun k _ => exp_coe_sub_coe _ _)

/-- The block's weighted values, all real. -/
theorem block_exp_mul (μ' : ℝ) (f g : Fin b → ℝ) :
    ∑ k : Fin b, Ideal.exp ((f k : EReal) - (μ' : EReal)) * (g k : EReal)
      = ((∑ k : Fin b, Real.exp (f k - μ') * g k : ℝ) : EReal) := by
  rw [coe_sum]
  exact Finset.sum_congr rfl (fun k _ => by rw [exp_coe_sub_coe, EReal.coe_mul])

/-- A denominator step from a real state. -/
theorem stepL_coe (μ μ' L : ℝ) (f : Fin b → ℝ)
    (h : stepM (μ : EReal) (fun k => (f k : EReal)) = (μ' : EReal)) :
    stepL (μ : EReal) (L : EReal) (fun k => (f k : EReal))
      = ((Real.exp (μ - μ') * L + ∑ k : Fin b, Real.exp (f k - μ') : ℝ) : EReal) := by
  rw [stepL, h, exp_coe_sub_coe, block_exp, ← EReal.coe_mul, ← EReal.coe_add]

/-- A numerator step from a real state. -/
theorem stepA_coe (μ μ' A : ℝ) (f g : Fin b → ℝ)
    (h : stepM (μ : EReal) (fun k => (f k : EReal)) = (μ' : EReal)) :
    stepA (μ : EReal) (A : EReal) (fun k => (f k : EReal)) (fun k => (g k : EReal))
      = ((Real.exp (μ - μ') * A + ∑ k : Fin b, Real.exp (f k - μ') * g k : ℝ) : EReal) := by
  rw [stepA, h, exp_coe_sub_coe, block_exp_mul, ← EReal.coe_mul, ← EReal.coe_add]

/-- The first denominator step: the rescale factor is exp (-∞) = 0. -/
theorem stepL_bot (μ' : ℝ) (f : Fin b → ℝ)
    (h : stepM ⊥ (fun k => (f k : EReal)) = (μ' : EReal)) :
    stepL ⊥ 0 (fun k => (f k : EReal)) = ((∑ k : Fin b, Real.exp (f k - μ') : ℝ) : EReal) := by
  rw [stepL, h, EReal.bot_sub, Ideal.exp_bot, zero_mul, zero_add, block_exp]

/-- The first numerator step. -/
theorem stepA_bot (μ' : ℝ) (f g : Fin b → ℝ)
    (h : stepM ⊥ (fun k => (f k : EReal)) = (μ' : EReal)) :
    stepA ⊥ 0 (fun k => (f k : EReal)) (fun k => (g k : EReal))
      = ((∑ k : Fin b, Real.exp (f k - μ') * g k : ℝ) : EReal) := by
  rw [stepA, h, EReal.bot_sub, Ideal.exp_bot, zero_mul, zero_add, block_exp_mul]

/-! ### The rescaled prefix sums -/

/-- Rescaling the first m terms from the shift μ to the shift μ' and adding the next b terms gives the
    first m + b terms at the shift μ'. -/
theorem rescale_add (σ w : ℕ → ℝ) (μ μ' : ℝ) (m b : ℕ) :
    Real.exp (μ - μ') * (∑ t ∈ Finset.range m, Real.exp (σ t - μ) * w t)
        + ∑ k : Fin b, Real.exp (σ (m + k.val) - μ') * w (m + k.val)
      = ∑ t ∈ Finset.range (m + b), Real.exp (σ t - μ') * w t := by
  rw [Finset.sum_range_add, Fin.sum_univ_eq_sum_range (fun k => Real.exp (σ (m + k) - μ') * w (m + k)) b,
    Finset.mul_sum]
  congr 1
  refine Finset.sum_congr rfl (fun t _ => ?_)
  rw [← mul_assoc, ← Real.exp_add]
  congr 2
  ring

/-- The same for the unweighted sums. -/
theorem rescale_add_one (σ : ℕ → ℝ) (μ μ' : ℝ) (m b : ℕ) :
    Real.exp (μ - μ') * (∑ t ∈ Finset.range m, Real.exp (σ t - μ))
        + ∑ k : Fin b, Real.exp (σ (m + k.val) - μ')
      = ∑ t ∈ Finset.range (m + b), Real.exp (σ t - μ') := by
  have h := rescale_add σ (fun _ => 1) μ μ' m b
  simp only [mul_one] at h
  exact h

/-- The first block's sum is the sum over the first b indices. -/
theorem first_block (g : ℕ → ℝ) (b : ℕ) :
    ∑ k : Fin b, g (0 * b + k.val) = ∑ t ∈ Finset.range ((0 + 1) * b), g t := by
  rw [Fin.sum_univ_eq_sum_range (fun k => g (0 * b + k)) b]
  simp only [Nat.zero_mul, Nat.zero_add, Nat.one_mul]

/-! ### The state after j ≥ 1 blocks -/

/-- After j + 1 blocks the state is (μ, ∑_{t < (j+1) b} exp (σ t - μ), ∑_{t < (j+1) b} exp (σ t - μ) * β t)
    for a real μ. -/
theorem state_real (hb : 0 < b) (σ β : ℕ → ℝ) (j : ℕ) :
    ∃ μ : ℝ,
      state (fun j (k : Fin b) => ((σ (j * b + k.val) : ℝ) : EReal))
          (fun j (k : Fin b) => ((β (j * b + k.val) : ℝ) : EReal)) (j + 1)
        = ((μ : EReal), ((∑ t ∈ Finset.range ((j + 1) * b), Real.exp (σ t - μ) : ℝ) : EReal),
            ((∑ t ∈ Finset.range ((j + 1) * b), Real.exp (σ t - μ) * β t : ℝ) : EReal)) := by
  induction j with
  | zero =>
    obtain ⟨μ', h⟩ := stepM_bot hb (fun k : Fin b => σ (0 * b + k.val))
    refine ⟨μ', ?_⟩
    rw [state_succ, state_zero]
    dsimp only
    rw [h, stepL_bot μ' _ h, stepA_bot μ' _ _ h,
      first_block (fun t => Real.exp (σ t - μ')) b,
      first_block (fun t => Real.exp (σ t - μ') * β t) b]
  | succ j ih =>
    obtain ⟨μ, ih⟩ := ih
    obtain ⟨μ', h⟩ := stepM_coe μ (fun k : Fin b => σ ((j + 1) * b + k.val))
    refine ⟨μ', ?_⟩
    rw [state_succ, ih]
    dsimp only
    rw [h, stepL_coe μ μ' _ _ h, stepA_coe μ μ' _ _ _ h, rescale_add_one, rescale_add,
      ← Nat.succ_mul]

/-! ### The softmax-weighted sum does not depend on the shift -/

/-- Subtracting μ or m from every score gives the same softmax-weighted sum: the common factor
    exp (m - μ) cancels in the quotient. -/
theorem softmax_shift (s : Finset ℕ) (σ β : ℕ → ℝ) (μ m : ℝ) :
    (∑ t ∈ s, Real.exp (σ t - μ) * β t) / (∑ t ∈ s, Real.exp (σ t - μ))
      = ∑ t ∈ s, Real.exp (σ t - m) / (∑ t' ∈ s, Real.exp (σ t' - m)) * β t := by
  have hc : ∀ t, Real.exp (σ t - μ) = Real.exp (m - μ) * Real.exp (σ t - m) := by
    intro t
    rw [← Real.exp_add]
    congr 1
    ring
  have h1 : ∑ t ∈ s, Real.exp (σ t - μ) * β t
      = Real.exp (m - μ) * ∑ t ∈ s, Real.exp (σ t - m) * β t := by
    rw [Finset.mul_sum]
    exact Finset.sum_congr rfl (fun t _ => by rw [hc t, mul_assoc])
  have h2 : ∑ t ∈ s, Real.exp (σ t - μ) = Real.exp (m - μ) * ∑ t ∈ s, Real.exp (σ t - m) := by
    rw [Finset.mul_sum]
    exact Finset.sum_congr rfl (fun t _ => hc t)
  rw [h1, h2, mul_div_mul_left _ _ (Real.exp_pos _).ne', Finset.sum_div]
  exact Finset.sum_congr rfl (fun t _ => by ring)

/-- A sum of exponentials over a nonempty range is not zero. -/
theorem sum_exp_ne_zero (σ : ℕ → ℝ) (m : ℝ) (N : ℕ) (hN : 0 < N) :
    (∑ t ∈ Finset.range N, Real.exp (σ t - m)) ≠ 0 :=
  (Finset.sum_pos (fun t _ => Real.exp_pos _) (Finset.nonempty_range_iff.2 hN.ne')).ne'

/-! ### The theorem -/

/-- After n > 0 blocks of length b > 0 the quotient A / L of the online recursion is the
    softmax-weighted sum of the n * b values (flat index t = j * b + k), the maximum being folded
    from -∞ and joined with -∞ once more and the denominator summed from 0. -/
theorem online_eq (n b : ℕ) (hn : 0 < n) (hb : 0 < b) (σ β : ℕ → ℝ) :
    Ideal.div
        (state (fun j (k : Fin b) => ((σ (j * b + k.val) : ℝ) : EReal))
          (fun j (k : Fin b) => ((β (j * b + k.val) : ℝ) : EReal)) n).2.2
        (state (fun j (k : Fin b) => ((σ (j * b + k.val) : ℝ) : EReal))
          (fun j (k : Fin b) => ((β (j * b + k.val) : ℝ) : EReal)) n).2.1
      = ∑ t : Fin (n * b),
          Ideal.div
            (Ideal.exp (((σ t.val : ℝ) : EReal)
              - max ⊥ ((Finset.univ : Finset (Fin (n * b))).fold max ⊥
                  (fun t => ((σ t.val : ℝ) : EReal)))))
            (0 + ∑ t' : Fin (n * b), Ideal.exp (((σ t'.val : ℝ) : EReal)
              - max ⊥ ((Finset.univ : Finset (Fin (n * b))).fold max ⊥
                  (fun t => ((σ t.val : ℝ) : EReal)))))
            * ((β t.val : ℝ) : EReal) := by
  obtain ⟨j, rfl⟩ : ∃ j, n = j + 1 := ⟨n - 1, by omega⟩
  obtain ⟨μ, hμ⟩ := state_real hb σ β j
  have hN : 0 < (j + 1) * b := Nat.mul_pos (Nat.succ_pos j) hb
  obtain ⟨m, hm⟩ := stepM_bot hN (fun t : Fin ((j + 1) * b) => σ t.val)
  rw [stepM] at hm
  rw [hμ, hm]
  dsimp only
  rw [div_coe_coe _ _ (sum_exp_ne_zero σ μ _ hN), softmax_shift _ σ β μ m, zero_add,
    block_exp m (fun t : Fin ((j + 1) * b) => σ t.val),
    Fin.sum_univ_eq_sum_range (fun t => Real.exp (σ t - m)) ((j + 1) * b), coe_sum,
    ← Fin.sum_univ_eq_sum_range
      (fun t => ((Real.exp (σ t - m) / (∑ t' ∈ Finset.range ((j + 1) * b), Real.exp (σ t' - m))
        * β t : ℝ) : EReal)) ((j + 1) * b)]
  refine Finset.sum_congr rfl (fun t _ => ?_)
  rw [exp_coe_sub_coe, div_coe_coe _ _ (sum_exp_ne_zero σ m _ hN), EReal.coe_mul]

/-- The same for extended-real scores and values that are all finite. -/
theorem online_eq_finite (n b : ℕ) (hn : 0 < n) (hb : 0 < b) (S B : ℕ → EReal)
    (hS : ∀ t, S t ≠ ⊤ ∧ S t ≠ ⊥) (hB : ∀ t, B t ≠ ⊤ ∧ B t ≠ ⊥) :
    Ideal.div
        (state (fun j (k : Fin b) => S (j * b + k.val)) (fun j (k : Fin b) => B (j * b + k.val)) n).2.2
        (state (fun j (k : Fin b) => S (j * b + k.val)) (fun j (k : Fin b) => B (j * b + k.val)) n).2.1
      = ∑ t : Fin (n * b),
          Ideal.div
            (Ideal.exp (S t.val
              - max ⊥ ((Finset.univ : Finset (Fin (n * b))).fold max ⊥ (fun t => S t.val))))
            (0 + ∑ t' : Fin (n * b), Ideal.exp (S t'.val
              - max ⊥ ((Finset.univ : Finset (Fin (n * b))).fold max ⊥ (fun t => S t.val))))
            * B t.val := by
  obtain ⟨σ, rfl⟩ : ∃ σ : ℕ → ℝ, S = fun t => ((σ t : ℝ) : EReal) :=
    ⟨fun t => (S t).toReal, funext fun t => (EReal.coe_toReal (hS t).1 (hS t).2).symm⟩
  obtain ⟨β, rfl⟩ : ∃ β : ℕ → ℝ, B = fun t => ((β t : ℝ) : EReal) :=
    ⟨fun t => (B t).toReal, funext fun t => (EReal.coe_toReal (hB t).1 (hB t).2).symm⟩
  exact online_eq n b hn hb σ β

end Cert.LibOnlineSoftmax

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibRowReduce.lean ====
/-
  Reductions along the rows of a matrix read at a row, on the extended reals (generic in the extents, imports only the
  library): the reduced index with the lane coordinate put back (`lift_row`, which also serves the host's reduce over
  the same axis), a kernel's lane maximum and lane sum over the last axis of an [a, b] array as the fold of max from the
  accumulator's value, or the sum, over the row's entries; and joining the initial value once more onto a maximum
  folded from it changes nothing.
-/
import Idealize.ShloMosaic.PureOps.Ideal.Laws
import Idealize.ShloMosaic.PureOps.Reduce
import Idealize.ShloMosaic.Lib.ValueIdx

noncomputable section

namespace Cert.LibRowReduce

open Idealize.ShloMosaic Idealize.ShloMosaic.ValueIdx

variable {a b : ℕ}

/-- The reduced index p with the lane coordinate l put back is (p, l). -/
theorem lift_row (h : (⟨2, ![a, b]⟩ : Shape).Reduces [1] (⟨1, ![a]⟩ : Shape)) (p : Fin a)
    (l : Fin ((⟨2, ![a, b]⟩ : Shape).size 1)) : h.lift (ix1 p) l = ix2 p (⟨l.val, l.isLt⟩ : Fin b) := by
  funext c; apply Fin.ext
  fin_cases c <;> rfl

/-- A kernel's lane maximum over the last axis, at row p: the fold of max from the accumulator's value over the row. -/
theorem laneMax_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun l => src (ix2 p l)) := by
  refine (Ideal.multiReduction_maximumf_single src acc h hφ hacc (ix1 p)).trans ?_
  exact congrArg (fun f => Finset.fold max (Ideal.ofBits .f32 acc) f (Finset.univ : Finset (Fin b)))
    (funext fun l => congrArg src (lift_row h p l))

/-- A kernel's lane sum over the last axis, at row p: the sum over the row. -/
theorem laneSum_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  exact Finset.sum_congr rfl fun l _ => congrArg src (lift_row h p l)

/-- A maximum folded from an initial value is above it, so joining the initial value once more changes nothing. -/
theorem max_fold_self {ι : Type*} (s : Finset ι) (c : EReal) (f : ι → EReal) : max c (s.fold max c f) = s.fold max c f :=
  max_eq_right (Finset.le_fold_max c |>.mpr (Or.inl le_rfl))

end Cert.LibRowReduce

end
-- ==== Proof.PayProj.lean ====
/-
  The projection kernel's payloads read at an entry, on the extended reals: each of the three stores
  relu (x · W + b), that is, at (p, c), the maximum of 0 and the row-by-column sum over the 1024 shared
  coordinates plus the bias entry of column c.  The matrix product accumulates into the zero splat, the bias
  row is spread over the rows, and a change of format is the identity.
-/
import proofs.«123338_j20864951124606_2_alg».proof.Proof.Gen.KernelIdeal.Skeleton
import proofs.«123338_j20864951124606_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.ValueIdx

/-- The dimension record of the kernels' products is the plain one. -/
theorem dot_isPlain : Cert.LibPlainDot.IsPlain dot_S512x1024_S1024x1024_S512x1024_1_0_0_1_n_n :=
  ⟨rfl, rfl, rfl, rfl, rfl, rfl⟩

/-- relu (x · W + b) at (p, c), for the operations as the payloads spell them. -/
theorem proj_apply (v0 : Vec Ideal S512x1024 .bf16) (w : Vec Ideal S1024x1024 .bf16) (bias : Vec Ideal S1x1024 .f32)
    (p : Fin 512) (c : Fin 1024) :
    maximumf (addf (matmul dot_S512x1024_S1024x1024_S512x1024_1_0_0_1_n_n none (k0_pay1 v0)
        (shapeCast S1024x1024 w shapeCasts_S1024x1024_S1024x1024 : FVec Ideal S1024x1024 .bf16)
        (constant S512x1024 .f32 0x00000000#32))
        (broadcastTo S512x1024 (shapeCast S1x1024 bias shapeCasts_S1x1024_S1x1024 : FVec Ideal S1x1024 .f32)
          broadcasts_S1x1024_S512x1024))
      (broadcast S512x1024 (Scalar.ofBits (F := Ideal) .f32 0x00000000#32)) (ix2 p c)
      = max ((∑ k : Fin 1024, v0 (ix2 p k) * w (ix2 k c)) + bias (ix2 0 c)) (Ideal.ofBits .f32 0x00000000#32) := by
  rw [maximumf_apply, addf_apply, broadcast_apply]
  unfold k0_pay1
  rw [shapeCast_self, shapeCast_self, shapeCast_self, broadcastTo_1b_ab_apply]
  refine congrArg (fun t => max (t + bias (ix2 0 c)) _) ?_
  exact Cert.LibPlainDot.matmul_zero_apply _ dot_isPlain none v0 w p c

theorem pay2_apply (v0 : Vec Ideal S512x1024 .bf16) (v2 : Vec Ideal S1024x1024 .bf16) (v5 : Vec Ideal S1x1024 .f32)
    (p : Fin 512) (c : Fin 1024) :
    k0_pay2 v0 v2 v5 (ix2 p c)
      = max ((∑ k : Fin 1024, v0 (ix2 p k) * v2 (ix2 k c)) + v5 (ix2 0 c)) (Ideal.ofBits .f32 0x00000000#32) := by
  unfold k0_pay2
  exact proj_apply v0 v2 v5 p c

theorem pay3_apply (v0 : Vec Ideal S512x1024 .bf16) (v12 : Vec Ideal S1024x1024 .bf16) (v15 : Vec Ideal S1x1024 .f32)
    (p : Fin 512) (c : Fin 1024) :
    k0_pay3 v0 v12 v15 (ix2 p c)
      = max ((∑ k : Fin 1024, v0 (ix2 p k) * v12 (ix2 k c)) + v15 (ix2 0 c)) (Ideal.ofBits .f32 0x00000000#32) := by
  unfold k0_pay3
  exact proj_apply v0 v12 v15 p c

theorem pay4_apply (v0 : Vec Ideal S512x1024 .bf16) (v22 : Vec Ideal S1024x1024 .bf16) (v25 : Vec Ideal S1x1024 .f32)
    (p : Fin 512) (c : Fin 1024) :
    k0_pay4 v0 v22 v25 (ix2 p c)
      = max ((∑ k : Fin 1024, v0 (ix2 p k) * v22 (ix2 k c)) + v25 (ix2 0 c)) (Ideal.ofBits .f32 0x00000000#32) := by
  unfold k0_pay4
  rw [truncf_apply]
  exact proj_apply v0 v22 v25 p c

end Cert.KernelIdeal.PayVal

end
-- ==== Proof.PayAttn.lean ====
/-
  The attention kernel's payloads read at an entry, on the extended reals: one step of the online-softmax
  recursion.  With s the row p of the block of scores q · kᵀ (the sum over the 1024 shared coordinates), the
  new running maximum is the old one joined with the maximum of s folded from -∞, the new denominator is the
  old one rescaled by exp (M - M') plus the sum of the exp (s k - M'), the new numerator is the old one rescaled
  plus the sum of the exp (s k - M') times the values' column, and the last step divides the numerator by the
  denominator.  Changes of format and casts to the same shape are the identity.
-/
import proofs.«123338_j20864951124606_2_alg».proof.Proof.Gen.KernelIdeal.Skeleton
import proofs.«123338_j20864951124606_2_alg».proof.Proof.LibOnlineSoftmax
import proofs.«123338_j20864951124606_2_alg».proof.Proof.LibPlainDot
import proofs.«123338_j20864951124606_2_alg».proof.Proof.LibLayout
import proofs.«123338_j20864951124606_2_alg».proof.Proof.LibRowReduce
import proofs.«123338_j20864951124606_2_alg».proof.Proof.PayProj
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.ValueIdx

/-- The block of scores q · kᵀ, row p: entry j is the sum over the shared coordinate. -/
def sc (v3 : Vec Ideal S1x512x1024 .f32) (v5 : Vec Ideal S1x1024x1024 .f32) (p : Fin 512) : Fin 1024 → EReal :=
  fun j => ∑ o : Fin 1024, v3 (ix3 0 p o) * v5 (ix3 0 j o)

/-- An exponential at an index is the exponential of the element. -/
theorem exp_apply {s : Shape} {φ : FTy} (a : FVec Ideal s φ) (i : s.Idx) : exp a i = Ideal.exp (a i) := rfl

/-- The word of -∞ denotes the bottom of the extended reals. -/
theorem ofBits_ninf_f32 : Ideal.ofBits .f32 0xFF800000#32 = ⊥ := by simp [Ideal.ofBits, Ideal.ieee]

/-- The scores: the left operand's row against the transposed right operand's column. -/
theorem pay8_apply (v3 : Vec Ideal S1x512x1024 .f32) (v5 : Vec Ideal S1x1024x1024 .f32) (p : Fin 512) (j : Fin 1024) :
    k1_pay8 v3 v5 (ix2 p j) = sc v3 v5 p j := by
  unfold k1_pay8
  refine (Cert.LibPlainDot.matmul_zero_apply _ dot_isPlain (some .fp32) _ _ p j).trans ?_
  unfold sc
  refine Finset.sum_congr rfl fun o _ => ?_
  rw [shapeCast_1ab_ab_apply, transpose_ix2_apply, shapeCast_1ab_ab_apply]

/-- The new running maximum. -/
theorem pay9_apply (v3 : Vec Ideal S1x512x1024 .f32) (v5 : Vec Ideal S1x1024x1024 .f32) (v11 : Vec Ideal S512x1 .f32)
    (p : Fin 512) :
    k1_pay9 v3 v5 v11 (ix2 p 0) = Cert.LibOnlineSoftmax.stepM (v11 (ix2 p 0)) (sc v3 v5 p) := by
  unfold k1_pay9
  rw [maximumf_apply, Cert.LibLayout.shapeCast_a_a1_apply]
  unfold Cert.LibOnlineSoftmax.stepM
  refine congrArg (max (v11 (ix2 p 0))) ?_
  refine (Cert.LibRowReduce.laneMax_apply (a := 512) (b := 1024) _ _ _ _ _ p).trans ?_
  rw [ofBits_ninf_f32]
  exact congrArg (fun f => (Finset.univ : Finset (Fin 1024)).fold max ⊥ f) (funext fun l => pay8_apply v3 v5 p l)

/-- The rescale factor exp (M - M'). -/
theorem pay10_apply (v3 : Vec Ideal S1x512x1024 .f32) (v5 : Vec Ideal S1x1024x1024 .f32) (v11 v15 : Vec Ideal S512x1 .f32)
    (p : Fin 512) :
    k1_pay10 v3 v5 v11 v15 (ix2 p 0)
      = Ideal.exp (v15 (ix2 p 0) - Cert.LibOnlineSoftmax.stepM (v11 (ix2 p 0)) (sc v3 v5 p)) := by
  unfold k1_pay10
  rw [exp_apply, subf_apply, pay9_apply]

/-- The block's exponentials exp (s j - M'). -/
theorem pay11_apply (v3 : Vec Ideal S1x512x1024 .f32) (v5 : Vec Ideal S1x1024x1024 .f32) (v11 : Vec Ideal S512x1 .f32)
    (p : Fin 512) (j : Fin 1024) :
    k1_pay11 v3 v5 v11 (ix2 p j)
      = Ideal.exp (sc v3 v5 p j - Cert.LibOnlineSoftmax.stepM (v11 (ix2 p 0)) (sc v3 v5 p)) := by
  unfold k1_pay11
  rw [exp_apply, subf_apply, Cert.LibLayout.broadcastTo_a1_ab_apply, pay8_apply, pay9_apply]

/-- The new running denominator. -/
theorem pay12_apply (v3 : Vec Ideal S1x512x1024 .f32) (v5 : Vec Ideal S1x1024x1024 .f32) (v11 v21 : Vec Ideal S512x1 .f32)
    (p : Fin 512) :
    k1_pay12 v3 v5 v11 v11 v21 (ix2 p 0)
      = Cert.LibOnlineSoftmax.stepL (v11 (ix2 p 0)) (v21 (ix2 p 0)) (sc v3 v5 p) := by
  unfold k1_pay12
  rw [shapeCast_self, addf_apply, mulf_apply, pay10_apply, Cert.LibLayout.shapeCast_a_a1_apply]
  unfold Cert.LibOnlineSoftmax.stepL
  refine congrArg (fun t => Ideal.exp (v11 (ix2 p 0) - Cert.LibOnlineSoftmax.stepM (v11 (ix2 p 0)) (sc v3 v5 p))
      * v21 (ix2 p 0) + t) ?_
  refine (Cert.LibRowReduce.laneSum_apply (a := 512) (b := 1024) _ _ _ _ _ p).trans ?_
  exact Finset.sum_congr rfl fun l _ => pay11_apply v3 v5 v11 p l

/-- The new running numerator. -/
theorem pay1_apply (v3 : Vec Ideal S1x512x1024 .f32) (v5 : Vec Ideal S1x1024x1024 .f32) (v7 : Vec Ideal S1x1024x1024 .bf16)
    (v11 : Vec Ideal S512x1 .f32) (v29 : Vec Ideal S512x1024 .f32) (p : Fin 512) (c : Fin 1024) :
    k1_pay1 (k1_pay7 v7) (k1_pay11 v3 v5 v11) v29 (k1_pay13 v3 v5 v11 v11) (ix2 p c)
      = Cert.LibOnlineSoftmax.stepA (v11 (ix2 p 0)) (v29 (ix2 p c)) (sc v3 v5 p) (fun j => v7 (ix3 0 j c)) := by
  unfold k1_pay1
  rw [shapeCast_self, addf_apply, mulf_apply]
  unfold k1_pay13
  rw [Cert.LibLayout.broadcastTo_a1_ab_apply, pay10_apply]
  unfold Cert.LibOnlineSoftmax.stepA
  refine congrArg (fun t => Ideal.exp (v11 (ix2 p 0) - Cert.LibOnlineSoftmax.stepM (v11 (ix2 p 0)) (sc v3 v5 p))
      * v29 (ix2 p c) + t) ?_
  refine (Cert.LibPlainDot.matmul_zero_apply _ dot_isPlain none _ _ p c).trans ?_
  refine Finset.sum_congr rfl fun k _ => ?_
  unfold k1_pay7
  rw [truncf_apply, pay11_apply, shapeCast_1ab_ab_apply]

/-- The final quotient, in the output block's rank-3 layout. -/
theorem attn_pay3_apply (v44 : Vec Ideal S512x1024 .f32) (v45 : Vec Ideal S512x1 .f32) (p : Fin 512) (c : Fin 1024) :
    k1_pay3 v44 v45 (ix3 0 p c) = Ideal.div (v44 (ix2 p c)) (v45 (ix2 p 0)) := by
  unfold k1_pay3
  rw [shapeCast_ab_1ab_apply, divf_apply, Cert.LibLayout.broadcastTo_a1_ab_apply]

/-- The stored running maximum is the value itself. -/
theorem pay2_id (v14 : FVec Ideal S512x1 .f32) : k1_pay2 v14 = v14 := by
  unfold k1_pay2
  exact shapeCast_self v14 _

/-- The initial running maximum is -∞. -/
theorem attn_pay4_apply (p : Fin 512) : k1_pay4 (F := Ideal) (ix2 p 0) = ⊥ := by
  unfold k1_pay4
  rw [shapeCast_self, broadcast_apply]
  exact ofBits_ninf_f32

/-- The initial running denominator is 0. -/
theorem pay5_apply (p : Fin 512) : k1_pay5 (F := Ideal) (ix2 p 0) = 0 := by
  unfold k1_pay5
  rw [shapeCast_self, broadcast_apply]
  exact Ideal.ofBits_zero_f32

/-- The initial running numerator is 0. -/
theorem pay6_apply (p : Fin 512) (c : Fin 1024) : k1_pay6 (F := Ideal) (ix2 p c) = 0 := by
  unfold k1_pay6
  rw [shapeCast_self, broadcast_apply]
  exact Ideal.ofBits_zero_f32

end Cert.KernelIdeal.PayVal

end
-- ==== Proof.PieceVals.lean ====
/-
  The contents the kernel bodies' runs leave, read at an entry on the extended reals.  Each buffer's final contents
  are the pieces the run found, read back; the pieces are whole-buffer stores, so the contents are the last
  store's payload with the loaded blocks as its arguments, and the payload lemmas read that at an entry.
-/
import proofs.«123338_j20864951124606_2_alg».proof.Proof.AttnPieces
import proofs.«123338_j20864951124606_2_alg».proof.Proof.BodyProj
import proofs.«123338_j20864951124606_2_alg».proof.Proof.PayAttn
import proofs.«123338_j20864951124606_2_alg».proof.Proof.PayProj
import Idealize.ShloMosaic.Lib.Pipeline.Value
import Idealize.ShloMosaic.Lib.Tactic

set_option maxRecDepth 16384

noncomputable section

namespace Cert.KernelIdeal.PayVal

open Cert.KernelIdeal Cert.KernelIdeal.Gen Cert.KernelIdeal.Hand
open Idealize.ShloMosaic Idealize.ShloMosaic.ValueIdx Idealize.ShloMosaic.TcCoe Idealize.ShloMosaic.Tactic
open Idealize.SL.Sem

/-- The zero offsets of a rank-2 buffer, as the function that is 0 everywhere. -/
theorem hz2 : (![0, 0] : Fin 2 → Nat) = fun _ => 0 := funext fun a => by fin_cases a <;> rfl
/-- The zero offsets of a rank-3 buffer. -/
theorem hz3 : (![0, 0, 0] : Fin 3 → Nat) = fun _ => 0 := funext fun a => by fin_cases a <;> rfl

/-! ## The projection kernel: each output buffer holds its one store's payload of the blocks -/

theorem outQ_eq {F : FTy → Type} [FloatOps F] (x : Vec F S512x1024 .bf16) (w : Vec F S1024x1024 .bf16) (b : Vec F S1x1024 .f32) :
    Hand.outQ x w b = k0_pay2 x w b := by
  unfold Hand.outQ
  rw [View.canon_unit_zero hz2, View.ld_unit_zero (S := S512x1024) hz2, View.ld_unit_zero (S := S1024x1024) hz2,
    View.ld_unit_zero (S := S1x1024) hz2]

theorem outK_eq {F : FTy → Type} [FloatOps F] (x : Vec F S512x1024 .bf16) (w : Vec F S1024x1024 .bf16) (b : Vec F S1x1024 .f32) :
    Hand.outK x w b = k0_pay3 x w b := by
  unfold Hand.outK
  rw [View.canon_unit_zero hz2, View.ld_unit_zero (S := S512x1024) hz2, View.ld_unit_zero (S := S1024x1024) hz2,
    View.ld_unit_zero (S := S1x1024) hz2]

theorem outV_eq {F : FTy → Type} [FloatOps F] (x : Vec F S512x1024 .bf16) (w : Vec F S1024x1024 .bf16) (b : Vec F S1x1024 .f32) :
    Hand.outV x w b = k0_pay4 x w b := by
  unfold Hand.outV
  rw [View.canon_unit_zero hz2, View.ld_unit_zero (S := S512x1024) hz2, View.ld_unit_zero (S := S1024x1024) hz2,
    View.ld_unit_zero (S := S1x1024) hz2]

/-- The queries' buffer at (p, c): relu of the row-by-column sum plus the bias. -/
theorem outQ_apply (x : Vec Ideal S512x1024 .bf16) (w : Vec Ideal S1024x1024 .bf16) (b : Vec Ideal S1x1024 .f32)
    (p : Fin 512) (c : Fin 1024) :
    Hand.outQ x w b (ix2 p c)
      = max ((∑ k : Fin 1024, x (ix2 p k) * w (ix2 k c)) + b (ix2 0 c)) (Ideal.ofBits .f32 0x00000000#32) :=
  (congrFun (outQ_eq x w b) (ix2 p c)).trans (pay2_apply x w b p c)

/-- The keys' buffer at (p, c). -/
theorem outK_apply (x : Vec Ideal S512x1024 .bf16) (w : Vec Ideal S1024x1024 .bf16) (b : Vec Ideal S1x1024 .f32)
    (p : Fin 512) (c : Fin 1024) :
    Hand.outK x w b (ix2 p c)
      = max ((∑ k : Fin 1024, x (ix2 p k) * w (ix2 k c)) + b (ix2 0 c)) (Ideal.ofBits .f32 0x00000000#32) :=
  (congrFun (outK_eq x w b) (ix2 p c)).trans (pay3_apply x w b p c)

/-- The values' buffer at (p, c). -/
theorem outV_apply (x : Vec Ideal S512x1024 .bf16) (w : Vec Ideal S1024x1024 .bf16) (b : Vec Ideal S1x1024 .f32)
    (p : Fin 512) (c : Fin 1024) :
    Hand.outV x w b (ix2 p c)
      = max ((∑ k : Fin 1024, x (ix2 p k) * w (ix2 k c)) + b (ix2 0 c)) (Ideal.ofBits .f32 0x00000000#32) :=
  (congrFun (outV_eq x w b) (ix2 p c)).trans (pay4_apply x w b p c)

/-! ## The attention kernel, first block of keys: the scratch buffers hold the update's payloads of the reset values -/

section Generic
variable {F : FTy → Type} [FloatOps F]

theorem firstM_eq (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) :
    firstM c i arg3 harg3 arg4 harg4 arg5 harg5 arg6 harg6 arg7 harg7 arg8 harg8 arg9 harg9 hc1 hc2 x0 x1 x2 = k1_pay2 (k1_pay9 x0 x1 (k1_pay4 (F := F))) := by
  unfold firstM
  rw [View.read_writes_eq_canon _ _ _ (coverFirstM c i arg3 harg3 arg4 harg4 arg5 harg5 arg6 harg6 arg7 harg7 arg8 harg8 arg9 harg9 hc1 hc2 x0 x1 x2)]
  unfold runFirst
  dsimp only
  sl_unfold_words
  rw [View.canon_cons_unit_zero (S := S512x1) hz2, View.readCov_unit_zero (S := S512x1) _ hz2]
  simp only [View.readAt_eq_ld, harg3.read_unread, harg4.read_unread, harg5.read_unread, harg7.read_unread, harg8.read_unread, harg9.read_unread,
    View.ld_unit_zero (S := S1x512x1024) hz3, View.ld_unit_zero (S := S1x1024x1024) hz3, View.ld_unit_zero (S := S512x1) hz2,
    View.ld_unit_zero (S := S512x1024) hz2]

theorem firstL_eq (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) :
    firstL c i arg3 harg3 arg4 harg4 arg5 harg5 arg6 harg6 arg7 harg7 arg8 harg8 arg9 harg9 hc1 hc2 x0 x1 x2 = k1_pay12 x0 x1 (k1_pay4 (F := F)) (k1_pay4 (F := F)) (k1_pay5 (F := F)) := by
  unfold firstL
  rw [View.read_writes_eq_canon _ _ _ (coverFirstL c i arg3 harg3 arg4 harg4 arg5 harg5 arg6 harg6 arg7 harg7 arg8 harg8 arg9 harg9 hc1 hc2 x0 x1 x2)]
  unfold runFirst
  dsimp only
  sl_unfold_words
  rw [View.canon_cons_unit_zero (S := S512x1) hz2, View.readCov_unit_zero (S := S512x1) _ hz2,
    View.readCov_unit_zero (S := S512x1) _ hz2]
  simp only [View.readAt_eq_ld, harg3.read_unread, harg4.read_unread, harg5.read_unread, harg7.read_unread, harg8.read_unread, harg9.read_unread,
    View.ld_unit_zero (S := S1x512x1024) hz3, View.ld_unit_zero (S := S1x1024x1024) hz3, View.ld_unit_zero (S := S512x1) hz2,
    View.ld_unit_zero (S := S512x1024) hz2]

theorem firstA_eq (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec F S1x512x1024 .f32) (x1 : Vec F S1x1024x1024 .f32) (x2 : Vec F S1x1024x1024 .bf16) :
    firstA c i arg3 harg3 arg4 harg4 arg5 harg5 arg6 harg6 arg7 harg7 arg8 harg8 arg9 harg9 hc1 hc2 x0 x1 x2
      = k1_pay1 (k1_pay7 x2) (k1_pay11 x0 x1 (k1_pay4 (F := F))) (k1_pay6 (F := F)) (k1_pay13 x0 x1 (k1_pay4 (F := F)) (k1_pay4 (F := F))) := by
  unfold firstA
  rw [View.read_writes_eq_canon _ _ _ (coverFirstA c i arg3 harg3 arg4 harg4 arg5 harg5 arg6 harg6 arg7 harg7 arg8 harg8 arg9 harg9 hc1 hc2 x0 x1 x2)]
  unfold runFirst
  dsimp only
  sl_unfold_words
  rw [View.canon_cons_unit_zero (S := S512x1024) hz2, View.readCov_unit_zero (S := S512x1) _ hz2,
    View.readCov_unit_zero (S := S512x1024) _ hz2]
  simp only [View.readAt_eq_ld, harg3.read_unread, harg4.read_unread, harg5.read_unread, harg7.read_unread, harg8.read_unread, harg9.read_unread,
    View.ld_unit_zero (S := S1x512x1024) hz3, View.ld_unit_zero (S := S1x1024x1024) hz3, View.ld_unit_zero (S := S512x1) hz2,
    View.ld_unit_zero (S := S512x1024) hz2]

/-! ## The last block of keys: the same payloads of the contents found, and the quotient -/

theorem lastM_eq (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) :
    lastM c i arg3 harg3 arg4 harg4 arg5 harg5 arg6 harg6 arg7 harg7 arg8 harg8 arg9 harg9 hc1 hc2 x0 x1 x2 xs7 xs8 xs9 = k1_pay2 (k1_pay9 x0 x1 xs7) := by
  unfold lastM
  rw [View.read_writes_eq_canon _ _ _ (coverLastM c i arg3 harg3 arg4 harg4 arg5 harg5 arg6 harg6 arg7 harg7 arg8 harg8 arg9 harg9 hc1 hc2 x0 x1 x2 xs7 xs8 xs9)]
  unfold runLast
  dsimp only
  sl_unfold_words
  rw [View.canon_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S1x1024x1024) hz3, View.ld_unit_zero (S := S512x1) hz2,
    View.ld_unit_zero (S := S512x1024) hz2]

theorem lastL_eq (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) :
    lastL c i arg3 harg3 arg4 harg4 arg5 harg5 arg6 harg6 arg7 harg7 arg8 harg8 arg9 harg9 hc1 hc2 x0 x1 x2 xs7 xs8 xs9 = k1_pay12 x0 x1 xs7 xs7 xs8 := by
  unfold lastL
  rw [View.read_writes_eq_canon _ _ _ (coverLastL c i arg3 harg3 arg4 harg4 arg5 harg5 arg6 harg6 arg7 harg7 arg8 harg8 arg9 harg9 hc1 hc2 x0 x1 x2 xs7 xs8 xs9)]
  unfold runLast
  dsimp only
  sl_unfold_words
  rw [View.canon_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S1x1024x1024) hz3, View.ld_unit_zero (S := S512x1) hz2,
    View.ld_unit_zero (S := S512x1024) hz2]

theorem lastA_eq (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) :
    lastA c i arg3 harg3 arg4 harg4 arg5 harg5 arg6 harg6 arg7 harg7 arg8 harg8 arg9 harg9 hc1 hc2 x0 x1 x2 xs7 xs8 xs9 = k1_pay1 (k1_pay7 x2) (k1_pay11 x0 x1 xs7) xs9 (k1_pay13 x0 x1 xs7 xs7) := by
  unfold lastA
  rw [View.read_writes_eq_canon _ _ _ (coverLastA c i arg3 harg3 arg4 harg4 arg5 harg5 arg6 harg6 arg7 harg7 arg8 harg8 arg9 harg9 hc1 hc2 x0 x1 x2 xs7 xs8 xs9)]
  unfold runLast
  dsimp only
  sl_unfold_words
  rw [View.canon_unit_zero (S := S512x1024) hz2]
  simp only [View.readAt_eq_ld, harg3.read_unread, harg4.read_unread, harg5.read_unread, harg7.read_unread, harg8.read_unread, harg9.read_unread,
    View.ld_unit_zero (S := S1x512x1024) hz3, View.ld_unit_zero (S := S1x1024x1024) hz3, View.ld_unit_zero (S := S512x1) hz2,
    View.ld_unit_zero (S := S512x1024) hz2]

theorem lastO_eq (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec F S1x512x1024 .f32) (x1 : Vec F S1x1024x1024 .f32) (x2 : Vec F S1x1024x1024 .bf16) (xs7 xs8 : Vec F S512x1 .f32) (xs9 : Vec F S512x1024 .f32) :
    lastO c i arg3 harg3 arg4 harg4 arg5 harg5 arg6 harg6 arg7 harg7 arg8 harg8 arg9 harg9 hc1 hc2 x0 x1 x2 xs7 xs8 xs9
      = k1_pay3 (k1_pay1 (k1_pay7 x2) (k1_pay11 x0 x1 xs7) xs9 (k1_pay13 x0 x1 xs7 xs7)) (k1_pay12 x0 x1 xs7 xs7 xs8) := by
  unfold lastO
  rw [View.read_writes_eq_canon _ _ _ (coverLastO c i arg3 harg3 arg4 harg4 arg5 harg5 arg6 harg6 arg7 harg7 arg8 harg8 arg9 harg9 hc1 hc2 x0 x1 x2 xs7 xs8 xs9)]
  unfold runLast
  dsimp only
  sl_unfold_words
  rw [View.canon_unit_zero (S := S1x512x1024) hz3, View.readCov_unit_zero (S := S512x1024) _ hz2,
    View.readCov_unit_zero (S := S512x1) _ hz2]
  simp only [View.readAt_eq_ld, harg3.read_unread, harg4.read_unread, harg5.read_unread, harg7.read_unread, harg8.read_unread, harg9.read_unread,
    View.ld_unit_zero (S := S1x512x1024) hz3, View.ld_unit_zero (S := S1x1024x1024) hz3, View.ld_unit_zero (S := S512x1) hz2,
    View.ld_unit_zero (S := S512x1024) hz2]

end Generic

/-! ## The same contents at an entry, on the extended reals: one step of the recursion -/

/-- After the first block the running maximum is the step from -∞. -/
theorem firstM_apply (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec Ideal S1x512x1024 .f32) (x1 : Vec Ideal S1x1024x1024 .f32) (x2 : Vec Ideal S1x1024x1024 .bf16) (p : Fin 512) :
    firstM (F := Ideal) c i arg3 harg3 arg4 harg4 arg5 harg5 arg6 harg6 arg7 harg7 arg8 harg8 arg9 harg9 hc1 hc2 x0 x1 x2 (ix2 p 0) = Cert.LibOnlineSoftmax.stepM ⊥ (sc x0 x1 p) := by
  rw [firstM_eq, pay2_id, pay9_apply, attn_pay4_apply]

/-- After the first block the denominator is the step from (-∞, 0). -/
theorem firstL_apply (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec Ideal S1x512x1024 .f32) (x1 : Vec Ideal S1x1024x1024 .f32) (x2 : Vec Ideal S1x1024x1024 .bf16) (p : Fin 512) :
    firstL (F := Ideal) c i arg3 harg3 arg4 harg4 arg5 harg5 arg6 harg6 arg7 harg7 arg8 harg8 arg9 harg9 hc1 hc2 x0 x1 x2 (ix2 p 0) = Cert.LibOnlineSoftmax.stepL ⊥ 0 (sc x0 x1 p) := by
  rw [firstL_eq, pay12_apply, attn_pay4_apply, pay5_apply]

/-- After the first block the numerator is the step from (-∞, 0). -/
theorem firstA_apply (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : condFirst i) (hc2 : ¬condLast i) (x0 : Vec Ideal S1x512x1024 .f32) (x1 : Vec Ideal S1x1024x1024 .f32) (x2 : Vec Ideal S1x1024x1024 .bf16) (p : Fin 512) (c' : Fin 1024) :
    firstA (F := Ideal) c i arg3 harg3 arg4 harg4 arg5 harg5 arg6 harg6 arg7 harg7 arg8 harg8 arg9 harg9 hc1 hc2 x0 x1 x2 (ix2 p c')
      = Cert.LibOnlineSoftmax.stepA ⊥ 0 (sc x0 x1 p) (fun j => x2 (ix3 0 j c')) := by
  rw [firstA_eq, pay1_apply, attn_pay4_apply, pay6_apply]

/-- After the last block the running maximum is the step from the maximum found. -/
theorem lastM_apply (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec Ideal S1x512x1024 .f32) (x1 : Vec Ideal S1x1024x1024 .f32) (x2 : Vec Ideal S1x1024x1024 .bf16) (xs7 xs8 : Vec Ideal S512x1 .f32) (xs9 : Vec Ideal S512x1024 .f32) (p : Fin 512) :
    lastM (F := Ideal) c i arg3 harg3 arg4 harg4 arg5 harg5 arg6 harg6 arg7 harg7 arg8 harg8 arg9 harg9 hc1 hc2 x0 x1 x2 xs7 xs8 xs9 (ix2 p 0) = Cert.LibOnlineSoftmax.stepM (xs7 (ix2 p 0)) (sc x0 x1 p) := by
  rw [lastM_eq, pay2_id, pay9_apply]

/-- After the last block the denominator is the step from the state found. -/
theorem lastL_apply (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec Ideal S1x512x1024 .f32) (x1 : Vec Ideal S1x1024x1024 .f32) (x2 : Vec Ideal S1x1024x1024 .bf16) (xs7 xs8 : Vec Ideal S512x1 .f32) (xs9 : Vec Ideal S512x1024 .f32) (p : Fin 512) :
    lastL (F := Ideal) c i arg3 harg3 arg4 harg4 arg5 harg5 arg6 harg6 arg7 harg7 arg8 harg8 arg9 harg9 hc1 hc2 x0 x1 x2 xs7 xs8 xs9 (ix2 p 0)
      = Cert.LibOnlineSoftmax.stepL (xs7 (ix2 p 0)) (xs8 (ix2 p 0)) (sc x0 x1 p) := by
  rw [lastL_eq, pay12_apply]

/-- After the last block the numerator is the step from the state found. -/
theorem lastA_apply (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec Ideal S1x512x1024 .f32) (x1 : Vec Ideal S1x1024x1024 .f32) (x2 : Vec Ideal S1x1024x1024 .bf16) (xs7 xs8 : Vec Ideal S512x1 .f32) (xs9 : Vec Ideal S512x1024 .f32) (p : Fin 512) (c' : Fin 1024) :
    lastA (F := Ideal) c i arg3 harg3 arg4 harg4 arg5 harg5 arg6 harg6 arg7 harg7 arg8 harg8 arg9 harg9 hc1 hc2 x0 x1 x2 xs7 xs8 xs9 (ix2 p c')
      = Cert.LibOnlineSoftmax.stepA (xs7 (ix2 p 0)) (xs9 (ix2 p c')) (sc x0 x1 p) (fun j => x2 (ix3 0 j c')) := by
  rw [lastA_eq, pay1_apply]

/-- The output block: the new numerator over the new denominator. -/
theorem lastO_apply (c : Dev nD) (i : grid1.Coords) (arg3 : Memref sig .tc .vmem S1x512x1024 .f32) (harg3 : arg3.IsWhole) (arg4 : Memref sig .tc .vmem S1x1024x1024 .f32) (harg4 : arg4.IsWhole)
    (arg5 : Memref sig .tc .vmem S1x1024x1024 .bf16) (harg5 : arg5.IsWhole) (arg6 : Memref sig .tc .vmem S1x512x1024 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1024 .f32) (harg9 : arg9.IsWhole)
    (hc1 : ¬condFirst i) (hc2 : condLast i) (x0 : Vec Ideal S1x512x1024 .f32) (x1 : Vec Ideal S1x1024x1024 .f32) (x2 : Vec Ideal S1x1024x1024 .bf16) (xs7 xs8 : Vec Ideal S512x1 .f32) (xs9 : Vec Ideal S512x1024 .f32) (p : Fin 512) (c' : Fin 1024) :
    lastO (F := Ideal) c i arg3 harg3 arg4 harg4 arg5 harg5 arg6 harg6 arg7 harg7 arg8 harg8 arg9 harg9 hc1 hc2 x0 x1 x2 xs7 xs8 xs9 (ix3 0 p c')
      = Ideal.div (Cert.LibOnlineSoftmax.stepA (xs7 (ix2 p 0)) (xs9 (ix2 p c')) (sc x0 x1 p) (fun j => x2 (ix3 0 j c')))
          (Cert.LibOnlineSoftmax.stepL (xs7 (ix2 p 0)) (xs8 (ix2 p 0)) (sc x0 x1 p)) := by
  rw [lastO_eq, attn_pay3_apply, pay1_apply, pay12_apply]

end Cert.KernelIdeal.PayVal

end
-- ==== Proof.FinalProj.lean ====
/-
  The projection region's three output arrays after the run, each as ONE function of the arrays the region is
  entered with: relu(x · W + b), row by row.

  The region visits 16 points; point t reads rows 512 t … 512 t + 511 of x and the whole of each weight and
  bias array, and writes back rows 512 t … 512 t + 511 of each output.  Each block the body leaves is the
  projection of its input blocks; an input block read at (p, k) is the array at (512 t + p, k); so what point t
  writes back is block t of the projection of the whole arrays, and the sixteen blocks tile the 8192 rows.
-/
import proofs.«123338_j20864951124606_2_alg».proof.Proof.HalfProj
import proofs.«123338_j20864951124606_2_alg».proof.Proof.PieceVals
import Idealize.ShloMosaic.Lib.Pipeline.Value

set_option maxRecDepth 16384

noncomputable section

namespace Cert.KernelIdeal.Hand

open Cert.KernelIdeal Cert.KernelIdeal.Gen Cert.KernelIdeal.PayVal
open Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

/-- relu(X · Wt + B) of whole arrays: X of 8192 rows, Wt indexed (input feature, output feature), B one row. -/
def projArr (X : S8192x1024.Idx → EReal) (Wt : S1024x1024.Idx → EReal) (B : S1x1024.Idx → EReal) :
    S8192x1024.Idx → EReal := fun i =>
  max ((∑ k : Fin 1024, X (ix2 (i 0) k) * Wt (ix2 k (i 1))) + B (ix2 0 (i 1))) (Ideal.ofBits .f32 0x00000000#32)

theorem projArr_at (X : S8192x1024.Idx → EReal) (Wt : S1024x1024.Idx → EReal) (B : S1x1024.Idx → EReal)
    (r : Fin 8192) (q : Fin 1024) :
    projArr X Wt B (ix2 r q)
      = max ((∑ k : Fin 1024, X (ix2 r k) * Wt (ix2 k q)) + B (ix2 0 q)) (Ideal.ofBits .f32 0x00000000#32) := rfl

/-! ### The printed index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-! ### Each input block read off its array -/

/-- Window 0's block at point t is rows 512 t … 512 t + 511 of x. -/
theorem blockX_apply (c : Dev nD) (t : Fin cfg0.N) (p : Fin 512) (k : Fin 1024) (h : t.val * 512 + p.val < 8192) :
    (iblk0 V c 0 t : Vec Ideal S512x1024 .bf16) (ix2 p k)
      = (V c main_v1 : S8192x1024.Idx → EReal) (ix2 ⟨t.val * 512 + p.val, h⟩ k) := by
  obtain ⟨e0, e1⟩ := idx0 t
  unfold iblk0
  rw [View.read_apply]
  show V c main_v1 _ = V c main_v1 _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- Window 1 is the whole array at every point. -/
theorem blockW1_apply (c : Dev nD) (t : Fin cfg0.N) (k q : Fin 1024) :
    (iblk0 V c 1 t : Vec Ideal S1024x1024 .bf16) (ix2 k q) = (V c main_v3 : S1024x1024.Idx → EReal) (ix2 k q) := by
  obtain ⟨e0, e1⟩ := idx1 t
  unfold iblk0
  rw [View.read_apply]
  show V c main_v3 _ = V c main_v3 _
  congr 1
  funext a
  apply Fin.ext
  match a with
  | ⟨0, _⟩ => show win0_1.index t (0 : Fin 2) * 1024 + 1 * k.val = k.val; rw [e0]; omega
  | ⟨1, _⟩ => show win0_1.index t (1 : Fin 2) * 1024 + 1 * q.val = q.val; rw [e1]; omega
/-- Window 2 is the whole array at every point. -/
theorem blockW2_apply (c : Dev nD) (t : Fin cfg0.N) (k q : Fin 1024) :
    (iblk0 V c 2 t : Vec Ideal S1024x1024 .bf16) (ix2 k q) = (V c main_v5 : S1024x1024.Idx → EReal) (ix2 k q) := by
  obtain ⟨e0, e1⟩ := idx2 t
  unfold iblk0
  rw [View.read_apply]
  show V c main_v5 _ = V c main_v5 _
  congr 1
  funext a
  apply Fin.ext
  match a with
  | ⟨0, _⟩ => show win0_2.index t (0 : Fin 2) * 1024 + 1 * k.val = k.val; rw [e0]; omega
  | ⟨1, _⟩ => show win0_2.index t (1 : Fin 2) * 1024 + 1 * q.val = q.val; rw [e1]; omega
/-- Window 3 is the whole array at every point. -/
theorem blockW3_apply (c : Dev nD) (t : Fin cfg0.N) (k q : Fin 1024) :
    (iblk0 V c 3 t : Vec Ideal S1024x1024 .bf16) (ix2 k q) = (V c main_v7 : S1024x1024.Idx → EReal) (ix2 k q) := by
  obtain ⟨e0, e1⟩ := idx3 t
  unfold iblk0
  rw [View.read_apply]
  show V c main_v7 _ = V c main_v7 _
  congr 1
  funext a
  apply Fin.ext
  match a with
  | ⟨0, _⟩ => show win0_3.index t (0 : Fin 2) * 1024 + 1 * k.val = k.val; rw [e0]; omega
  | ⟨1, _⟩ => show win0_3.index t (1 : Fin 2) * 1024 + 1 * q.val = q.val; rw [e1]; omega
/-- Window 4 is the whole one-row array at every point. -/
theorem blockB4_apply (c : Dev nD) (t : Fin cfg0.N) (q : Fin 1024) :
    (iblk0 V c 4 t : Vec Ideal S1x1024 .f32) (ix2 0 q) = (V c main_v8 : S1x1024.Idx → EReal) (ix2 0 q) := by
  obtain ⟨e0, e1⟩ := idx4 t
  unfold iblk0
  rw [View.read_apply]
  show V c main_v8 _ = V c main_v8 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 1024 + 1 * q.val = q.val; rw [e1]; omega
/-- Window 5 is the whole one-row array at every point. -/
theorem blockB5_apply (c : Dev nD) (t : Fin cfg0.N) (q : Fin 1024) :
    (iblk0 V c 5 t : Vec Ideal S1x1024 .f32) (ix2 0 q) = (V c main_v9 : S1x1024.Idx → EReal) (ix2 0 q) := by
  obtain ⟨e0, e1⟩ := idx5 t
  unfold iblk0
  rw [View.read_apply]
  show V c main_v9 _ = V c main_v9 _
  congr 1
  funext a
  apply Fin.ext
  match a with
  | ⟨0, _⟩ => show win0_5.index t (0 : Fin 2) * 1 + 1 * (0 : Fin 1).val = (0 : Fin 1).val; rw [e0]; rfl
  | ⟨1, _⟩ => show win0_5.index t (1 : Fin 2) * 1024 + 1 * q.val = q.val; rw [e1]; omega
/-- Window 6 is the whole one-row array at every point. -/
theorem blockB6_apply (c : Dev nD) (t : Fin cfg0.N) (q : Fin 1024) :
    (iblk0 V c 6 t : Vec Ideal S1x1024 .f32) (ix2 0 q) = (V c main_v10 : S1x1024.Idx → EReal) (ix2 0 q) := by
  obtain ⟨e0, e1⟩ := idx6 t
  unfold iblk0
  rw [View.read_apply]
  show V c main_v10 _ = V c main_v10 _
  congr 1
  funext a
  apply Fin.ext
  match a with
  | ⟨0, _⟩ => show win0_6.index t (0 : Fin 2) * 1 + 1 * (0 : Fin 1).val = (0 : Fin 1).val; rw [e0]; rfl
  | ⟨1, _⟩ => show win0_6.index t (1 : Fin 2) * 1024 + 1 * q.val = q.val; rw [e1]; omega

/-! ### A block's projection is a block of the arrays' projection -/

theorem block_proj (X : S8192x1024.Idx → EReal) (Wt : S1024x1024.Idx → EReal) (B : S1x1024.Idx → EReal)
    (x : Vec Ideal S512x1024 .bf16) (w : Vec Ideal S1024x1024 .bf16) (b : Vec Ideal S1x1024 .f32) (n : ℕ)
    (p : Fin 512) (q : Fin 1024) (h : n * 512 + p.val < 8192)
    (hx : ∀ k : Fin 1024, x (ix2 p k) = X (ix2 ⟨n * 512 + p.val, h⟩ k))
    (hw : ∀ k : Fin 1024, w (ix2 k q) = Wt (ix2 k q)) (hb : b (ix2 0 q) = B (ix2 0 q)) :
    max ((∑ k : Fin 1024, x (ix2 p k) * w (ix2 k q)) + b (ix2 0 q)) (Ideal.ofBits .f32 0x00000000#32)
      = projArr X Wt B (ix2 ⟨n * 512 + p.val, h⟩ q) := by
  rw [projArr_at, hb]
  exact congrArg (fun z => max (z + B (ix2 0 q)) (Ideal.ofBits .f32 0x00000000#32))
    (Finset.sum_congr rfl fun k _ => by rw [hx k, hw k])

/-! ### The Q array -/

/-- What point t writes back into the Q array is block t of the projection of the whole arrays. -/
theorem flushedQ_eq (c : Dev nD) (t : Fin cfg0.N) :
    (dat0 V c).flushed 7 t
      = ((cfg0.win 7).blk t).view.read (Elt Ideal) (projArr (V c main_v1) (V c main_v3) (V c main_v8)) := by
  show (cfg0.win 7).cut (grid0.coords t) ((dat0 V c).after 7 t) = _
  rw [after0_7]
  obtain ⟨e0, e1⟩ := idx7 t
  funext j
  have ht : t.val < 16 := lt_of_lt_of_eq t.isLt N_0
  have hj0 : (j 0).val < 512 := (j 0).isLt
  have hj1 : (j 1).val < 1024 := (j 1).isLt
  have hrow : t.val * 512 + (j 0).val < 8192 := by omega
  have hxi : (cfg0.win 7).xinj (grid0.coords t) j = (ix2 ⟨(j 0).val, hj0⟩ ⟨(j 1).val, hj1⟩ : S512x1024.Idx) :=
    funext fun a => Fin.ext (by match a with | ⟨0, _⟩ => rfl | ⟨1, _⟩ => rfl)
  have hemb : ((cfg0.win 7).blk t).view.emb j
      = (ix2 ⟨t.val * 512 + (j 0).val, hrow⟩ ⟨(j 1).val, hj1⟩ : S8192x1024.Idx) :=
    funext fun a => Fin.ext (by
      match a with
      | ⟨0, _⟩ => show win0_7.index t (0 : Fin 2) * 512 + 1 * (j 0).val = t.val * 512 + (j 0).val; rw [e0]; omega
      | ⟨1, _⟩ => show win0_7.index t (1 : Fin 2) * 1024 + 1 * (j 1).val = (j 1).val; rw [e1]; omega)
  exact (congrArg (outQ (iblk0 V c 0 t) (iblk0 V c 1 t) (iblk0 V c 4 t)) hxi).trans
    ((outQ_apply (iblk0 V c 0 t) (iblk0 V c 1 t) (iblk0 V c 4 t) ⟨(j 0).val, hj0⟩ ⟨(j 1).val, hj1⟩).trans
      ((block_proj (V c main_v1) (V c main_v3) (V c main_v8) (iblk0 V c 0 t) (iblk0 V c 1 t) (iblk0 V c 4 t)
          t.val ⟨(j 0).val, hj0⟩ ⟨(j 1).val, hj1⟩ hrow
          (fun k => blockX_apply V c t ⟨(j 0).val, hj0⟩ k hrow)
          (fun k => blockW1_apply V c t k ⟨(j 1).val, hj1⟩)
          (blockB4_apply V c t ⟨(j 1).val, hj1⟩)).trans
        (congrArg (projArr (V c main_v1) (V c main_v3) (V c main_v8)) hemb.symm)))

/-- An index of the Q array is in point t's block iff each coordinate is in the block's range on its axis. -/
theorem mem_rowsQ (t : Fin cfg0.N) (i : S8192x1024.Idx) :
    i ∈ ((cfg0.win 7).blk t).view.set
      ↔ ∀ a : Fin 2, win0_7.index t a * S512x1024.size a ≤ (i a).val
          ∧ (i a).val < win0_7.index t a * S512x1024.size a + S512x1024.size a := by
  show i ∈ ((View.whole main_v11_0).slice (win0_7.rect t)).set ↔ _
  rw [View.set_slice_whole, Rect.mem_set_unit]
  exact Iff.rfl

/-- Row r of the Q array is written back by point r / 512. -/
theorem coverQ (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, lt_of_lt_of_eq (by omega : (i 0).val / 512 < 16) N_0.symm⟩, rfl⟩
  obtain ⟨e0, e1⟩ := idx7 t
  refine ⟨t, flush0_7 t, ?_⟩
  rw [mem_rowsQ]
  intro a
  match a with
  | ⟨0, _⟩ =>
    show win0_7.index t (0 : Fin 2) * 512 ≤ (i 0).val ∧ (i 0).val < win0_7.index t (0 : Fin 2) * 512 + 512
    rw [e0, ht]; omega
  | ⟨1, _⟩ =>
    show win0_7.index t (1 : Fin 2) * 1024 ≤ (i 1).val ∧ (i 1).val < win0_7.index t (1 : Fin 2) * 1024 + 1024
    rw [e1]; omega

/-- The Q array after the region: the projection of the arrays the region is entered with. -/
theorem finalQ (c : Dev nD) :
    (dat0 V c).arrAt 7 cfg0.N = projArr (V c main_v1) (V c main_v3) (V c main_v8) :=
  (dat0 V c).arrAt_eq_of_cover 7 (projArr (V c main_v1) (V c main_v3) (V c main_v8))
    (fun t _ => flushedQ_eq V c t) (coverQ)

/-! ### The K array -/

/-- What point t writes back into the K array is block t of the projection of the whole arrays. -/
theorem flushedK_eq (c : Dev nD) (t : Fin cfg0.N) :
    (dat0 V c).flushed 8 t
      = ((cfg0.win 8).blk t).view.read (Elt Ideal) (projArr (V c main_v1) (V c main_v5) (V c main_v9)) := by
  show (cfg0.win 8).cut (grid0.coords t) ((dat0 V c).after 8 t) = _
  rw [after0_8]
  obtain ⟨e0, e1⟩ := idx8 t
  funext j
  have ht : t.val < 16 := lt_of_lt_of_eq t.isLt N_0
  have hj0 : (j 0).val < 512 := (j 0).isLt
  have hj1 : (j 1).val < 1024 := (j 1).isLt
  have hrow : t.val * 512 + (j 0).val < 8192 := by omega
  have hxi : (cfg0.win 8).xinj (grid0.coords t) j = (ix2 ⟨(j 0).val, hj0⟩ ⟨(j 1).val, hj1⟩ : S512x1024.Idx) :=
    funext fun a => Fin.ext (by match a with | ⟨0, _⟩ => rfl | ⟨1, _⟩ => rfl)
  have hemb : ((cfg0.win 8).blk t).view.emb j
      = (ix2 ⟨t.val * 512 + (j 0).val, hrow⟩ ⟨(j 1).val, hj1⟩ : S8192x1024.Idx) :=
    funext fun a => Fin.ext (by
      match a with
      | ⟨0, _⟩ => show win0_8.index t (0 : Fin 2) * 512 + 1 * (j 0).val = t.val * 512 + (j 0).val; rw [e0]; omega
      | ⟨1, _⟩ => show win0_8.index t (1 : Fin 2) * 1024 + 1 * (j 1).val = (j 1).val; rw [e1]; omega)
  exact (congrArg (outK (iblk0 V c 0 t) (iblk0 V c 2 t) (iblk0 V c 5 t)) hxi).trans
    ((outK_apply (iblk0 V c 0 t) (iblk0 V c 2 t) (iblk0 V c 5 t) ⟨(j 0).val, hj0⟩ ⟨(j 1).val, hj1⟩).trans
      ((block_proj (V c main_v1) (V c main_v5) (V c main_v9) (iblk0 V c 0 t) (iblk0 V c 2 t) (iblk0 V c 5 t)
          t.val ⟨(j 0).val, hj0⟩ ⟨(j 1).val, hj1⟩ hrow
          (fun k => blockX_apply V c t ⟨(j 0).val, hj0⟩ k hrow)
          (fun k => blockW2_apply V c t k ⟨(j 1).val, hj1⟩)
          (blockB5_apply V c t ⟨(j 1).val, hj1⟩)).trans
        (congrArg (projArr (V c main_v1) (V c main_v5) (V c main_v9)) hemb.symm)))

/-- An index of the K array is in point t's block iff each coordinate is in the block's range on its axis. -/
theorem mem_rowsK (t : Fin cfg0.N) (i : S8192x1024.Idx) :
    i ∈ ((cfg0.win 8).blk t).view.set
      ↔ ∀ a : Fin 2, win0_8.index t a * S512x1024.size a ≤ (i a).val
          ∧ (i a).val < win0_8.index t a * S512x1024.size a + S512x1024.size a := by
  show i ∈ ((View.whole main_v11_1).slice (win0_8.rect t)).set ↔ _
  rw [View.set_slice_whole, Rect.mem_set_unit]
  exact Iff.rfl

/-- Row r of the K array is written back by point r / 512. -/
theorem coverK (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, lt_of_lt_of_eq (by omega : (i 0).val / 512 < 16) N_0.symm⟩, rfl⟩
  obtain ⟨e0, e1⟩ := idx8 t
  refine ⟨t, flush0_8 t, ?_⟩
  rw [mem_rowsK]
  intro a
  match a with
  | ⟨0, _⟩ =>
    show win0_8.index t (0 : Fin 2) * 512 ≤ (i 0).val ∧ (i 0).val < win0_8.index t (0 : Fin 2) * 512 + 512
    rw [e0, ht]; omega
  | ⟨1, _⟩ =>
    show win0_8.index t (1 : Fin 2) * 1024 ≤ (i 1).val ∧ (i 1).val < win0_8.index t (1 : Fin 2) * 1024 + 1024
    rw [e1]; omega

/-- The K array after the region: the projection of the arrays the region is entered with. -/
theorem finalK (c : Dev nD) :
    (dat0 V c).arrAt 8 cfg0.N = projArr (V c main_v1) (V c main_v5) (V c main_v9) :=
  (dat0 V c).arrAt_eq_of_cover 8 (projArr (V c main_v1) (V c main_v5) (V c main_v9))
    (fun t _ => flushedK_eq V c t) (coverK)

/-! ### The V array -/

/-- What point t writes back into the V array is block t of the projection of the whole arrays. -/
theorem flushedV_eq (c : Dev nD) (t : Fin cfg0.N) :
    (dat0 V c).flushed 9 t
      = ((cfg0.win 9).blk t).view.read (Elt Ideal) (projArr (V c main_v1) (V c main_v7) (V c main_v10)) := by
  show (cfg0.win 9).cut (grid0.coords t) ((dat0 V c).after 9 t) = _
  rw [after0_9]
  obtain ⟨e0, e1⟩ := idx9 t
  funext j
  have ht : t.val < 16 := lt_of_lt_of_eq t.isLt N_0
  have hj0 : (j 0).val < 512 := (j 0).isLt
  have hj1 : (j 1).val < 1024 := (j 1).isLt
  have hrow : t.val * 512 + (j 0).val < 8192 := by omega
  have hxi : (cfg0.win 9).xinj (grid0.coords t) j = (ix2 ⟨(j 0).val, hj0⟩ ⟨(j 1).val, hj1⟩ : S512x1024.Idx) :=
    funext fun a => Fin.ext (by match a with | ⟨0, _⟩ => rfl | ⟨1, _⟩ => rfl)
  have hemb : ((cfg0.win 9).blk t).view.emb j
      = (ix2 ⟨t.val * 512 + (j 0).val, hrow⟩ ⟨(j 1).val, hj1⟩ : S8192x1024.Idx) :=
    funext fun a => Fin.ext (by
      match a with
      | ⟨0, _⟩ => show win0_9.index t (0 : Fin 2) * 512 + 1 * (j 0).val = t.val * 512 + (j 0).val; rw [e0]; omega
      | ⟨1, _⟩ => show win0_9.index t (1 : Fin 2) * 1024 + 1 * (j 1).val = (j 1).val; rw [e1]; omega)
  exact (congrArg (outV (iblk0 V c 0 t) (iblk0 V c 3 t) (iblk0 V c 6 t)) hxi).trans
    ((outV_apply (iblk0 V c 0 t) (iblk0 V c 3 t) (iblk0 V c 6 t) ⟨(j 0).val, hj0⟩ ⟨(j 1).val, hj1⟩).trans
      ((block_proj (V c main_v1) (V c main_v7) (V c main_v10) (iblk0 V c 0 t) (iblk0 V c 3 t) (iblk0 V c 6 t)
          t.val ⟨(j 0).val, hj0⟩ ⟨(j 1).val, hj1⟩ hrow
          (fun k => blockX_apply V c t ⟨(j 0).val, hj0⟩ k hrow)
          (fun k => blockW3_apply V c t k ⟨(j 1).val, hj1⟩)
          (blockB6_apply V c t ⟨(j 1).val, hj1⟩)).trans
        (congrArg (projArr (V c main_v1) (V c main_v7) (V c main_v10)) hemb.symm)))

/-- An index of the V array is in point t's block iff each coordinate is in the block's range on its axis. -/
theorem mem_rowsV (t : Fin cfg0.N) (i : S8192x1024.Idx) :
    i ∈ ((cfg0.win 9).blk t).view.set
      ↔ ∀ a : Fin 2, win0_9.index t a * S512x1024.size a ≤ (i a).val
          ∧ (i a).val < win0_9.index t a * S512x1024.size a + S512x1024.size a := by
  show i ∈ ((View.whole main_v11_2).slice (win0_9.rect t)).set ↔ _
  rw [View.set_slice_whole, Rect.mem_set_unit]
  exact Iff.rfl

/-- Row r of the V array is written back by point r / 512. -/
theorem coverV (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, lt_of_lt_of_eq (by omega : (i 0).val / 512 < 16) N_0.symm⟩, rfl⟩
  obtain ⟨e0, e1⟩ := idx9 t
  refine ⟨t, flush0_9 t, ?_⟩
  rw [mem_rowsV]
  intro a
  match a with
  | ⟨0, _⟩ =>
    show win0_9.index t (0 : Fin 2) * 512 ≤ (i 0).val ∧ (i 0).val < win0_9.index t (0 : Fin 2) * 512 + 512
    rw [e0, ht]; omega
  | ⟨1, _⟩ =>
    show win0_9.index t (1 : Fin 2) * 1024 ≤ (i 1).val ∧ (i 1).val < win0_9.index t (1 : Fin 2) * 1024 + 1024
    rw [e1]; omega

/-- The V array after the region: the projection of the arrays the region is entered with. -/
theorem finalV (c : Dev nD) :
    (dat0 V c).arrAt 9 cfg0.N = projArr (V c main_v1) (V c main_v7) (V c main_v10) :=
  (dat0 V c).arrAt_eq_of_cover 9 (projArr (V c main_v1) (V c main_v7) (V c main_v10))
    (fun t _ => flushedV_eq V c t) (coverV)

end Cert.KernelIdeal.Hand

end
-- ==== Proof.Spec.lean ====
/-
  The specification of the certificate: three ReLU projections followed by unscaled, non-causal
  softmax attention, and the online-softmax form of the same value.

  For x : [4, 2048, 1024], W : [1024, 1024] (output feature, input feature) and b : [1024],
      proj x W b (β, s, o) = max (∑ d, x (β, s, d) * W (o, d) + b o) 0.
  With q, k, v three such projections, the attention value at (β, s, o) is
      ∑ t, (exp (σ t - m) / (0 + ∑ t', exp (σ t' - m))) * v (β, t, o),
      σ t = ∑ o', q (β, s, o') * k (β, t, o'),   m = max (-∞) (the maximum over t of σ t, folded from -∞),
  all operations being the exact ones on the extended reals.  The online form reads the 2048 keys of a
  row in two blocks of 1024 and keeps a running maximum, denominator and numerator; for finite inputs
  the two forms are the same value.
-/
import Idealize.ShloMosaic.PureOps.Ideal
import Idealize.ShloMosaic.Lib.ValueIdx
import proofs.«123338_j20864951124606_2_alg».proof.Proof.LibOnlineSoftmax

noncomputable section

namespace Cert.AttnSpec

open Idealize.ShloMosaic Idealize.ShloMosaic.ValueIdx

/-- Arrays of extended reals over the three literal shapes. -/
abbrev A3 : Type := (⟨3, ![4, 2048, 1024]⟩ : Shape).Idx → EReal
abbrev A2 : Type := (⟨2, ![1024, 1024]⟩ : Shape).Idx → EReal
abbrev A1 : Type := (⟨1, ![1024]⟩ : Shape).Idx → EReal

/-- A projection: relu (x · Wᵀ + b). -/
def proj (x : A3) (W : A2) (b : A1) : A3 := fun i =>
  max ((∑ d : Fin 1024, x (ix3 (i 0) (i 1) d) * W (ix2 (i 2) d)) + b (ix1 (i 2)))
    (Ideal.ofBits .f32 0x00000000#32)

/-- The logit of query row s against key row t (in batch bb), t a key position. -/
def logit (q k : A3) (bb : Fin 4) (s t : Fin 2048) : EReal :=
  ∑ o : Fin 1024, q (ix3 bb s o) * k (ix3 bb t o)

/-- The logits of a query row as a sequence over ℕ (0 past the last key). -/
def score (q k : A3) (bb : Fin 4) (s : Fin 2048) : ℕ → EReal := fun t =>
  if h : t < 2048 then ∑ o : Fin 1024, q (ix3 bb s o) * k (ix3 bb ⟨t, h⟩ o) else 0

/-- One output feature of the values as a sequence over ℕ (0 past the last key). -/
def value (v : A3) (bb : Fin 4) (o : Fin 1024) : ℕ → EReal := fun t =>
  if h : t < 2048 then v (ix3 bb ⟨t, h⟩ o) else 0

theorem score_val (q k : A3) (bb : Fin 4) (s t : Fin 2048) : score q k bb s t.val = logit q k bb s t := by
  unfold score logit
  rw [dif_pos t.isLt]

theorem value_val (v : A3) (bb : Fin 4) (o : Fin 1024) (t : Fin 2048) : value v bb o t.val = v (ix3 bb t o) := by
  unfold value
  rw [dif_pos t.isLt]

/-- The maximum of a row's logits: folded from -∞ and joined with -∞ once more. -/
def rowMax (q k : A3) (bb : Fin 4) (s : Fin 2048) : EReal :=
  max ⊥ ((Finset.univ : Finset (Fin 2048)).fold max ⊥ (fun t => logit q k bb s t))

/-- Softmax attention of q, k, v. -/
def attn (q k v : A3) : A3 := fun i =>
  ∑ t : Fin 2048,
    Ideal.div (Ideal.exp (logit q k (i 0) (i 1) t - rowMax q k (i 0) (i 1)))
        (0 + ∑ t' : Fin 2048, Ideal.exp (logit q k (i 0) (i 1) t' - rowMax q k (i 0) (i 1)))
      * v (ix3 (i 0) t (i 2))

/-- The reference's result: attention of the three projections. -/
def G (x : A3) (Wq : A2) (bq : A1) (Wk : A2) (bk : A1) (Wv : A2) (bv : A1) : A3 :=
  attn (proj x Wq bq) (proj x Wk bk) (proj x Wv bv)

/-- Attention read at an index given by its coordinates. -/
theorem attn_at (q k v : A3) (bb : Fin 4) (s : Fin 2048) (o : Fin 1024) :
    attn q k v (ix3 bb s o)
      = ∑ t : Fin 2048,
          Ideal.div (Ideal.exp (logit q k bb s t - rowMax q k bb s))
              (0 + ∑ t' : Fin 2048, Ideal.exp (logit q k bb s t' - rowMax q k bb s))
            * v (ix3 bb t o) := rfl

/-- The online form: two blocks of 1024 keys, then numerator over denominator. -/
def online (q k v : A3) : A3 := fun i =>
  let st := Cert.LibOnlineSoftmax.state (b := 1024)
    (fun j kk => score q k (i 0) (i 1) (j * 1024 + kk.val))
    (fun j kk => value v (i 0) (i 2) (j * 1024 + kk.val)) 2
  Ideal.div st.2.2 st.2.1

/-- A projection read at an index given by its coordinates. -/
theorem proj_at (x : A3) (W : A2) (b : A1) (bb : Fin 4) (s : Fin 2048) (o : Fin 1024) :
    proj x W b (ix3 bb s o)
      = max ((∑ d : Fin 1024, x (ix3 bb s d) * W (ix2 o d)) + b (ix1 o)) (Ideal.ofBits .f32 0x00000000#32) := rfl

/-- The online form read at an index given by its coordinates. -/
theorem online_at (q k v : A3) (bb : Fin 4) (s : Fin 2048) (o : Fin 1024) :
    online q k v (ix3 bb s o)
      = Ideal.div
          (Cert.LibOnlineSoftmax.state (b := 1024) (fun j kk => score q k bb s (j * 1024 + kk.val))
            (fun j kk => value v bb o (j * 1024 + kk.val)) 2).2.2
          (Cert.LibOnlineSoftmax.state (b := 1024) (fun j kk => score q k bb s (j * 1024 + kk.val))
            (fun j kk => value v bb o (j * 1024 + kk.val)) 2).2.1 := rfl

/-! ### Finiteness -/

/-- The pattern of +0 denotes 0. -/
theorem ofBits_zero : Ideal.ofBits .f32 0x00000000#32 = 0 := by simp [Ideal.ofBits, Ideal.ieee]

/-- A coerced real is finite. -/
theorem coe_fin (r : ℝ) : (r : EReal) ≠ ⊤ ∧ (r : EReal) ≠ ⊥ := ⟨EReal.coe_ne_top r, EReal.coe_ne_bot r⟩

/-- A finite sum of products of finite extended reals is finite. -/
theorem sum_mul_finite {n : ℕ} (f g : Fin n → EReal) (hf : ∀ d, f d ≠ ⊤ ∧ f d ≠ ⊥)
    (hg : ∀ d, g d ≠ ⊤ ∧ g d ≠ ⊥) : (∑ d, f d * g d) ≠ ⊤ ∧ (∑ d, f d * g d) ≠ ⊥ := by
  have e : ∑ d, f d * g d = ((∑ d, (f d).toReal * (g d).toReal : ℝ) : EReal) := by
    rw [Cert.LibOnlineSoftmax.coe_sum]
    refine Finset.sum_congr rfl fun d _ => ?_
    rw [EReal.coe_mul, EReal.coe_toReal (hf d).1 (hf d).2, EReal.coe_toReal (hg d).1 (hg d).2]
  rw [e]
  exact coe_fin _

/-- A projection of finite arrays is finite. -/
theorem proj_finite {x : A3} {W : A2} {b : A1} (hx : ∀ i, x i ≠ ⊤ ∧ x i ≠ ⊥) (hW : ∀ i, W i ≠ ⊤ ∧ W i ≠ ⊥)
    (hb : ∀ i, b i ≠ ⊤ ∧ b i ≠ ⊥) : ∀ i, proj x W b i ≠ ⊤ ∧ proj x W b i ≠ ⊥ := by
  intro i
  obtain ⟨bb, s, o, rfl⟩ : ∃ (bb : Fin 4) (s : Fin 2048) (o : Fin 1024), i = ix3 bb s o := ⟨i 0, i 1, i 2, eq_ix3 i⟩
  have hs := sum_mul_finite (fun d : Fin 1024 => x (ix3 bb s d)) (fun d : Fin 1024 => W (ix2 o d))
    (fun d => hx _) (fun d => hW _)
  have e : proj x W b (ix3 bb s o)
      = ((max ((∑ d : Fin 1024, x (ix3 bb s d) * W (ix2 o d)).toReal + (b (ix1 o)).toReal) 0 : ℝ) : EReal) := by
    rw [proj_at, ofBits_zero, ← Cert.LibOnlineSoftmax.max_coe, EReal.coe_add, EReal.coe_toReal hs.1 hs.2,
      EReal.coe_toReal (hb _).1 (hb _).2, EReal.coe_zero]
  rw [e]
  exact coe_fin _

/-! ### The online form is the attention -/

/-- For finite inputs the online form of the three projections is the reference's result. -/
theorem online_eq_G {x : A3} {Wq : A2} {bq : A1} {Wk : A2} {bk : A1} {Wv : A2} {bv : A1}
    (hx : ∀ i, x i ≠ ⊤ ∧ x i ≠ ⊥) (hWq : ∀ i, Wq i ≠ ⊤ ∧ Wq i ≠ ⊥) (hbq : ∀ i, bq i ≠ ⊤ ∧ bq i ≠ ⊥)
    (hWk : ∀ i, Wk i ≠ ⊤ ∧ Wk i ≠ ⊥) (hbk : ∀ i, bk i ≠ ⊤ ∧ bk i ≠ ⊥)
    (hWv : ∀ i, Wv i ≠ ⊤ ∧ Wv i ≠ ⊥) (hbv : ∀ i, bv i ≠ ⊤ ∧ bv i ≠ ⊥) :
    online (proj x Wq bq) (proj x Wk bk) (proj x Wv bv) = G x Wq bq Wk bk Wv bv := by
  have hq := proj_finite hx hWq hbq
  have hk := proj_finite hx hWk hbk
  have hv := proj_finite hx hWv hbv
  unfold G
  generalize proj x Wq bq = q at hq ⊢
  generalize proj x Wk bk = k at hk ⊢
  generalize proj x Wv bv = v at hv ⊢
  funext i
  obtain ⟨bb, s, o, rfl⟩ : ∃ (bb : Fin 4) (s : Fin 2048) (o : Fin 1024), i = ix3 bb s o := ⟨i 0, i 1, i 2, eq_ix3 i⟩
  have hS : ∀ t, score q k bb s t ≠ ⊤ ∧ score q k bb s t ≠ ⊥ := by
    intro t
    unfold score
    split_ifs with h
    · exact sum_mul_finite _ _ (fun d => hq _) (fun d => hk _)
    · exact ⟨EReal.zero_ne_top, EReal.zero_ne_bot⟩
  have hB : ∀ t, value v bb o t ≠ ⊤ ∧ value v bb o t ≠ ⊥ := by
    intro t
    unfold value
    split_ifs with h
    · exact hv _
    · exact ⟨EReal.zero_ne_top, EReal.zero_ne_bot⟩
  rw [online_at, attn_at]
  refine (Cert.LibOnlineSoftmax.online_eq_finite 2 1024 (by decide) (by decide) (score q k bb s) (value v bb o)
    hS hB).trans ?_
  show (∑ t : Fin 2048,
      Ideal.div
          (Ideal.exp (score q k bb s t.val
            - max ⊥ ((Finset.univ : Finset (Fin 2048)).fold max ⊥ (fun t => score q k bb s t.val))))
          (0 + ∑ t' : Fin 2048, Ideal.exp (score q k bb s t'.val
            - max ⊥ ((Finset.univ : Finset (Fin 2048)).fold max ⊥ (fun t => score q k bb s t.val))))
        * value v bb o t.val) = _
  unfold rowMax
  simp only [score_val, value_val]

end Cert.AttnSpec

end
-- ==== Proof.Bridge.lean ====
/-
  From the kernel's first region to the specification: the three arrays the second region is entered with are the
  specification's projections of the arguments.

  The host flattens x to 8192 rows (row 2048 β + s is row (β, s)), transposes each weight matrix and makes each
  bias a one-row matrix; the first region leaves relu(x · Wᵀ + b) of these in its three outputs; the host unflattens
  them.  Read at an index (β, s, o) the chain is: the unflattened array at (β, s, o) is the flat one at
  (2048 β + s, o), which is max (∑ k, x(2048 β + s, k) · Wᵀ(k, o) + b(0, o)) 0, and x(2048 β + s, k) = x(β, s, k),
  Wᵀ(k, o) = W(o, k), b(0, o) = b(o).
-/
import proofs.«123338_j20864951124606_2_alg».proof.Proof.RunAll
import proofs.«123338_j20864951124606_2_alg».proof.Proof.HostIn
import proofs.«123338_j20864951124606_2_alg».proof.Proof.FinalProj
import proofs.«123338_j20864951124606_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
  Idealize.ShloMosaic.StableHlo
open Idealize.ShloMosaic.Pipeline (Dat Cfg Window)

variable (m : (ℓ : Loc nD τ sig) → Buf (Elt Ideal) ℓ)

/-- The q array the second region is entered with is the specification's projection of the arguments. -/
theorem q_eq (c : Dev nD) :
    (V3 m c main_v12 : Cert.AttnSpec.A3)
      = Cert.AttnSpec.proj (m ((c.tc : Thread nD τ).loc main_arg0)) (m ((c.tc : Thread nD τ).loc main_arg1))
          (m ((c.tc : Thread nD τ).loc main_arg2)) := by
  funext i
  obtain ⟨bb, s, o, rfl⟩ : ∃ (bb : Fin 4) (s : Fin 2048) (o : Fin 1024), i = ix3 bb s o := ⟨i 0, i 1, i 2, eq_ix3 i⟩
  have hn : bb.val * 2048 + s.val < 8192 := by have := bb.isLt; have := s.isLt; omega
  have e1 : (W2 m c (Proc.devRef .tc main_v11_0) : (⟨S8192x1024, .f32⟩ : BufTy).Contents (Elt Ideal))
      = projArr (V1 m c main_v1) (V1 m c main_v3) (V1 m c main_v8) := (W2_arr m c 7).trans (finalQ (V1 m) c)
  refine (host_q_apply (W2 m c) bb s o ⟨bb.val * 2048 + s.val, hn⟩ rfl).trans ?_
  refine (congrFun e1 (ix2 ⟨bb.val * 2048 + s.val, hn⟩ o)).trans ?_
  refine (projArr_at _ _ _ ⟨bb.val * 2048 + s.val, hn⟩ o).trans ?_
  refine Eq.trans ?_ (Cert.AttnSpec.proj_at _ _ _ bb s o).symm
  refine congrArg (fun z => max z (Ideal.ofBits .f32 0x00000000#32)) ?_
  exact congr (congrArg HAdd.hAdd (Finset.sum_congr rfl fun k _ =>
      congr (congrArg HMul.hMul (host_x_apply (W0 m c) bb s k ⟨bb.val * 2048 + s.val, hn⟩ rfl))
        (host_wq_apply (W0 m c) k o)))
    (host_bq_apply (W0 m c) o)

/-- The k array the second region is entered with is the specification's projection of the arguments. -/
theorem k_eq (c : Dev nD) :
    (V3 m c main_v13 : Cert.AttnSpec.A3)
      = Cert.AttnSpec.proj (m ((c.tc : Thread nD τ).loc main_arg0)) (m ((c.tc : Thread nD τ).loc main_arg3))
          (m ((c.tc : Thread nD τ).loc main_arg4)) := by
  funext i
  obtain ⟨bb, s, o, rfl⟩ : ∃ (bb : Fin 4) (s : Fin 2048) (o : Fin 1024), i = ix3 bb s o := ⟨i 0, i 1, i 2, eq_ix3 i⟩
  have hn : bb.val * 2048 + s.val < 8192 := by have := bb.isLt; have := s.isLt; omega
  have e1 : (W2 m c (Proc.devRef .tc main_v11_1) : (⟨S8192x1024, .f32⟩ : BufTy).Contents (Elt Ideal))
      = projArr (V1 m c main_v1) (V1 m c main_v5) (V1 m c main_v9) := (W2_arr m c 8).trans (finalK (V1 m) c)
  refine (host_k_apply (W2 m c) bb s o ⟨bb.val * 2048 + s.val, hn⟩ rfl).trans ?_
  refine (congrFun e1 (ix2 ⟨bb.val * 2048 + s.val, hn⟩ o)).trans ?_
  refine (projArr_at _ _ _ ⟨bb.val * 2048 + s.val, hn⟩ o).trans ?_
  refine Eq.trans ?_ (Cert.AttnSpec.proj_at _ _ _ bb s o).symm
  refine congrArg (fun z => max z (Ideal.ofBits .f32 0x00000000#32)) ?_
  exact congr (congrArg HAdd.hAdd (Finset.sum_congr rfl fun k _ =>
      congr (congrArg HMul.hMul (host_x_apply (W0 m c) bb s k ⟨bb.val * 2048 + s.val, hn⟩ rfl))
        (host_wk_apply (W0 m c) k o)))
    (host_bk_apply (W0 m c) o)

/-- The v array the second region is entered with is the specification's projection of the arguments. -/
theorem v_eq (c : Dev nD) :
    (V3 m c main_v14 : Cert.AttnSpec.A3)
      = Cert.AttnSpec.proj (m ((c.tc : Thread nD τ).loc main_arg0)) (m ((c.tc : Thread nD τ).loc main_arg5))
          (m ((c.tc : Thread nD τ).loc main_arg6)) := by
  funext i
  obtain ⟨bb, s, o, rfl⟩ : ∃ (bb : Fin 4) (s : Fin 2048) (o : Fin 1024), i = ix3 bb s o := ⟨i 0, i 1, i 2, eq_ix3 i⟩
  have hn : bb.val * 2048 + s.val < 8192 := by have := bb.isLt; have := s.isLt; omega
  have e1 : (W2 m c (Proc.devRef .tc main_v11_2) : (⟨S8192x1024, .bf16⟩ : BufTy).Contents (Elt Ideal))
      = projArr (V1 m c main_v1) (V1 m c main_v7) (V1 m c main_v10) := (W2_arr m c 9).trans (finalV (V1 m) c)
  refine (host_v_apply (W2 m c) bb s o ⟨bb.val * 2048 + s.val, hn⟩ rfl).trans ?_
  refine (congrFun e1 (ix2 ⟨bb.val * 2048 + s.val, hn⟩ o)).trans ?_
  refine (projArr_at _ _ _ ⟨bb.val * 2048 + s.val, hn⟩ o).trans ?_
  refine Eq.trans ?_ (Cert.AttnSpec.proj_at _ _ _ bb s o).symm
  refine congrArg (fun z => max z (Ideal.ofBits .f32 0x00000000#32)) ?_
  exact congr (congrArg HAdd.hAdd (Finset.sum_congr rfl fun k _ =>
      congr (congrArg HMul.hMul (host_x_apply (W0 m c) bb s k ⟨bb.val * 2048 + s.val, hn⟩ rfl))
        (host_wv_apply (W0 m c) k o)))
    (host_bv_apply (W0 m c) o)

end Cert.KernelIdeal.Hand

end
-- ==== Proof.FinalAttn.lean ====
/-
  The attention region's output array after the run, as one function of the arrays the region is entered with:
  every row of 512 queries meets its two blocks of 1024 keys at two consecutive grid points, the first resetting
  and updating the running maximum, denominator and numerator, the second updating them again and storing the
  quotient, which is the online form of softmax attention after two blocks; the second points' blocks tile the array.
-/
import proofs.«123338_j20864951124606_2_alg».proof.Proof.HalfAttn
import proofs.«123338_j20864951124606_2_alg».proof.Proof.PieceVals
import proofs.«123338_j20864951124606_2_alg».proof.Proof.Spec
import Idealize.ShloMosaic.Lib.Pipeline.Value

set_option maxRecDepth 16384

noncomputable section

namespace Cert.KernelIdeal.Hand

open Cert.KernelIdeal Cert.KernelIdeal.Gen Cert.KernelIdeal.PayVal
open Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

/-! ## The index maps, decided over the grid -/

/-- Point t is (batch t / 8, query tile t / 2 mod 4, key tile t mod 2): the queries' and the output's blocks follow
    the first two, the keys' and the values' the first and the last. -/
theorem idx_facts1 : ∀ t : Fin cfg1.N,
    win1_0.index t (0 : Fin 3) = t.val / 8 ∧ win1_0.index t (1 : Fin 3) = t.val / 2 % 4 ∧ win1_0.index t (2 : Fin 3) = 0
    ∧ win1_1.index t (0 : Fin 3) = t.val / 8 ∧ win1_1.index t (1 : Fin 3) = t.val % 2 ∧ win1_1.index t (2 : Fin 3) = 0
    ∧ win1_2.index t (0 : Fin 3) = t.val / 8 ∧ win1_2.index t (1 : Fin 3) = t.val % 2 ∧ win1_2.index t (2 : Fin 3) = 0
    ∧ win1_3.index t (0 : Fin 3) = t.val / 8 ∧ win1_3.index t (1 : Fin 3) = t.val / 2 % 4 ∧ win1_3.index t (2 : Fin 3) = 0 :=
  (by decide +kernel : ∀ t : Fin grid1.N, _)

/-! ## The blocks read off the arrays -/

/-- The queries' block at point t, row p, is the array's row (t / 2 mod 4) * 512 + p of batch t / 8. -/
theorem iblk1_0_apply (c : Dev nD) (t : Fin cfg1.N) (bb : Fin 4) (s : Fin 2048) (p : Fin 512) (o : Fin 1024)
    (hbb : bb.val = t.val / 8) (hs : s.val = t.val / 2 % 4 * 512 + p.val) :
    iblk1 V c 0 t (ix3 0 p o) = V c main_v12 (ix3 bb s o) := by
  obtain ⟨e0, e1, e2, -⟩ := idx_facts1 t
  show V c main_v12 (((cfg1.win 0).blk t).view.emb (ix3 0 p o)) = V c main_v12 (ix3 bb s o)
  refine congrArg (V c main_v12) (funext fun a => Fin.ext ?_)
  match a with
  | ⟨0, _⟩ => show win1_0.index t (0 : Fin 3) * 1 + 1 * (0 : Fin 1).val = bb.val; rw [e0, hbb]; simp
  | ⟨1, _⟩ => show win1_0.index t (1 : Fin 3) * 512 + 1 * p.val = s.val; rw [e1, hs]; omega
  | ⟨2, _⟩ => show win1_0.index t (2 : Fin 3) * 1024 + 1 * o.val = o.val; rw [e2]; omega

/-- The keys' block at point t, row j, is the array's row (t mod 2) * 1024 + j of batch t / 8. -/
theorem iblk1_1_apply (c : Dev nD) (t : Fin cfg1.N) (bb : Fin 4) (r : Fin 2048) (j : Fin 1024) (o : Fin 1024)
    (hbb : bb.val = t.val / 8) (hr : r.val = t.val % 2 * 1024 + j.val) :
    iblk1 V c 1 t (ix3 0 j o) = V c main_v13 (ix3 bb r o) := by
  obtain ⟨-, -, -, e0, e1, e2, -⟩ := idx_facts1 t
  show V c main_v13 (((cfg1.win 1).blk t).view.emb (ix3 0 j o)) = V c main_v13 (ix3 bb r o)
  refine congrArg (V c main_v13) (funext fun a => Fin.ext ?_)
  match a with
  | ⟨0, _⟩ => show win1_1.index t (0 : Fin 3) * 1 + 1 * (0 : Fin 1).val = bb.val; rw [e0, hbb]; simp
  | ⟨1, _⟩ => show win1_1.index t (1 : Fin 3) * 1024 + 1 * j.val = r.val; rw [e1, hr]; omega
  | ⟨2, _⟩ => show win1_1.index t (2 : Fin 3) * 1024 + 1 * o.val = o.val; rw [e2]; omega

/-- The values' block at point t, row j, is the array's row (t mod 2) * 1024 + j of batch t / 8. -/
theorem iblk1_2_apply (c : Dev nD) (t : Fin cfg1.N) (bb : Fin 4) (r : Fin 2048) (j : Fin 1024) (o : Fin 1024)
    (hbb : bb.val = t.val / 8) (hr : r.val = t.val % 2 * 1024 + j.val) :
    iblk1 V c 2 t (ix3 0 j o) = V c main_v14 (ix3 bb r o) := by
  obtain ⟨-, -, -, -, -, -, e0, e1, e2, -⟩ := idx_facts1 t
  show V c main_v14 (((cfg1.win 2).blk t).view.emb (ix3 0 j o)) = V c main_v14 (ix3 bb r o)
  refine congrArg (V c main_v14) (funext fun a => Fin.ext ?_)
  match a with
  | ⟨0, _⟩ => show win1_2.index t (0 : Fin 3) * 1 + 1 * (0 : Fin 1).val = bb.val; rw [e0, hbb]; simp
  | ⟨1, _⟩ => show win1_2.index t (1 : Fin 3) * 1024 + 1 * j.val = r.val; rw [e1, hr]; omega
  | ⟨2, _⟩ => show win1_2.index t (2 : Fin 3) * 1024 + 1 * o.val = o.val; rw [e2]; omega

/-! ## A block's scores and values are the specification's -/

/-- The scores of a row against key tile ki are the specification's scores at the key positions ki * 1024 + j. -/
theorem sc_blocks (q k : Cert.AttnSpec.A3) (x0 : Vec Ideal S1x512x1024 .f32) (x1 : Vec Ideal S1x1024x1024 .f32)
    (bb : Fin 4) (s : Fin 2048) (p : Fin 512) (ki : ℕ) (hki : ki < 2)
    (h0 : ∀ o : Fin 1024, x0 (ix3 0 p o) = q (ix3 bb s o))
    (h1 : ∀ (j o : Fin 1024), x1 (ix3 0 j o) = k (ix3 bb ⟨ki * 1024 + j.val, by have := j.isLt; omega⟩ o)) :
    sc x0 x1 p = fun kk : Fin 1024 => Cert.AttnSpec.score q k bb s (ki * 1024 + kk.val) := by
  funext kk
  unfold sc Cert.AttnSpec.score
  rw [dif_pos (show ki * 1024 + kk.val < 2048 by have := kk.isLt; omega)]
  exact Finset.sum_congr rfl fun o _ => by rw [h0, h1]

/-- A column of the values of key tile ki is the specification's values at the key positions ki * 1024 + j. -/
theorem val_blocks (v : Cert.AttnSpec.A3) (x2 : Vec Ideal S1x1024x1024 .bf16) (bb : Fin 4) (c' : Fin 1024) (ki : ℕ) (hki : ki < 2)
    (h2 : ∀ (j : Fin 1024), x2 (ix3 0 j c') = v (ix3 bb ⟨ki * 1024 + j.val, by have := j.isLt; omega⟩ c')) :
    (fun j : Fin 1024 => x2 (ix3 0 j c')) = fun kk : Fin 1024 => Cert.AttnSpec.value v bb c' (ki * 1024 + kk.val) := by
  funext kk
  unfold Cert.AttnSpec.value
  rw [dif_pos (show ki * 1024 + kk.val < 2048 by have := kk.isLt; omega)]
  exact h2 kk

/-- The state of the recursion after two blocks, written out. -/
theorem state_two {b : ℕ} (S β : ℕ → Fin b → EReal) :
    Cert.LibOnlineSoftmax.state S β 2
      = (Cert.LibOnlineSoftmax.stepM (Cert.LibOnlineSoftmax.stepM ⊥ (S 0)) (S 1),
          Cert.LibOnlineSoftmax.stepL (Cert.LibOnlineSoftmax.stepM ⊥ (S 0)) (Cert.LibOnlineSoftmax.stepL ⊥ 0 (S 0)) (S 1),
          Cert.LibOnlineSoftmax.stepA (Cert.LibOnlineSoftmax.stepM ⊥ (S 0)) (Cert.LibOnlineSoftmax.stepA ⊥ 0 (S 0) (β 0)) (S 1) (β 1)) := rfl

/-! ## What a last-block point leaves in the output block -/

/-- At an odd point t the output block's row p, column c', is the online form at (t / 8, (t / 2 mod 4) * 512 + p, c'):
    the point before reset the state and took the first 1024 keys, this one took the last 1024 and divided. -/
theorem lastO_at (c : Dev nD) (t : Fin cfg1.N) (h1 : t.val % 2 = 1) (bb : Fin 4) (s : Fin 2048) (p : Fin 512) (c' : Fin 1024)
    (hbb : bb.val = t.val / 8) (hs : s.val = t.val / 2 % 4 * 512 + p.val) :
    (outsAt1 V c t.val t.isLt).1 (ix3 0 p c')
      = Cert.AttnSpec.online (V c main_v12) (V c main_v13) (V c main_v14) (ix3 bb s c') := by
  have hN : cfg1.N = 32 := N_1
  have hlt : t.val - 1 < cfg1.N := Nat.lt_of_le_of_lt (Nat.sub_le _ _) t.isLt
  have h0 : ¬t.val % 2 = 0 := by omega
  have h0' : (⟨t.val - 1, hlt⟩ : Fin cfg1.N).val % 2 = 0 := by show (t.val - 1) % 2 = 0; omega
  have hS0 := sc_blocks (V c main_v12) (V c main_v13) (iblk1 V c 0 ⟨t.val - 1, hlt⟩) (iblk1 V c 1 ⟨t.val - 1, hlt⟩) bb s p 0 (by omega)
    (fun o => iblk1_0_apply V c ⟨t.val - 1, hlt⟩ bb s p o (by show bb.val = (t.val - 1) / 8; omega)
      (by show s.val = (t.val - 1) / 2 % 4 * 512 + p.val; omega))
    (fun j o => iblk1_1_apply V c ⟨t.val - 1, hlt⟩ bb _ j o (by show bb.val = (t.val - 1) / 8; omega)
      (by show 0 * 1024 + j.val = (t.val - 1) % 2 * 1024 + j.val; omega))
  have hB0 := val_blocks (V c main_v14) (iblk1 V c 2 ⟨t.val - 1, hlt⟩) bb c' 0 (by omega)
    (fun j => iblk1_2_apply V c ⟨t.val - 1, hlt⟩ bb _ j c' (by show bb.val = (t.val - 1) / 8; omega)
      (by show 0 * 1024 + j.val = (t.val - 1) % 2 * 1024 + j.val; omega))
  have hS1 := sc_blocks (V c main_v12) (V c main_v13) (iblk1 V c 0 t) (iblk1 V c 1 t) bb s p 1 (by omega)
    (fun o => iblk1_0_apply V c t bb s p o hbb hs)
    (fun j o => iblk1_1_apply V c t bb _ j o hbb (by show 1 * 1024 + j.val = t.val % 2 * 1024 + j.val; omega))
  have hB1 := val_blocks (V c main_v14) (iblk1 V c 2 t) bb c' 1 (by omega)
    (fun j => iblk1_2_apply V c t bb _ j c' hbb (by show 1 * 1024 + j.val = t.val % 2 * 1024 + j.val; omega))
  rw [outsAt1_last V c t h0]
  dsimp only
  rw [lastO_apply, outsAt1_first V c ⟨t.val - 1, hlt⟩ h0']
  dsimp only
  rw [firstM_apply, firstL_apply, firstA_apply, hS0, hB0, hS1, hB1, Cert.AttnSpec.online_at, state_two]

/-! ## From the blocks to the array -/

/-- What an odd point t writes back is block t of the online form of the arrays the region finds. -/
theorem flushed1_3_eq (c : Dev nD) (t : Fin cfg1.N) (h1 : t.val % 2 = 1) :
    (dat1 V c).flushed 3 t
      = ((cfg1.win 3).blk t).view.read (Elt Ideal) (Cert.AttnSpec.online (V c main_v12) (V c main_v13) (V c main_v14)) := by
  have hN : cfg1.N = 32 := N_1
  have ht : t.val < 32 := lt_of_lt_of_eq t.isLt hN
  show (cfg1.win 3).cut (grid1.coords t) ((dat1 V c).after 3 t) = _
  rw [after1_3]
  funext j
  obtain ⟨u, p, c', rfl⟩ : ∃ (u : Fin 1) (p : Fin 512) (c' : Fin 1024), j = ix3 u p c' := ⟨j 0, j 1, j 2, eq_ix3 j⟩
  obtain rfl : u = 0 := Subsingleton.elim _ _
  obtain ⟨-, -, -, -, -, -, -, -, -, e0, e1, e2⟩ := idx_facts1 t
  have hp : p.val < 512 := p.isLt
  show (outsAt1 V c t.val t.isLt).1 (ix3 0 p c')
    = Cert.AttnSpec.online (V c main_v12) (V c main_v13) (V c main_v14) (((cfg1.win 3).blk t).view.emb (ix3 0 p c'))
  rw [lastO_at V c t h1 ⟨t.val / 8, by omega⟩ ⟨t.val / 2 % 4 * 512 + p.val, by omega⟩ p c' rfl rfl]
  refine congrArg (Cert.AttnSpec.online (V c main_v12) (V c main_v13) (V c main_v14)) (funext fun a => Fin.ext ?_)
  match a with
  | ⟨0, _⟩ => show t.val / 8 = win1_3.index t (0 : Fin 3) * 1 + 1 * (0 : Fin 1).val; rw [e0]; simp
  | ⟨1, _⟩ => show t.val / 2 % 4 * 512 + p.val = win1_3.index t (1 : Fin 3) * 512 + 1 * p.val; rw [e1]; omega
  | ⟨2, _⟩ => show c'.val = win1_3.index t (2 : Fin 3) * 1024 + 1 * c'.val; rw [e2]; omega

/-- An index of the array is in point t's block iff each coordinate is in the block's range on its axis. -/
theorem mem_blk1_3 (t : Fin cfg1.N) (i : S4x2048x1024.Idx) :
    i ∈ ((cfg1.win 3).blk t).view.set
      ↔ ∀ a : Fin 3, win1_3.index t a * S1x512x1024.size a ≤ (i a).val
          ∧ (i a).val < win1_3.index t a * S1x512x1024.size a + S1x512x1024.size a := by
  show i ∈ ((View.whole main_v15).slice (win1_3.rect t)).set ↔ _
  rw [View.set_slice_whole, Rect.mem_set_unit]
  exact Iff.rfl

/-- Every index of the array lies in the block of an odd point: (batch, row, column) in that of
    ((batch * 4 + row / 512) * 2 + 1). -/
theorem cover1_3 (i : S4x2048x1024.Idx) :
    ∃ t : Fin cfg1.N, (cfg1.win 3).flush t = true ∧ i ∈ ((cfg1.win 3).blk t).view.set := by
  have hN : cfg1.N = 32 := N_1
  have hi0 : (i 0).val < 4 := (i 0).isLt
  have hi1 : (i 1).val < 2048 := (i 1).isLt
  have hi2 : (i 2).val < 1024 := (i 2).isLt
  have hlt : ((i 0).val * 4 + (i 1).val / 512) * 2 + 1 < cfg1.N := by omega
  refine ⟨⟨((i 0).val * 4 + (i 1).val / 512) * 2 + 1, hlt⟩, (flush1_3 _).mpr (by
    show (((i 0).val * 4 + (i 1).val / 512) * 2 + 1) % 2 = 1; omega), ?_⟩
  rw [mem_blk1_3]
  obtain ⟨-, -, -, -, -, -, -, -, -, e0, e1, e2⟩ := idx_facts1 ⟨((i 0).val * 4 + (i 1).val / 512) * 2 + 1, hlt⟩
  have e0' : win1_3.index ⟨((i 0).val * 4 + (i 1).val / 512) * 2 + 1, hlt⟩ (0 : Fin 3) = (i 0).val := by
    rw [e0]; show (((i 0).val * 4 + (i 1).val / 512) * 2 + 1) / 8 = (i 0).val; omega
  have e1' : win1_3.index ⟨((i 0).val * 4 + (i 1).val / 512) * 2 + 1, hlt⟩ (1 : Fin 3) = (i 1).val / 512 := by
    rw [e1]; show (((i 0).val * 4 + (i 1).val / 512) * 2 + 1) / 2 % 4 = (i 1).val / 512; omega
  intro a
  match a with
  | ⟨0, _⟩ =>
    show win1_3.index _ (0 : Fin 3) * 1 ≤ (i 0).val ∧ (i 0).val < win1_3.index _ (0 : Fin 3) * 1 + 1
    rw [e0']; omega
  | ⟨1, _⟩ =>
    show win1_3.index _ (1 : Fin 3) * 512 ≤ (i 1).val ∧ (i 1).val < win1_3.index _ (1 : Fin 3) * 512 + 512
    rw [e1']; omega
  | ⟨2, _⟩ =>
    show win1_3.index _ (2 : Fin 3) * 1024 ≤ (i 2).val ∧ (i 2).val < win1_3.index _ (2 : Fin 3) * 1024 + 1024
    rw [e2]; omega

/-- THE ARRAY after the run: the online form of softmax attention of the three arrays the region is entered with. -/
theorem finalO (c : Dev nD) :
    (dat1 V c).arrAt 3 cfg1.N = Cert.AttnSpec.online (V c main_v12) (V c main_v13) (V c main_v14) :=
  (dat1 V c).arrAt_eq_of_cover 3 (Cert.AttnSpec.online (V c main_v12) (V c main_v13) (V c main_v14))
    (fun t hf => flushed1_3_eq V c t ((flush1_3 t).mp hf)) cover1_3

end Cert.KernelIdeal.Hand

end
-- ==== Proof.RefIsSpec.lean ====
/-
  The reference program computes the specification: its result, read index by index through the
  generated stage lemmas, is softmax attention of the three ReLU projections.

  Each stage is read at an index built from its coordinates: the projections (a contraction over the
  input feature, plus the bias, joined with 0), the logits (a contraction over the output feature), the
  row maximum (a fold of max from -∞ over the key axis, joined with -∞), the exponentials, their row
  sums from 0, the quotients, and the last contraction over the key axis against the values.
-/
import proofs.«123338_j20864951124606_2_alg».proof.Proof.Spec
import proofs.«123338_j20864951124606_2_alg».proof.Proof.Gen.ReferenceIdeal.Read

noncomputable section

namespace Cert.AttnSpec

open Idealize.ShloMosaic Idealize.ShloMosaic.ValueIdx Cert.ReferenceIdeal Cert.ReferenceIdeal.Gen
  Cert.ReferenceIdeal.Read

/-- The argument arrays' types, as the generated stage definitions take them. -/
abbrev T3 : Type := (⟨S4x2048x1024, .f32⟩ : BufTy).Contents (Elt Ideal)
abbrev T2 : Type := (⟨S1024x1024, .f32⟩ : BufTy).Contents (Elt Ideal)
abbrev T1 : Type := (⟨S1024, .f32⟩ : BufTy).Contents (Elt Ideal)

/-- The pattern of -∞ denotes ⊥. -/
theorem ofBits_neg_inf : Ideal.ofBits .f32 0xFF800000#32 = ⊥ := by simp [Ideal.ofBits, Ideal.ieee]

/-- A fold of the float maximum over extended reals is the fold of max. -/
theorem fold_maximumf {ι : Type} (s : Finset ι) (b : EReal) (f : ι → EReal) :
    s.fold (FloatOps.maximumf (F := Ideal) (φ := .f32)) b f = s.fold max b f := rfl

/-! ### The indices the stages read -/

theorem lidx_v0 (bb : Fin 4) (s : Fin 2048) (o d : Fin 1024) : lidx_main_v0 (ix3 bb s o) d = ix3 bb s d := by
  funext a; match a with | ⟨0, _⟩ => rfl | ⟨1, _⟩ => rfl | ⟨2, _⟩ => rfl
theorem ridx_v0 (bb : Fin 4) (s : Fin 2048) (o d : Fin 1024) : ridx_main_v0 (ix3 bb s o) d = ix2 o d := by
  funext a; match a with | ⟨0, _⟩ => rfl | ⟨1, _⟩ => rfl
theorem bidx_v2 (bb : Fin 4) (s : Fin 2048) (o : Fin 1024) : idx_main_v1 (idx_main_v2 (ix3 bb s o)) = ix1 o := by
  funext a; match a with | ⟨0, _⟩ => rfl
theorem lidx_v5 (bb : Fin 4) (s : Fin 2048) (o d : Fin 1024) : lidx_main_v5 (ix3 bb s o) d = ix3 bb s d := by
  funext a; match a with | ⟨0, _⟩ => rfl | ⟨1, _⟩ => rfl | ⟨2, _⟩ => rfl
theorem ridx_v5 (bb : Fin 4) (s : Fin 2048) (o d : Fin 1024) : ridx_main_v5 (ix3 bb s o) d = ix2 o d := by
  funext a; match a with | ⟨0, _⟩ => rfl | ⟨1, _⟩ => rfl
theorem bidx_v7 (bb : Fin 4) (s : Fin 2048) (o : Fin 1024) : idx_main_v6 (idx_main_v7 (ix3 bb s o)) = ix1 o := by
  funext a; match a with | ⟨0, _⟩ => rfl
theorem lidx_v10 (bb : Fin 4) (s : Fin 2048) (o d : Fin 1024) : lidx_main_v10 (ix3 bb s o) d = ix3 bb s d := by
  funext a; match a with | ⟨0, _⟩ => rfl | ⟨1, _⟩ => rfl | ⟨2, _⟩ => rfl
theorem ridx_v10 (bb : Fin 4) (s : Fin 2048) (o d : Fin 1024) : ridx_main_v10 (ix3 bb s o) d = ix2 o d := by
  funext a; match a with | ⟨0, _⟩ => rfl | ⟨1, _⟩ => rfl
theorem bidx_v12 (bb : Fin 4) (s : Fin 2048) (o : Fin 1024) : idx_main_v11 (idx_main_v12 (ix3 bb s o)) = ix1 o := by
  funext a; match a with | ⟨0, _⟩ => rfl
theorem lidx_v15 (bb : Fin 4) (s t : Fin 2048) (o : Fin 1024) : lidx_main_v15 (ix3 bb s t) o = ix3 bb s o := by
  funext a; match a with | ⟨0, _⟩ => rfl | ⟨1, _⟩ => rfl | ⟨2, _⟩ => rfl
theorem ridx_v15 (bb : Fin 4) (s t : Fin 2048) (o : Fin 1024) : ridx_main_v15 (ix3 bb s t) o = ix3 bb t o := by
  funext a; match a with | ⟨0, _⟩ => rfl | ⟨1, _⟩ => rfl | ⟨2, _⟩ => rfl
theorem idx_v19_v20 (bb : Fin 4) (s t : Fin 2048) : idx_main_v19 (idx_main_v20 (ix3 bb s t)) = ix2 bb s := by
  funext a; match a with | ⟨0, _⟩ => rfl | ⟨1, _⟩ => rfl
theorem idx_v23 (bb : Fin 4) (s t : Fin 2048) : idx_main_v23 (ix2 bb s) t = ix3 bb s t := by
  funext a; match a with | ⟨0, _⟩ => rfl | ⟨1, _⟩ => rfl | ⟨2, _⟩ => rfl
theorem idx_v24_v25 (bb : Fin 4) (s t : Fin 2048) : idx_main_v24 (idx_main_v25 (ix3 bb s t)) = ix2 bb s := by
  funext a; match a with | ⟨0, _⟩ => rfl | ⟨1, _⟩ => rfl
theorem lidx_v27 (bb : Fin 4) (s t : Fin 2048) (o : Fin 1024) : lidx_main_v27 (ix3 bb s o) t = ix3 bb s t := by
  funext a; match a with | ⟨0, _⟩ => rfl | ⟨1, _⟩ => rfl | ⟨2, _⟩ => rfl
theorem ridx_v27 (bb : Fin 4) (s t : Fin 2048) (o : Fin 1024) : ridx_main_v27 (ix3 bb s o) t = ix3 bb t o := by
  funext a; match a with | ⟨0, _⟩ => rfl | ⟨1, _⟩ => rfl | ⟨2, _⟩ => rfl
/-- Dropping the key axis of the logits' shape leaves the rows' shape. -/
theorem reduces_keys : S4x2048x2048.Reduces [2] S4x2048 := by decide

/-- The key axis's coordinate inserted into a row's index. -/
theorem lift_at (bb : Fin 4) (s t : Fin 2048) :
    reduces_keys.lift (ix2 bb s) t = ix3 bb s t :=
  funext fun a => Fin.ext (by match a with | ⟨0, _⟩ => rfl | ⟨1, _⟩ => rfl | ⟨2, _⟩ => rfl)

/-! ### The projections -/

theorem v4_eq (x0 : T3) (x1 : T2) (x2 : T1) : val_main_v4 (F := Ideal) x0 x1 x2 = proj x0 x1 x2 := by
  funext i
  obtain ⟨bb, s, o, rfl⟩ : ∃ (bb : Fin 4) (s : Fin 2048) (o : Fin 1024), i = ix3 bb s o := ⟨i 0, i 1, i 2, eq_ix3 i⟩
  rw [val_main_v4_apply, val_main_v3_apply, val_main_v0_apply, val_main_v2_apply, val_main_v1_apply,
    val_main_call0_v0_apply, val_main_call0_cst_apply, Ideal.maximumf_def, Ideal.addf_def, Ideal.ofBits_def,
    proj_at, bidx_v2]
  exact congrArg (fun z => max (z + x2 (ix1 o)) (Ideal.ofBits .f32 0x00000000#32))
    (Finset.sum_congr rfl fun d _ => by rw [lidx_v0, ridx_v0])

theorem v9_eq (x0 : T3) (x3 : T2) (x4 : T1) : val_main_v9 (F := Ideal) x0 x3 x4 = proj x0 x3 x4 := by
  funext i
  obtain ⟨bb, s, o, rfl⟩ : ∃ (bb : Fin 4) (s : Fin 2048) (o : Fin 1024), i = ix3 bb s o := ⟨i 0, i 1, i 2, eq_ix3 i⟩
  rw [val_main_v9_apply, val_main_v8_apply, val_main_v5_apply, val_main_v7_apply, val_main_v6_apply,
    val_main_call1_v0_apply, val_main_call1_cst_apply, Ideal.maximumf_def, Ideal.addf_def, Ideal.ofBits_def,
    proj_at, bidx_v7]
  exact congrArg (fun z => max (z + x4 (ix1 o)) (Ideal.ofBits .f32 0x00000000#32))
    (Finset.sum_congr rfl fun d _ => by rw [lidx_v5, ridx_v5])

theorem v14_eq (x0 : T3) (x5 : T2) (x6 : T1) : val_main_v14 (F := Ideal) x0 x5 x6 = proj x0 x5 x6 := by
  funext i
  obtain ⟨bb, s, o, rfl⟩ : ∃ (bb : Fin 4) (s : Fin 2048) (o : Fin 1024), i = ix3 bb s o := ⟨i 0, i 1, i 2, eq_ix3 i⟩
  rw [val_main_v14_apply, val_main_v13_apply, val_main_v10_apply, val_main_v12_apply, val_main_v11_apply,
    val_main_call2_v0_apply, val_main_call2_cst_apply, Ideal.maximumf_def, Ideal.addf_def, Ideal.ofBits_def,
    proj_at, bidx_v12]
  exact congrArg (fun z => max (z + x6 (ix1 o)) (Ideal.ofBits .f32 0x00000000#32))
    (Finset.sum_congr rfl fun d _ => by rw [lidx_v10, ridx_v10])

/-! ### The logits, the row maximum, the exponentials, the row sums, the quotients -/

section Softmax
variable (x0 : T3) (x1 : T2) (x2 : T1) (x3 : T2) (x4 : T1)

theorem v15_at (bb : Fin 4) (s t : Fin 2048) :
    val_main_v15 (F := Ideal) x0 x1 x2 x3 x4 (ix3 bb s t) = logit (proj x0 x1 x2) (proj x0 x3 x4) bb s t := by
  rw [val_main_v15_apply, v4_eq, v9_eq]
  unfold logit
  exact Finset.sum_congr rfl fun o _ => by rw [lidx_v15, ridx_v15]

theorem v16_at (bb : Fin 4) (s : Fin 2048) :
    val_main_v16 (F := Ideal) x0 x1 x2 x3 x4 (ix2 bb s)
      = (Finset.univ : Finset (Fin 2048)).fold max ⊥ (fun t => logit (proj x0 x1 x2) (proj x0 x3 x4) bb s t) := by
  unfold val_main_v16
  rw [Host.reduce_eq_fold_single FloatOps.maximumf _ _ reducesTo_S4x2048x2048_S4x2048_d2 reduces_keys h_S_ (ix2 bb s),
    fold_maximumf, val_main_cst_apply, Ideal.ofBits_def, ofBits_neg_inf]
  refine Finset.fold_congr fun t _ => ?_
  exact (congrArg (val_main_v15 (F := Ideal) x0 x1 x2 x3 x4) (lift_at bb s t)).trans (v15_at x0 x1 x2 x3 x4 bb s t)

theorem v20_at (bb : Fin 4) (s t : Fin 2048) :
    val_main_v20 (F := Ideal) x0 x1 x2 x3 x4 (ix3 bb s t) = rowMax (proj x0 x1 x2) (proj x0 x3 x4) bb s := by
  rw [val_main_v20_apply, val_main_v19_apply, idx_v19_v20, val_main_v18_apply, val_main_v17_apply,
    val_main_cst_0_apply, v16_at, Ideal.maximumf_def, Ideal.ofBits_def, ofBits_neg_inf]
  rfl

theorem v22_at (bb : Fin 4) (s t : Fin 2048) :
    val_main_v22 (F := Ideal) x0 x1 x2 x3 x4 (ix3 bb s t)
      = Ideal.exp (logit (proj x0 x1 x2) (proj x0 x3 x4) bb s t - rowMax (proj x0 x1 x2) (proj x0 x3 x4) bb s) := by
  rw [val_main_v22_apply, val_main_v21_apply, v15_at, v20_at, Ideal.hostUnary_exp_def, Ideal.subf_def]

theorem v23_at (bb : Fin 4) (s : Fin 2048) :
    val_main_v23 (F := Ideal) x0 x1 x2 x3 x4 (ix2 bb s)
      = 0 + ∑ t' : Fin 2048,
          Ideal.exp (logit (proj x0 x1 x2) (proj x0 x3 x4) bb s t' - rowMax (proj x0 x1 x2) (proj x0 x3 x4) bb s) := by
  rw [val_main_v23_apply, val_main_cst_1_apply, Ideal.ofBits_def, Ideal.ofBits_zero_f32]
  exact congrArg (fun z => (0 : EReal) + z) (Finset.sum_congr rfl fun t _ => by rw [idx_v23, v22_at])

theorem v26_at (bb : Fin 4) (s t : Fin 2048) :
    val_main_v26 (F := Ideal) x0 x1 x2 x3 x4 (ix3 bb s t)
      = Ideal.div
          (Ideal.exp (logit (proj x0 x1 x2) (proj x0 x3 x4) bb s t - rowMax (proj x0 x1 x2) (proj x0 x3 x4) bb s))
          (0 + ∑ t' : Fin 2048,
            Ideal.exp (logit (proj x0 x1 x2) (proj x0 x3 x4) bb s t' - rowMax (proj x0 x1 x2) (proj x0 x3 x4) bb s)) := by
  rw [val_main_v26_apply, val_main_v25_apply, val_main_v24_apply, idx_v24_v25, v22_at, v23_at, Ideal.hostDivf_def]

end Softmax

/-! ### The result -/

/-- The reference's result is the specification's. -/
theorem ref_eq_G (x0 : T3) (x1 : T2) (x2 : T1) (x3 : T2) (x4 : T1) (x5 : T2) (x6 : T1) :
    Cert.ReferenceIdeal.Read.val_main_v27 (F := Ideal) x0 x1 x2 x3 x4 x5 x6 = Cert.AttnSpec.G x0 x1 x2 x3 x4 x5 x6 := by
  funext i
  obtain ⟨bb, s, o, rfl⟩ : ∃ (bb : Fin 4) (s : Fin 2048) (o : Fin 1024), i = ix3 bb s o := ⟨i 0, i 1, i 2, eq_ix3 i⟩
  rw [val_main_v27_apply, v14_eq]
  unfold G
  rw [attn_at]
  exact Finset.sum_congr rfl fun t _ => by rw [lidx_v27, ridx_v27, v26_at]

end Cert.AttnSpec

end
-- ==== Proof.PreFinite.lean ====
/-
  From the printed precondition to finiteness: if "all (|a| < +∞)" holds of each of the seven argument
  arrays, then every element of each is a finite extended real.

  The precondition is a conjunction (by the one-bit "and") of seven reductions by "and", each over all
  axes of the array of comparisons |a i| < +∞.  A conjunction that is 1 has both conjuncts 1; a reduction
  by "and" into one element that is 1 had a 1 at every index; and |x| < +∞ on the extended reals says that
  x is neither +∞ nor -∞.
-/
import proofs.«123338_j20864951124606_2_alg».proof.Pre_finite_inputs
import Idealize.ShloMosaic.Lib.ReduceAll
import Idealize.ShloMosaic.Lib.ValueIdx
import Idealize.ShloMosaic.PureOps.Ideal

noncomputable section

namespace Cert.PreFinite

open Idealize.ShloMosaic Cert.Pre_finite_inputs

/-- The scalar shape has one index. -/
instance : Subsingleton S_.Idx := ⟨fun _ _ => funext fun d => d.elim0⟩

/-- |x| < +∞ says that x is finite. -/
theorem finite_of_abs_lt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  change BitVec.ofBool (decide (max (x : EReal) (-(x : EReal)) < Ideal.ofBits .f32 0x7F800000#32)) = 1#1 at h
  rw [htop] at h
  have hlt : max (x : EReal) (-(x : EReal)) < ⊤ := by
    by_contra hn
    rw [decide_eq_false hn] at h
    exact absurd h (by decide)
  rw [max_lt_iff] at hlt
  refine ⟨lt_top_iff_ne_top.mp hlt.1, fun hb => ?_⟩
  rw [hb, EReal.neg_bot] at hlt
  exact lt_irrefl _ hlt.2

/-- The precondition gives the finiteness of every element of every argument. -/
theorem finite_of_pre [Cert.Pre_finite_inputs.Facts]
    (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) ∧ (∀ i, a5 i ≠ ⊤ ∧ a5 i ≠ ⊥)
      ∧ (∀ i, a6 i ≠ ⊤ ∧ a6 i ≠ ⊥) := by
  have h0 := congrFun h ValueIdx.ix0
  dsimp only [Cert.Pre_finite_inputs.fn, Cert.Pre_finite_inputs.fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨fun i => finite_of_abs_lt (a0 i) (Host.reduce_andi_all _ _ _ _ _ e0 i),
    fun i => finite_of_abs_lt (a1 i) (Host.reduce_andi_all _ _ _ _ _ e1 i),
    fun i => finite_of_abs_lt (a2 i) (Host.reduce_andi_all _ _ _ _ _ e2 i),
    fun i => finite_of_abs_lt (a3 i) (Host.reduce_andi_all _ _ _ _ _ e3 i),
    fun i => finite_of_abs_lt (a4 i) (Host.reduce_andi_all _ _ _ _ _ e4 i),
    fun i => finite_of_abs_lt (a5 i) (Host.reduce_andi_all _ _ _ _ _ e5 i),
    fun i => finite_of_abs_lt (a6 i) (Host.reduce_andi_all _ _ _ _ _ e6 i)⟩

end Cert.PreFinite

end
-- ==== Proof.lean ====
/-
  The kernel computes q, k, v = relu(x·Wᵀ + b) in a first region (one matrix product per projection, block by block over
  the rows of x) and softmax(q·kᵀ)·v in a second by the online-softmax recursion: for each tile of 512 queries the keys
  come in two blocks of 1024; a running maximum M, denominator L and numerator A (from -inf, 0, 0) are rescaled by
  exp(M_old - M_new) at each block before the block's terms are added, and the output is A / L. The reference computes
  the same projections and the ordinary softmax-weighted sum. On the extended reals, for finite inputs, the two are one
  function of the arguments: the projections are finite, so every score is a real, and after the last block A / L is
  ∑ (exp(s - max) / ∑ exp(s - max))·v whatever real shift the recursion subtracted.

  The frames (every weakly fair execution terminates, faults nowhere and leaves the arguments as launched) are the run of
  @main as five segments — host operations, the projection region, three reshapes, the attention region — at either
  float instance; the attention region's invariant carries the three scratch buffers from each grid point to the next.
-/
import proofs.«123338_j20864951124606_2_alg».proof.Defs
import proofs.«123338_j20864951124606_2_alg».proof.Proof.Gen.Kernel
import proofs.«123338_j20864951124606_2_alg».proof.Proof.Gen.KernelIdeal
import proofs.«123338_j20864951124606_2_alg».proof.Proof.Gen.ReferenceIdeal
import proofs.«123338_j20864951124606_2_alg».proof.Proof.Gen.Pre_finite_inputs
import proofs.«123338_j20864951124606_2_alg».proof.Proof.BitsRunAll
import proofs.«123338_j20864951124606_2_alg».proof.Proof.RunAll
import proofs.«123338_j20864951124606_2_alg».proof.Proof.Bridge
import proofs.«123338_j20864951124606_2_alg».proof.Proof.FinalAttn
import proofs.«123338_j20864951124606_2_alg».proof.Proof.RefIsSpec
import proofs.«123338_j20864951124606_2_alg».proof.Proof.PreFinite
import Idealize.ShloMosaic.Adequacy
import Idealize.ShloMosaic.Init

noncomputable section

namespace Cert.Proof

open Idealize.ShloMosaic Idealize.ShloMosaic.TcCoe Idealize.SL.Sem

/-- The word-level kernel's frame: the run of @main's segments at the bit-exact instance. -/
theorem frame_k : Cert.frame_Kernel := fun m ρ _ => Cert.Kernel.Hand.frame (F := Bits) m ρ

/-- The idealized kernel's frame: the same run at the extended reals. -/
theorem frame_ki : Cert.frame_KernelIdeal := fun m ρ _ => Cert.KernelIdeal.Hand.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- What the attention region leaves in the result array, for finite inputs: softmax attention of the three projections
    of the arguments — the online recursion over the two key blocks (the region's final array), read at projections that
    are the host reshapes of the first region's outputs, equals the softmax-weighted sum. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Hand.dat1 (Cert.KernelIdeal.Hand.V3 m) c).arrAt 3 Cert.KernelIdeal.cfg1.N = Cert.AttnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨h0, h1, h2, h3, h4, h5, h6⟩ := Cert.PreFinite.finite_of_pre _ _ _ _ _ _ _ (hpre c)
  rw [Cert.KernelIdeal.Hand.finalO, Cert.KernelIdeal.Hand.q_eq, Cert.KernelIdeal.Hand.k_eq, Cert.KernelIdeal.Hand.v_eq]
  exact Cert.AttnSpec.online_eq_G h0 h1 h2 h3 h4 h5 h6

/-- Both idealized programs, run from memories agreeing on the arguments, end with the result array at softmax
    attention of the projections of the arguments, and the arguments unchanged. -/
theorem algebraic : Cert.algebraic_KernelIdeal_ReferenceIdeal := by
  intro m ρ m' ρ' hpre hagree
  refine ⟨fun c => Cert.AttnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (kernel_result m hpre c), (h c).2⟩)
      (Cert.KernelIdeal.Hand.run_read (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.AttnSpec.ref_eq_G,
      (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
